-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S16x1x1 : Shape := ⟨3, ![16, 1, 1]⟩
abbrev S512x256 : Shape := ⟨2, ![512, 256]⟩
abbrev S1024x256 : Shape := ⟨2, ![1024, 256]⟩
abbrev S1x1x1 : Shape := ⟨3, ![1, 1, 1]⟩
abbrev S512x1 : Shape := ⟨2, ![512, 1]⟩
abbrev S512 : Shape := ⟨1, ![512]⟩
abbrev S256x1024 : Shape := ⟨2, ![256, 1024]⟩
abbrev S512x1024 : Shape := ⟨2, ![512, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 21
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S16x1x1, .f32⟩
  | .hbm, ⟨3, _⟩ => ⟨S_, .f32⟩
  | .hbm, ⟨4, _⟩ => ⟨S_, .f32⟩
  | .hbm, ⟨5, _⟩ => ⟨S16x1x1, .f32⟩
  | .hbm, ⟨6, _⟩ => ⟨S_, .f32⟩
  | .hbm, ⟨7, _⟩ => ⟨S_, .f32⟩
  | .hbm, ⟨8, _⟩ => ⟨S16x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S512x1, .f32⟩
  | .local _ .vmem, ⟨8, _⟩ => ⟨S512x256, .bf16⟩
  | .local _ .vmem, ⟨9, _⟩ => ⟨S512x256, .f32⟩
  | .local _ .vmem, ⟨10, _⟩ => ⟨S512x256, .f32⟩
  | .local _ .vmem, ⟨11, _⟩ => ⟨S1024x256, .f32⟩
  | .local _ .vmem, ⟨12, _⟩ => ⟨S1024x256, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S512x1, .f32⟩
  | .local _ .vmem, ⟨17, _⟩ => ⟨S512x256, .bf16⟩
  | .local _ .vmem, ⟨18, _⟩ => ⟨S512x256, .f32⟩
  | .local _ .vmem, ⟨19, _⟩ => ⟨S512x256, .f32⟩
  | .local _ .vmem, ⟨20, _⟩ => ⟨S1024x256, .f32⟩
  | .local _ .vmem, ⟨21, _⟩ => ⟨S1024x256, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S512x1, .f32⟩
  | .local _ .vmem, ⟨26, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def k2_cond2 (i : grid2.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_24 : BitVec 32 := 0#32
  let v46 : BitVec 1 := Scalar.cmpi .ne v45 c0_i32_24
  v46

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  shapeCasts_S512x256_S512x256 : S512x256.ShapeCasts S512x256
  packedbf16_S512x256_S512x256_0_0 : (Rect.unit (s := S512x256) ![0, 0] S512x256.size inb_S512x256_S512x256_0_0).PackedRows (EltTy.packing .bf16)
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  iota_S512x1024_d0_w32 : S512x1024.Iotas .tc 32 [0]
  iota_S512x1024_d1_w32 : S512x1024.Iotas .tc 32 [1]
  reduces_S512x1024_S512 : S512x1024.Reduces [1] S512
  reduces_S512x1_S1 : S512x1.Reduces [0] S1
  shapeCasts_S1_S1x1 : S1.ShapeCasts S1x1
  shapeCasts_S1x1_S1x1x1 : S1x1.ShapeCasts S1x1x1
  reducesTo_S16x1x1_S_d0_1_2 : S16x1x1.ReducesTo [0, 1, 2] S_
  h_S_ : 0 < S_.numel
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S16x1x1.size a
  hwx1_2 : ∀ i : grid1.Coords, EltTy.bits .f32 = 32 ∨ (Rect.block (s := S16x1x1) S1x1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S16x1x1.size a
  hwx2_2 : ∀ i : grid2.Coords, EltTy.bits .f32 = 32 ∨ (Rect.block (s := S16x1x1) S1x1x1.size (cc2_transform_2 i) (hinb2_2 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 135
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S_, .f32⟩
  | 4 => ⟨S8192, .f32⟩
  | 5 => ⟨S8192x1, .f32⟩
  | 6 => ⟨S8192x256, .f32⟩
  | 7 => ⟨S_, .f32⟩
  | 8 => ⟨S8192, .f32⟩
  | 9 => ⟨S1x8192, .f32⟩
  | 10 => ⟨S8192x8192, .f32⟩
  | 11 => ⟨S8192x8192, .f32⟩
  | 12 => ⟨S8192x8192, .f32⟩
  | 13 => ⟨S256x8192, .f32⟩
  | 14 => ⟨S8192x8192, .f32⟩
  | 15 => ⟨S_, .f32⟩
  | 16 => ⟨S8192x8192, .f32⟩
  | 17 => ⟨S8192x8192, .f32⟩
  | 18 => ⟨S8192x8192, .f32⟩
  | 19 => ⟨S_, .f32⟩
  | 20 => ⟨S8192x8192, .f32⟩
  | 21 => ⟨S8192x8192, .f32⟩
  | 22 => ⟨S_, .f32⟩
  | 23 => ⟨S8192x8192, .f32⟩
  | 24 => ⟨S8192x8192, .i1⟩
  | 25 => ⟨S_, .f32⟩
  | 26 => ⟨S_, .f32⟩
  | 27 => ⟨S8192x8192, .f32⟩
  | 28 => ⟨S8192x8192, .f32⟩
  | 29 => ⟨S_, .f32⟩
  | 30 => ⟨S8192x8192, .f32⟩
  | 31 => ⟨S8192x8192, .i1⟩
  | 32 => ⟨S8192x8192, .f32⟩
  | 33 => ⟨S_, .f32⟩
  | 34 => ⟨S_, .f32⟩
  | 35 => ⟨S8192x8192, .f32⟩
  | 36 => ⟨S8192x8192, .f32⟩
  | 37 => ⟨S8192x256, .f32⟩
  | 38 => ⟨S_, .f32⟩
  | 39 => ⟨S8192, .f32⟩
  | 40 => ⟨S8192x1, .f32⟩
  | 41 => ⟨S8192x256, .f32⟩
  | 42 => ⟨S_, .f32⟩
  | 43 => ⟨S8192, .f32⟩
  | 44 => ⟨S1x8192, .f32⟩
  | 45 => ⟨S8192x8192, .f32⟩
  | 46 => ⟨S8192x8192, .f32⟩
  | 47 => ⟨S8192x8192, .f32⟩
  | 48 => ⟨S256x8192, .f32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .i1⟩
  | 60 => ⟨S_, .f32⟩
  | 61 => ⟨S_, .f32⟩
  | 62 => ⟨S8192x8192, .f32⟩
  | 63 => ⟨S8192x8192, .f32⟩
  | 64 => ⟨S_, .f32⟩
  | 65 => ⟨S8192x8192, .f32⟩
  | 66 => ⟨S8192x8192, .i1⟩
  | 67 => ⟨S8192x8192, .f32⟩
  | 68 => ⟨S_, .f32⟩
  | 69 => ⟨S_, .f32⟩
  | 70 => ⟨S8192x8192, .f32⟩
  | 71 => ⟨S8192x8192, .f32⟩
  | 72 => ⟨S8192x256, .f32⟩
  | 73 => ⟨S_, .f32⟩
  | 74 => ⟨S8192, .f32⟩
  | 75 => ⟨S8192x1, .f32⟩
  | 76 => ⟨S8192x256, .f32⟩
  | 77 => ⟨S_, .f32⟩
  | 78 => ⟨S8192, .f32⟩
  | 79 => ⟨S1x8192, .f32⟩
  | 80 => ⟨S8192x8192, .f32⟩
  | 81 => ⟨S8192x8192, .f32⟩
  | 82 => ⟨S8192x8192, .f32⟩
  | 83 => ⟨S256x8192, .f32⟩
  | 84 => ⟨S8192x8192, .f32⟩
  | 85 => ⟨S_, .f32⟩
  | 86 => ⟨S8192x8192, .f32⟩
  | 87 => ⟨S8192x8192, .f32⟩
  | 88 => ⟨S8192x8192, .f32⟩
  | 89 => ⟨S_, .f32⟩
  | 90 => ⟨S8192x8192, .f32⟩
  | 91 => ⟨S8192x8192, .f32⟩
  | 92 => ⟨S_, .f32⟩
  | 93 => ⟨S8192x8192, .f32⟩
  | 94 => ⟨S8192x8192, .i1⟩
  | 95 => ⟨S_, .f32⟩
  | 96 => ⟨S_, .f32⟩
  | 97 => ⟨S8192x8192, .f32⟩
  | 98 => ⟨S8192x8192, .f32⟩
  | 99 => ⟨S_, .f32⟩
  | 100 => ⟨S8192x8192, .f32⟩
  | 101 => ⟨S8192x8192, .i1⟩
  | 102 => ⟨S8192x8192, .f32⟩
  | 103 => ⟨S_, .f32⟩
  | 104 => ⟨S_, .f32⟩
  | 105 => ⟨S8192x8192, .f32⟩
  | 106 => ⟨S8192x8192, .f32⟩
  | 107 => ⟨S_, .f32⟩
  | 108 => ⟨S8192x8192, .f32⟩
  | 109 => ⟨S8192x8192, .f32⟩
  | 110 => ⟨S8192x8192, .f32⟩
  | 111 => ⟨S_, .f32⟩
  | 112 => ⟨S8192x8192, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_16 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_18 : Ref sig .tc := ⟨.hbm, 89, rfl⟩
abbrev main_v60 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_call4_v0 : Ref sig .tc := ⟨.hbm, 96, rfl⟩
abbrev main_call4_v1 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_22 : Ref sig .tc := ⟨.hbm, 103, rfl⟩
abbrev main_call5_v0 : Ref sig .tc := ⟨.hbm, 104, rfl⟩
abbrev main_call5_v1 : Ref sig .tc := ⟨.hbm, 105, rfl⟩
abbrev main_v68 : Ref sig .tc := ⟨.hbm, 106, rfl⟩
abbrev main_cst_23 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_24 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_26 : Ref sig .tc := ⟨.hbm, 119, rfl⟩
abbrev main_v78 : Ref sig .tc := ⟨.hbm, 120, rfl⟩
abbrev main_cst_27 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_cst_29 : Ref sig .tc := ⟨.hbm, 125, rfl⟩
abbrev main_v81 : Ref sig .tc := ⟨.hbm, 126, rfl⟩
abbrev main_v82 : Ref sig .tc := ⟨.hbm, 127, rfl⟩
abbrev main_cst_30 : Ref sig .tc := ⟨.hbm, 128, rfl⟩
abbrev main_v83 : Ref sig .tc := ⟨.hbm, 129, rfl⟩
abbrev main_cst_31 : Ref sig .tc := ⟨.hbm, 130, rfl⟩
abbrev main_v84 : Ref sig .tc := ⟨.hbm, 131, rfl⟩
abbrev main_cst_32 : Ref sig .tc := ⟨.hbm, 132, rfl⟩
abbrev main_v85 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KW.Base0.lean ====
/-
  Call 0 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.Kernel.Launch
import proofs.«105376_j19189913878688_2_alg».proof.Proof.Gen.Kernel.Skeleton
import proofs.«105376_j19189913878688_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 8 = 0 :=
  (by decide +kernel : ∀ t : Fin grid0.N, first0 (grid0.coords t) ↔ t.val % 8 = 0)

/-- The point is the last of its row (j = 7): the body's second conditional. -/
abbrev last0 (i : grid0.Coords) : Prop := k0_cond2 i = 1#1
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off the last point of a row the output window is idle and not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The running sum, the row block's squared norms, and the row block's copy: whole scoped buffers of the call's own. -/
abbrev scAcc0 : Memref sig .tc .vmem S1x1x1 .f32 := Memref.whole cc0_scratch0
abbrev scSq0 : Memref sig .tc .vmem S512x1 .f32 := Memref.whole cc0_scratch1
abbrev scCp0 : Memref sig .tc .vmem S512x256 .bf16 := Memref.whole cc0_scratch2
/-- One staging buffer of the output window, through which its contents are stated. -/
abbrev VO0 : View sig .tc .vmem S1x1x1 .f32 := (Memref.whole cc0_stg2_0 : Memref sig .tc .vmem S1x1x1 .f32).view
abbrev VAcc0 : View sig .tc .vmem S1x1x1 .f32 := (scAcc0).view
abbrev VSq0 : View sig .tc .vmem S512x1 .f32 := (scSq0).view
abbrev VCp0 : View sig .tc .vmem S512x256 .bf16 := (scCp0).view

/-! ## The scratch buffers among the core's scoped buffers -/

/-- The core's scoped buffers that are neither a staging buffer of this call nor its scratch, each at some contents. -/
abbrev others0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The scoped buffers this call does not stage are its three scratch buffers, each owned at some contents, and the others. -/
theorem scoped0_eq (c : Dev nD) :
    (Pipeline.scopedRest (Ix := Unit) (Name := ℕ) (U := UR sig nD τ) (Lvl := ℕ) (Val := Elt F) spec0 c : sProp 𝕄)
      = iprop(((∃ d, owns (c : Thread nD τ) scAcc0 fullShare d) ∗ (∃ d, owns (c : Thread nD τ) scSq0 fullShare d)
          ∗ (∃ d, owns (c : Thread nD τ) scCp0 fullShare d)) ∗ others0 c) := by
  rw [Pipeline.scopedRest_split_of_list spec0 c [cc0_scratch0, cc0_scratch1, cc0_scratch2] (by decide) (by decide)]
  simp only [scAcc0, scSq0, scCp0, owns_whole, bigSepL]
  try rfl

end Cert.Kernel.Regions

end
-- ==== Proof.KW.CaseA0.lean ====
/-
  Call 0, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KW.Base0

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, ?_, ?_, fun xi E K => ?run⟩
  case run =>
    simp only [cc0__mmd_sum_kernel_eq_skeleton]; unfold cc0__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S1x1x1.Idx) :
    ∃ pc ∈ (runA0 c i arg2 harg2 arg3 harg3 arg4 harg4 arg5 harg5 arg6 harg6 arg7 harg7 hc0 hc1 x0 x1).1, y ∈ pc.1.set :=
  View.cover_of_tiledL (runA0 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S512x1.Idx) :
    ∃ pc ∈ (runA0 c i arg2 harg2 arg3 harg3 arg4 harg4 arg5 harg5 arg6 harg6 arg7 harg7 hc0 hc1 x0 x1).2.1, y ∈ pc.1.set :=
  View.cover_of_tiledL (runA0 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S512x256.Idx) :
    ∃ pc ∈ (runA0 c i arg2 harg2 arg3 harg3 arg4 harg4 arg5 harg5 arg6 harg6 arg7 harg7 hc0 hc1 x0 x1).2.2.1, y ∈ pc.1.set :=
  View.cover_of_tiledL (runA0 c i arg2 harg2 arg3 harg3 arg4 harg4 arg5 harg5 arg6 harg6 arg7 harg7 hc0 hc1 x0 x1).2.2.1 S512x256.size (by sl_kernel_rfl) y

end Cert.Kernel.Regions

end
-- ==== Proof.KW.CaseB0.lean ====
/-
  Call 0, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KW.Base0

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : ¬last0 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, fun xi E K => ?run⟩
  case run =>
    simp only [cc0__mmd_sum_kernel_eq_skeleton]; unfold cc0__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : ¬last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB0 c i arg2 harg2 arg3 harg3 arg4 harg4 arg5 harg5 arg6 harg6 arg7 harg7 hc0 hc1 x0 x1 xa xq xc).1, y ∈ pc.1.set :=
  View.cover_of_tiledL (runB0 c i arg2 harg2 arg3 harg3 arg4 harg4 arg5 harg5 arg6 harg6 arg7 harg7 hc0 hc1 x0 x1 xa xq xc).1 S1x1x1.size (by sl_kernel_rfl) y

end Cert.Kernel.Regions

end
-- ==== Proof.KW.CaseC0.lean ====
/-
  Call 0, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KW.Base0

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, ?_, fun E K => ?run⟩
  case run =>
    simp only [cc0__mmd_sum_kernel_eq_skeleton]; unfold cc0__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC0 c i arg2 harg2 arg3 harg3 arg4 harg4 arg5 harg5 arg6 harg6 arg7 harg7 hc0 hc1 x0 x1 xa xq xc).1, y ∈ pc.1.set :=
  View.cover_of_tiledL (runC0 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC0 c i arg2 harg2 arg3 harg3 arg4 harg4 arg5 harg5 arg6 harg6 arg7 harg7 hc0 hc1 x0 x1 xa xq xc).2.1, y ∈ pc.1.set :=
  View.cover_of_tiledL (runC0 c i arg2 harg2 arg3 harg3 arg4 harg4 arg5 harg5 arg6 harg6 arg7 harg7 hc0 hc1 x0 x1 xa xq xc).2.1 S1x1x1.size (by sl_kernel_rfl) y

end Cert.Kernel.Regions

end
-- ==== Proof.KW.Data0.lean ====
/-
  Call 0: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KW.CaseA0
import proofs.«105376_j19189913878688_2_alg».proof.Proof.KW.CaseB0
import proofs.«105376_j19189913878688_2_alg».proof.Proof.KW.CaseC0

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The three cases at a point -/

/-- The run of case A at a point that is the first of its row. -/
def atA0 (c : Dev nD) (t : Fin cfg0.N) (h0 : t.val % 8 = 0) :=
  runA0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    ((hfirst0 t).mpr h0) (fun h => by have := (hlast0 t).mp h; omega) (blk0 V c 0 t) (blk0 V c 1 t)
/-- The run of case B at a point inside its row, from the scratch contents handed to it. -/
def atB0 (c : Dev nD) (t : Fin cfg0.N) (h0 : ¬t.val % 8 = 0) (h1 : ¬t.val % 8 = 7)
    (xa : Vec F S1x1x1 .f32) (xq : Vec F S512x1 .f32) (xc : Vec F S512x256 .bf16) :=
  runB0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    (fun h => h0 ((hfirst0 t).mp h)) (fun h => h1 ((hlast0 t).mp h)) (blk0 V c 0 t) (blk0 V c 1 t) xa xq xc
/-- The run of case C at a point that is the last of its row. -/
def atC0 (c : Dev nD) (t : Fin cfg0.N) (h0 : ¬t.val % 8 = 0) (h1 : t.val % 8 = 7)
    (xa : Vec F S1x1x1 .f32) (xq : Vec F S512x1 .f32) (xc : Vec F S512x256 .bf16) :=
  runC0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    (fun h => h0 ((hfirst0 t).mp h)) ((hlast0 t).mpr h1) (blk0 V c 0 t) (blk0 V c 1 t) xa xq xc

/-- What each case leaves in a buffer: its pieces read back. -/
def accA0 (c : Dev nD) (t : Fin cfg0.N) (h0 : t.val % 8 = 0) : Vec F S1x1x1 .f32 :=
  VAcc0.read (Elt F) (VAcc0.writes (Elt F) VAcc0.junk (atA0 V c t h0).1)
def sqA0 (c : Dev nD) (t : Fin cfg0.N) (h0 : t.val % 8 = 0) : Vec F S512x1 .f32 :=
  VSq0.read (Elt F) (VSq0.writes (Elt F) VSq0.junk (atA0 V c t h0).2.1)
def cpA0 (c : Dev nD) (t : Fin cfg0.N) (h0 : t.val % 8 = 0) : Vec F S512x256 .bf16 :=
  VCp0.read (Elt F) (VCp0.writes (Elt F) VCp0.junk (atA0 V c t h0).2.2.1)
def accB0 (c : Dev nD) (t : Fin cfg0.N) (h0 : ¬t.val % 8 = 0) (h1 : ¬t.val % 8 = 7)
    (xa : Vec F S1x1x1 .f32) (xq : Vec F S512x1 .f32) (xc : Vec F S512x256 .bf16) : Vec F S1x1x1 .f32 :=
  VAcc0.read (Elt F) (VAcc0.writes (Elt F) VAcc0.junk (atB0 V c t h0 h1 xa xq xc).1)
def outC0 (c : Dev nD) (t : Fin cfg0.N) (h0 : ¬t.val % 8 = 0) (h1 : t.val % 8 = 7)
    (xa : Vec F S1x1x1 .f32) (xq : Vec F S512x1 .f32) (xc : Vec F S512x256 .bf16) : Vec F S1x1x1 .f32 :=
  VO0.read (Elt F) (VO0.writes (Elt F) VO0.junk (atC0 V c t h0 h1 xa xq xc).1)
def accC0 (c : Dev nD) (t : Fin cfg0.N) (h0 : ¬t.val % 8 = 0) (h1 : t.val % 8 = 7)
    (xa : Vec F S1x1x1 .f32) (xq : Vec F S512x1 .f32) (xc : Vec F S512x256 .bf16) : Vec F S1x1x1 .f32 :=
  VAcc0.read (Elt F) (VAcc0.writes (Elt F) VAcc0.junk (atC0 V c t h0 h1 xa xq xc).2.1)
/-- The output's staging buffer where the point stores nothing into it: a value nothing consults. -/
def idleOut0 : Vec F S1x1x1 .f32 := VO0.read (Elt F) VO0.junk

/-! ## The contents after each point -/

/-- After point n: the output's staging buffer, the running sum, the squared norms, the copy. -/
def stateAt0 (c : Dev nD) : (n : ℕ) → n < cfg0.N → Vec F S1x1x1 .f32 × Vec F S1x1x1 .f32 × Vec F S512x1 .f32 × Vec F S512x256 .bf16
  | 0, hn => (idleOut0, accA0 V c ⟨0, hn⟩ (Nat.zero_mod _), sqA0 V c ⟨0, hn⟩ (Nat.zero_mod _), cpA0 V c ⟨0, hn⟩ (Nat.zero_mod _))
  | n + 1, hn =>
    if h0 : (n + 1) % 8 = 0 then
      (idleOut0, accA0 V c ⟨n + 1, hn⟩ h0, sqA0 V c ⟨n + 1, hn⟩ h0, cpA0 V c ⟨n + 1, hn⟩ h0)
    else if h1 : (n + 1) % 8 = 7 then
      (outC0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       accC0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       (stateAt0 c n (Nat.lt_of_succ_lt hn)).2.2.1, (stateAt0 c n (Nat.lt_of_succ_lt hn)).2.2.2)
    else
      (idleOut0,
       accB0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       (stateAt0 c n (Nat.lt_of_succ_lt hn)).2.2.1, (stateAt0 c n (Nat.lt_of_succ_lt hn)).2.2.2)

theorem stateAt0_A (c : Dev nD) (t : Fin cfg0.N) (h0 : t.val % 8 = 0) :
    stateAt0 V c t.val t.isLt = (idleOut0, accA0 V c t h0, sqA0 V c t h0, cpA0 V c t h0) := by
  obtain ⟨n, hn⟩ := t
  cases n with
  | zero => exact rfl
  | succ n => exact (dif_pos h0).trans rfl

theorem stateAt0_B (c : Dev nD) (t : Fin cfg0.N) (h0 : ¬t.val % 8 = 0) (h1 : ¬t.val % 8 = 7) :
    stateAt0 V c t.val t.isLt = (idleOut0,
      accB0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      (stateAt0 V c (t.val - 1) (Nat.lt_of_le_of_lt (Nat.sub_le _ _) t.isLt)).2.2.1, (stateAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt0_C (c : Dev nD) (t : Fin cfg0.N) (h0 : ¬t.val % 8 = 0) (h1 : t.val % 8 = 7) :
    stateAt0 V c t.val t.isLt = (
      outC0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      accC0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      (stateAt0 V c (t.val - 1) (Nat.lt_of_le_of_lt (Nat.sub_le _ _) t.isLt)).2.2.1, (stateAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop((owns (c : Thread nD τ) scAcc0 fullShare (stateAt0 V c n hn).2.1 ∗ owns (c : Thread nD τ) scSq0 fullShare (stateAt0 V c n hn).2.2.1
      ∗ owns (c : Thread nD τ) scCp0 fullShare (stateAt0 V c n hn).2.2.2) ∗ others0 c)

theorem inv0_zero (c : Dev nD) (n : ℕ) (h : n ≤ cfg0.N) (hz : n = 0) :
    inv0 V c n h = Pipeline.scopedRest (Ix := Unit) (Name := ℕ) (U := UR sig nD τ) (Lvl := ℕ) (Val := Elt F) spec0 c := by
  subst hz; rfl

theorem inv0_succ (c : Dev nD) (n : ℕ) (hn : n < cfg0.N) :
    inv0 V c (n + 1) hn = iprop((owns (c : Thread nD τ) scAcc0 fullShare (stateAt0 V c n hn).2.1 ∗ owns (c : Thread nD τ) scSq0 fullShare (stateAt0 V c n hn).2.2.1
      ∗ owns (c : Thread nD τ) scCp0 fullShare (stateAt0 V c n hn).2.2.2) ∗ others0 c) := rfl

theorem inv0_pos (c : Dev nD) (n : ℕ) (h : n ≤ cfg0.N) (hz : n ≠ 0) :
    inv0 V c n h = iprop((owns (c : Thread nD τ) scAcc0 fullShare (stateAt0 V c (n - 1) (by omega)).2.1 ∗ owns (c : Thread nD τ) scSq0 fullShare (stateAt0 V c (n - 1) (by omega)).2.2.1
      ∗ owns (c : Thread nD τ) scCp0 fullShare (stateAt0 V c (n - 1) (by omega)).2.2.2) ∗ others0 c) := by
  cases n with
  | zero => exact absurd rfl hz
  | succ n => rfl

/-! ## The proof data -/

/-- The arrays as the call finds them; after the body each input's buffer at its block and the output's at
    `stateAt`'s first component; the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (stateAt0 V c t.val t.isLt).1
  Φ t := inv0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (stateAt0 V c t.val t.isLt).1 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    have hl : ¬last0 (grid0.coords t) := fun h => h1 ((hlast0 t).mp h)
    rw [Dat.leavesExact_idle (dat0 V c) 2 t (idle0_2 t hl) (noFlush0_2 t hl)]
    rw [stateAt0_A V c t h0]
    unfold accA0 sqA0 cpA0; (try dsimp only)
    by_cases hz : t.val = 0
    · rw [inv0_castSucc V c t, inv0_zero V c _ _ hz, scoped0_eq]
      iintro ⟨⟨⟨HA, HQ, HC⟩, Hoth⟩, Ho, ⟨%d0, H0⟩, ⟨%d1, H1⟩, ⟨%d2, H2⟩⟩
      iapply ((atA0 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA0 _ _ _ _ _ _ _ _ _ _ _ _ _ _ _ _ _ _)
          isplitl [HQ]
          · unfold owns; iexists _; isplitr
            swap; · iexact HQ
            ipureintro; exact View.read_writes_of_cover _ _ _ _ _ (coverSqA0 _ _ _ _ _ _ _ _ _ _ _ _ _ _ _ _ _ _)
          unfold owns; iexists _; isplitr
          swap; · iexact HC
          ipureintro; exact View.read_writes_of_cover _ _ _ _ _ (coverCpA0 _ _ _ _ _ _ _ _ _ _ _ _ _ _ _ _ _ _)
        iexact Hoth
      isplitl [Ho]; · iexact Ho
      isplitl [H0]; · iexact H0
      isplitl [H1]; · iexact H1
      iexists _; iexact H2
    · rw [inv0_castSucc V c t, inv0_pos V c _ _ hz]
      iintro ⟨⟨⟨HA, HQ, HC⟩, Hoth⟩, Ho, ⟨%d0, H0⟩, ⟨%d1, H1⟩, ⟨%d2, H2⟩⟩
      iapply ((atA0 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA0 _ _ _ _ _ _ _ _ _ _ _ _ _ _ _ _ _ _)
          isplitl [HQ]
          · unfold owns; iexists _; isplitr
            swap; · iexact HQ
            ipureintro; exact View.read_writes_of_cover _ _ _ _ _ (coverSqA0 _ _ _ _ _ _ _ _ _ _ _ _ _ _ _ _ _ _)
          unfold owns; iexists _; isplitr
          swap; · iexact HC
          ipureintro; exact View.read_writes_of_cover _ _ _ _ _ (coverCpA0 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last0 (grid0.coords t) := (hlast0 t).mpr h1
      rw [show (dat0 V c).leavesExact 2 t = owns (c : Thread nD τ) (ms0_2 t) fullShare ((dat0 V c).after 2 t) from by
        unfold Dat.leavesExact; rw [live0_2 t hl], after0_2]
      rw [stateAt0_C V c t h0 h1]
      unfold outC0 accC0; (try dsimp only)
      rw [inv0_castSucc V c t, inv0_pos V c _ _ hz]
      iintro ⟨⟨⟨HA, HQ, HC⟩, Hoth⟩, Ho, ⟨%d0, H0⟩, ⟨%d1, H1⟩, ⟨%d2, H2⟩⟩
      iapply ((atC0 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC0 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC0 _ _ _ _ _ _ _ _ _ _ _ _ _ _ _ _ _ _ _ _ _)
    · have hl : ¬last0 (grid0.coords t) := fun h => h1 ((hlast0 t).mp h)
      rw [Dat.leavesExact_idle (dat0 V c) 2 t (idle0_2 t hl) (noFlush0_2 t hl)]
      rw [stateAt0_B V c t h0 h1]
      unfold accB0; (try dsimp only)
      rw [inv0_castSucc V c t, inv0_pos V c _ _ hz]
      iintro ⟨⟨⟨HA, HQ, HC⟩, Hoth⟩, Ho, ⟨%d0, H0⟩, ⟨%d1, H1⟩, ⟨%d2, H2⟩⟩
      iapply ((atB0 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB0 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed before its first point is the invariant there. -/
theorem inv0_in (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = inv0 V c 0 (Nat.zero_le _) from rfl, inv0_zero V c 0 _ rfl]
  try exact Idealize.SL.BI.Entails.refl _

/-- After the last point the invariant gives the scoped buffers back, the scratch contents forgotten. -/
theorem inv0_out (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), scoped0_eq]
  iintro ⟨⟨HA, HQ, HC⟩, Hoth⟩
  isplitr [Hoth]
  · isplitl [HA]; · iexists _; iexact HA
    isplitl [HQ]; · iexists _; iexact HQ
    iexists _; iexact HC
  iexact Hoth

end Cert.Kernel.Regions

end
-- ==== Proof.KW.Base1.lean ====
/-
  Call 1 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.Kernel.Launch
import proofs.«105376_j19189913878688_2_alg».proof.Proof.Gen.Kernel.Skeleton
import proofs.«105376_j19189913878688_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)

/-- The point is the last of its row (j = 7): the body's second conditional. -/
abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off the last point of a row the output window is idle and not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The memrefs the body is called with -/

abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
/-- The running sum, the row block's squared norms, and the row block's copy: whole scoped buffers of the call's own. -/
abbrev scAcc1 : Memref sig .tc .vmem S1x1x1 .f32 := Memref.whole cc1_scratch0
abbrev scSq1 : Memref sig .tc .vmem S512x1 .f32 := Memref.whole cc1_scratch1
abbrev scCp1 : Memref sig .tc .vmem S512x256 .bf16 := Memref.whole cc1_scratch2
/-- One staging buffer of the output window, through which its contents are stated. -/
abbrev VO1 : View sig .tc .vmem S1x1x1 .f32 := (Memref.whole cc1_stg2_0 : Memref sig .tc .vmem S1x1x1 .f32).view
abbrev VAcc1 : View sig .tc .vmem S1x1x1 .f32 := (scAcc1).view
abbrev VSq1 : View sig .tc .vmem S512x1 .f32 := (scSq1).view
abbrev VCp1 : View sig .tc .vmem S512x256 .bf16 := (scCp1).view

/-! ## The scratch buffers among the core's scoped buffers -/

/-- The core's scoped buffers that are neither a staging buffer of this call nor its scratch, each at some contents. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The scoped buffers this call does not stage are its three scratch buffers, each owned at some contents, and the others. -/
theorem scoped1_eq (c : Dev nD) :
    (Pipeline.scopedRest (Ix := Unit) (Name := ℕ) (U := UR sig nD τ) (Lvl := ℕ) (Val := Elt F) spec1 c : sProp 𝕄)
      = iprop(((∃ d, owns (c : Thread nD τ) scAcc1 fullShare d) ∗ (∃ d, owns (c : Thread nD τ) scSq1 fullShare d)
          ∗ (∃ d, owns (c : Thread nD τ) scCp1 fullShare d)) ∗ others1 c) := by
  rw [Pipeline.scopedRest_split_of_list spec1 c [cc1_scratch0, cc1_scratch1, cc1_scratch2] (by decide) (by decide)]
  simp only [scAcc1, scSq1, scCp1, owns_whole, bigSepL]
  try rfl

end Cert.Kernel.Regions

end
-- ==== Proof.KW.CaseA1.lean ====
/-
  Call 1, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KW.Base1

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, ?_, ?_, fun xi E K => ?run⟩
  case run =>
    simp only [cc1__mmd_sum_kernel_eq_skeleton]; unfold cc1__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S1x1x1.Idx) :
    ∃ pc ∈ (runA1 c i arg2 harg2 arg3 harg3 arg4 harg4 arg5 harg5 arg6 harg6 arg7 harg7 hc0 hc1 x0 x1).1, y ∈ pc.1.set :=
  View.cover_of_tiledL (runA1 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S512x1.Idx) :
    ∃ pc ∈ (runA1 c i arg2 harg2 arg3 harg3 arg4 harg4 arg5 harg5 arg6 harg6 arg7 harg7 hc0 hc1 x0 x1).2.1, y ∈ pc.1.set :=
  View.cover_of_tiledL (runA1 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S512x256.Idx) :
    ∃ pc ∈ (runA1 c i arg2 harg2 arg3 harg3 arg4 harg4 arg5 harg5 arg6 harg6 arg7 harg7 hc0 hc1 x0 x1).2.2.1, y ∈ pc.1.set :=
  View.cover_of_tiledL (runA1 c i arg2 harg2 arg3 harg3 arg4 harg4 arg5 harg5 arg6 harg6 arg7 harg7 hc0 hc1 x0 x1).2.2.1 S512x256.size (by sl_kernel_rfl) y

end Cert.Kernel.Regions

end
-- ==== Proof.KW.CaseB1.lean ====
/-
  Call 1, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KW.Base1

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : ¬last1 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, fun xi E K => ?run⟩
  case run =>
    simp only [cc1__mmd_sum_kernel_eq_skeleton]; unfold cc1__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : ¬last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB1 c i arg2 harg2 arg3 harg3 arg4 harg4 arg5 harg5 arg6 harg6 arg7 harg7 hc0 hc1 x0 x1 xa xq xc).1, y ∈ pc.1.set :=
  View.cover_of_tiledL (runB1 c i arg2 harg2 arg3 harg3 arg4 harg4 arg5 harg5 arg6 harg6 arg7 harg7 hc0 hc1 x0 x1 xa xq xc).1 S1x1x1.size (by sl_kernel_rfl) y

end Cert.Kernel.Regions

end
-- ==== Proof.KW.CaseC1.lean ====
/-
  Call 1, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KW.Base1

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, ?_, fun E K => ?run⟩
  case run =>
    simp only [cc1__mmd_sum_kernel_eq_skeleton]; unfold cc1__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC1 c i arg2 harg2 arg3 harg3 arg4 harg4 arg5 harg5 arg6 harg6 arg7 harg7 hc0 hc1 x0 x1 xa xq xc).1, y ∈ pc.1.set :=
  View.cover_of_tiledL (runC1 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC1 c i arg2 harg2 arg3 harg3 arg4 harg4 arg5 harg5 arg6 harg6 arg7 harg7 hc0 hc1 x0 x1 xa xq xc).2.1, y ∈ pc.1.set :=
  View.cover_of_tiledL (runC1 c i arg2 harg2 arg3 harg3 arg4 harg4 arg5 harg5 arg6 harg6 arg7 harg7 hc0 hc1 x0 x1 xa xq xc).2.1 S1x1x1.size (by sl_kernel_rfl) y

end Cert.Kernel.Regions

end
-- ==== Proof.KW.Data1.lean ====
/-
  Call 1: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KW.CaseA1
import proofs.«105376_j19189913878688_2_alg».proof.Proof.KW.CaseB1
import proofs.«105376_j19189913878688_2_alg».proof.Proof.KW.CaseC1

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The three cases at a point -/

/-- The run of case A at a point that is the first of its row. -/
def atA1 (c : Dev nD) (t : Fin cfg1.N) (h0 : t.val % 8 = 0) :=
  runA1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    ((hfirst1 t).mpr h0) (fun h => by have := (hlast1 t).mp h; omega) (blk1 V c 0 t) (blk1 V c 1 t)
/-- The run of case B at a point inside its row, from the scratch contents handed to it. -/
def atB1 (c : Dev nD) (t : Fin cfg1.N) (h0 : ¬t.val % 8 = 0) (h1 : ¬t.val % 8 = 7)
    (xa : Vec F S1x1x1 .f32) (xq : Vec F S512x1 .f32) (xc : Vec F S512x256 .bf16) :=
  runB1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    (fun h => h0 ((hfirst1 t).mp h)) (fun h => h1 ((hlast1 t).mp h)) (blk1 V c 0 t) (blk1 V c 1 t) xa xq xc
/-- The run of case C at a point that is the last of its row. -/
def atC1 (c : Dev nD) (t : Fin cfg1.N) (h0 : ¬t.val % 8 = 0) (h1 : t.val % 8 = 7)
    (xa : Vec F S1x1x1 .f32) (xq : Vec F S512x1 .f32) (xc : Vec F S512x256 .bf16) :=
  runC1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    (fun h => h0 ((hfirst1 t).mp h)) ((hlast1 t).mpr h1) (blk1 V c 0 t) (blk1 V c 1 t) xa xq xc

/-- What each case leaves in a buffer: its pieces read back. -/
def accA1 (c : Dev nD) (t : Fin cfg1.N) (h0 : t.val % 8 = 0) : Vec F S1x1x1 .f32 :=
  VAcc1.read (Elt F) (VAcc1.writes (Elt F) VAcc1.junk (atA1 V c t h0).1)
def sqA1 (c : Dev nD) (t : Fin cfg1.N) (h0 : t.val % 8 = 0) : Vec F S512x1 .f32 :=
  VSq1.read (Elt F) (VSq1.writes (Elt F) VSq1.junk (atA1 V c t h0).2.1)
def cpA1 (c : Dev nD) (t : Fin cfg1.N) (h0 : t.val % 8 = 0) : Vec F S512x256 .bf16 :=
  VCp1.read (Elt F) (VCp1.writes (Elt F) VCp1.junk (atA1 V c t h0).2.2.1)
def accB1 (c : Dev nD) (t : Fin cfg1.N) (h0 : ¬t.val % 8 = 0) (h1 : ¬t.val % 8 = 7)
    (xa : Vec F S1x1x1 .f32) (xq : Vec F S512x1 .f32) (xc : Vec F S512x256 .bf16) : Vec F S1x1x1 .f32 :=
  VAcc1.read (Elt F) (VAcc1.writes (Elt F) VAcc1.junk (atB1 V c t h0 h1 xa xq xc).1)
def outC1 (c : Dev nD) (t : Fin cfg1.N) (h0 : ¬t.val % 8 = 0) (h1 : t.val % 8 = 7)
    (xa : Vec F S1x1x1 .f32) (xq : Vec F S512x1 .f32) (xc : Vec F S512x256 .bf16) : Vec F S1x1x1 .f32 :=
  VO1.read (Elt F) (VO1.writes (Elt F) VO1.junk (atC1 V c t h0 h1 xa xq xc).1)
def accC1 (c : Dev nD) (t : Fin cfg1.N) (h0 : ¬t.val % 8 = 0) (h1 : t.val % 8 = 7)
    (xa : Vec F S1x1x1 .f32) (xq : Vec F S512x1 .f32) (xc : Vec F S512x256 .bf16) : Vec F S1x1x1 .f32 :=
  VAcc1.read (Elt F) (VAcc1.writes (Elt F) VAcc1.junk (atC1 V c t h0 h1 xa xq xc).2.1)
/-- The output's staging buffer where the point stores nothing into it: a value nothing consults. -/
def idleOut1 : Vec F S1x1x1 .f32 := VO1.read (Elt F) VO1.junk

/-! ## The contents after each point -/

/-- After point n: the output's staging buffer, the running sum, the squared norms, the copy. -/
def stateAt1 (c : Dev nD) : (n : ℕ) → n < cfg1.N → Vec F S1x1x1 .f32 × Vec F S1x1x1 .f32 × Vec F S512x1 .f32 × Vec F S512x256 .bf16
  | 0, hn => (idleOut1, accA1 V c ⟨0, hn⟩ (Nat.zero_mod _), sqA1 V c ⟨0, hn⟩ (Nat.zero_mod _), cpA1 V c ⟨0, hn⟩ (Nat.zero_mod _))
  | n + 1, hn =>
    if h0 : (n + 1) % 8 = 0 then
      (idleOut1, accA1 V c ⟨n + 1, hn⟩ h0, sqA1 V c ⟨n + 1, hn⟩ h0, cpA1 V c ⟨n + 1, hn⟩ h0)
    else if h1 : (n + 1) % 8 = 7 then
      (outC1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       accC1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       (stateAt1 c n (Nat.lt_of_succ_lt hn)).2.2.1, (stateAt1 c n (Nat.lt_of_succ_lt hn)).2.2.2)
    else
      (idleOut1,
       accB1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       (stateAt1 c n (Nat.lt_of_succ_lt hn)).2.2.1, (stateAt1 c n (Nat.lt_of_succ_lt hn)).2.2.2)

theorem stateAt1_A (c : Dev nD) (t : Fin cfg1.N) (h0 : t.val % 8 = 0) :
    stateAt1 V c t.val t.isLt = (idleOut1, accA1 V c t h0, sqA1 V c t h0, cpA1 V c t h0) := by
  obtain ⟨n, hn⟩ := t
  cases n with
  | zero => exact rfl
  | succ n => exact (dif_pos h0).trans rfl

theorem stateAt1_B (c : Dev nD) (t : Fin cfg1.N) (h0 : ¬t.val % 8 = 0) (h1 : ¬t.val % 8 = 7) :
    stateAt1 V c t.val t.isLt = (idleOut1,
      accB1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      (stateAt1 V c (t.val - 1) (Nat.lt_of_le_of_lt (Nat.sub_le _ _) t.isLt)).2.2.1, (stateAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt1_C (c : Dev nD) (t : Fin cfg1.N) (h0 : ¬t.val % 8 = 0) (h1 : t.val % 8 = 7) :
    stateAt1 V c t.val t.isLt = (
      outC1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      accC1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      (stateAt1 V c (t.val - 1) (Nat.lt_of_le_of_lt (Nat.sub_le _ _) t.isLt)).2.2.1, (stateAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scAcc1 fullShare (stateAt1 V c n hn).2.1 ∗ owns (c : Thread nD τ) scSq1 fullShare (stateAt1 V c n hn).2.2.1
      ∗ owns (c : Thread nD τ) scCp1 fullShare (stateAt1 V c n hn).2.2.2) ∗ others1 c)

theorem inv1_zero (c : Dev nD) (n : ℕ) (h : n ≤ cfg1.N) (hz : n = 0) :
    inv1 V c n h = Pipeline.scopedRest (Ix := Unit) (Name := ℕ) (U := UR sig nD τ) (Lvl := ℕ) (Val := Elt F) spec1 c := by
  subst hz; rfl

theorem inv1_succ (c : Dev nD) (n : ℕ) (hn : n < cfg1.N) :
    inv1 V c (n + 1) hn = iprop((owns (c : Thread nD τ) scAcc1 fullShare (stateAt1 V c n hn).2.1 ∗ owns (c : Thread nD τ) scSq1 fullShare (stateAt1 V c n hn).2.2.1
      ∗ owns (c : Thread nD τ) scCp1 fullShare (stateAt1 V c n hn).2.2.2) ∗ others1 c) := rfl

theorem inv1_pos (c : Dev nD) (n : ℕ) (h : n ≤ cfg1.N) (hz : n ≠ 0) :
    inv1 V c n h = iprop((owns (c : Thread nD τ) scAcc1 fullShare (stateAt1 V c (n - 1) (by omega)).2.1 ∗ owns (c : Thread nD τ) scSq1 fullShare (stateAt1 V c (n - 1) (by omega)).2.2.1
      ∗ owns (c : Thread nD τ) scCp1 fullShare (stateAt1 V c (n - 1) (by omega)).2.2.2) ∗ others1 c) := by
  cases n with
  | zero => exact absurd rfl hz
  | succ n => rfl

/-! ## The proof data -/

/-- The arrays as the call finds them; after the body each input's buffer at its block and the output's at
    `stateAt`'s first component; the invariant above; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt1 V c t.val t.isLt).1
  Φ t := inv1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stateAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    have hl : ¬last1 (grid1.coords t) := fun h => h1 ((hlast1 t).mp h)
    rw [Dat.leavesExact_idle (dat1 V c) 2 t (idle1_2 t hl) (noFlush1_2 t hl)]
    rw [stateAt1_A V c t h0]
    unfold accA1 sqA1 cpA1; (try dsimp only)
    by_cases hz : t.val = 0
    · rw [inv1_castSucc V c t, inv1_zero V c _ _ hz, scoped1_eq]
      iintro ⟨⟨⟨HA, HQ, HC⟩, Hoth⟩, Ho, ⟨%d0, H0⟩, ⟨%d1, H1⟩, ⟨%d2, H2⟩⟩
      iapply ((atA1 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA1 _ _ _ _ _ _ _ _ _ _ _ _ _ _ _ _ _ _)
          isplitl [HQ]
          · unfold owns; iexists _; isplitr
            swap; · iexact HQ
            ipureintro; exact View.read_writes_of_cover _ _ _ _ _ (coverSqA1 _ _ _ _ _ _ _ _ _ _ _ _ _ _ _ _ _ _)
          unfold owns; iexists _; isplitr
          swap; · iexact HC
          ipureintro; exact View.read_writes_of_cover _ _ _ _ _ (coverCpA1 _ _ _ _ _ _ _ _ _ _ _ _ _ _ _ _ _ _)
        iexact Hoth
      isplitl [Ho]; · iexact Ho
      isplitl [H0]; · iexact H0
      isplitl [H1]; · iexact H1
      iexists _; iexact H2
    · rw [inv1_castSucc V c t, inv1_pos V c _ _ hz]
      iintro ⟨⟨⟨HA, HQ, HC⟩, Hoth⟩, Ho, ⟨%d0, H0⟩, ⟨%d1, H1⟩, ⟨%d2, H2⟩⟩
      iapply ((atA1 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA1 _ _ _ _ _ _ _ _ _ _ _ _ _ _ _ _ _ _)
          isplitl [HQ]
          · unfold owns; iexists _; isplitr
            swap; · iexact HQ
            ipureintro; exact View.read_writes_of_cover _ _ _ _ _ (coverSqA1 _ _ _ _ _ _ _ _ _ _ _ _ _ _ _ _ _ _)
          unfold owns; iexists _; isplitr
          swap; · iexact HC
          ipureintro; exact View.read_writes_of_cover _ _ _ _ _ (coverCpA1 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last1 (grid1.coords t) := (hlast1 t).mpr h1
      rw [show (dat1 V c).leavesExact 2 t = owns (c : Thread nD τ) (ms1_2 t) fullShare ((dat1 V c).after 2 t) from by
        unfold Dat.leavesExact; rw [live1_2 t hl], after1_2]
      rw [stateAt1_C V c t h0 h1]
      unfold outC1 accC1; (try dsimp only)
      rw [inv1_castSucc V c t, inv1_pos V c _ _ hz]
      iintro ⟨⟨⟨HA, HQ, HC⟩, Hoth⟩, Ho, ⟨%d0, H0⟩, ⟨%d1, H1⟩, ⟨%d2, H2⟩⟩
      iapply ((atC1 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC1 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC1 _ _ _ _ _ _ _ _ _ _ _ _ _ _ _ _ _ _ _ _ _)
    · have hl : ¬last1 (grid1.coords t) := fun h => h1 ((hlast1 t).mp h)
      rw [Dat.leavesExact_idle (dat1 V c) 2 t (idle1_2 t hl) (noFlush1_2 t hl)]
      rw [stateAt1_B V c t h0 h1]
      unfold accB1; (try dsimp only)
      rw [inv1_castSucc V c t, inv1_pos V c _ _ hz]
      iintro ⟨⟨⟨HA, HQ, HC⟩, Hoth⟩, Ho, ⟨%d0, H0⟩, ⟨%d1, H1⟩, ⟨%d2, H2⟩⟩
      iapply ((atB1 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB1 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed before its first point is the invariant there. -/
theorem inv1_in (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the scoped buffers back, the scratch contents forgotten. -/
theorem inv1_out (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega), scoped1_eq]
  iintro ⟨⟨HA, HQ, HC⟩, Hoth⟩
  isplitr [Hoth]
  · isplitl [HA]; · iexists _; iexact HA
    isplitl [HQ]; · iexists _; iexact HQ
    iexists _; iexact HC
  iexact Hoth

end Cert.Kernel.Regions

end
-- ==== Proof.KW.Base2.lean ====
/-
  Call 2 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.Kernel.Launch
import proofs.«105376_j19189913878688_2_alg».proof.Proof.Gen.Kernel.Skeleton
import proofs.«105376_j19189913878688_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 8 = 0 :=
  (by decide +kernel : ∀ t : Fin grid2.N, first2 (grid2.coords t) ↔ t.val % 8 = 0)

/-- The point is the last of its row (j = 7): the body's second conditional. -/
abbrev last2 (i : grid2.Coords) : Prop := k2_cond2 i = 1#1
theorem hlast2 : ∀ t : Fin cfg2.N, last2 (grid2.coords t) ↔ t.val % 8 = 7 :=
  (by decide +kernel : ∀ t : Fin grid2.N, last2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Off the last point of a row the output window is idle and not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The memrefs the body is called with -/

abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1 .f32 := win2_2.stage (cfg2.slots t 2)
abbrev hs2_2 (t : Fin cfg2.N) : (ms2_2 t).IsWhole := hstage2_2 ((cfg2.slots t 2).cast nbuf2_2)
/-- The running sum, the row block's squared norms, and the row block's copy: whole scoped buffers of the call's own. -/
abbrev scAcc2 : Memref sig .tc .vmem S1x1x1 .f32 := Memref.whole cc2_scratch0
abbrev scSq2 : Memref sig .tc .vmem S512x1 .f32 := Memref.whole cc2_scratch1
abbrev scCp2 : Memref sig .tc .vmem S512x256 .bf16 := Memref.whole cc2_scratch2
/-- One staging buffer of the output window, through which its contents are stated. -/
abbrev VO2 : View sig .tc .vmem S1x1x1 .f32 := (Memref.whole cc2_stg2_0 : Memref sig .tc .vmem S1x1x1 .f32).view
abbrev VAcc2 : View sig .tc .vmem S1x1x1 .f32 := (scAcc2).view
abbrev VSq2 : View sig .tc .vmem S512x1 .f32 := (scSq2).view
abbrev VCp2 : View sig .tc .vmem S512x256 .bf16 := (scCp2).view

/-! ## The scratch buffers among the core's scoped buffers -/

/-- The core's scoped buffers that are neither a staging buffer of this call nor its scratch, each at some contents. -/
abbrev others2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The scoped buffers this call does not stage are its three scratch buffers, each owned at some contents, and the others. -/
theorem scoped2_eq (c : Dev nD) :
    (Pipeline.scopedRest (Ix := Unit) (Name := ℕ) (U := UR sig nD τ) (Lvl := ℕ) (Val := Elt F) spec2 c : sProp 𝕄)
      = iprop(((∃ d, owns (c : Thread nD τ) scAcc2 fullShare d) ∗ (∃ d, owns (c : Thread nD τ) scSq2 fullShare d)
          ∗ (∃ d, owns (c : Thread nD τ) scCp2 fullShare d)) ∗ others2 c) := by
  rw [Pipeline.scopedRest_split_of_list spec2 c [cc2_scratch0, cc2_scratch1, cc2_scratch2] (by decide) (by decide)]
  simp only [scAcc2, scSq2, scCp2, owns_whole, bigSepL]
  try rfl

end Cert.Kernel.Regions

end
-- ==== Proof.KW.CaseA2.lean ====
/-
  Call 2, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KW.Base2

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, ?_, ?_, fun xi E K => ?run⟩
  case run =>
    simp only [cc2__mmd_sum_kernel_eq_skeleton]; unfold cc2__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S1x1x1.Idx) :
    ∃ pc ∈ (runA2 c i arg2 harg2 arg3 harg3 arg4 harg4 arg5 harg5 arg6 harg6 arg7 harg7 hc0 hc1 x0 x1).1, y ∈ pc.1.set :=
  View.cover_of_tiledL (runA2 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S512x1.Idx) :
    ∃ pc ∈ (runA2 c i arg2 harg2 arg3 harg3 arg4 harg4 arg5 harg5 arg6 harg6 arg7 harg7 hc0 hc1 x0 x1).2.1, y ∈ pc.1.set :=
  View.cover_of_tiledL (runA2 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S512x256.Idx) :
    ∃ pc ∈ (runA2 c i arg2 harg2 arg3 harg3 arg4 harg4 arg5 harg5 arg6 harg6 arg7 harg7 hc0 hc1 x0 x1).2.2.1, y ∈ pc.1.set :=
  View.cover_of_tiledL (runA2 c i arg2 harg2 arg3 harg3 arg4 harg4 arg5 harg5 arg6 harg6 arg7 harg7 hc0 hc1 x0 x1).2.2.1 S512x256.size (by sl_kernel_rfl) y

end Cert.Kernel.Regions

end
-- ==== Proof.KW.CaseB2.lean ====
/-
  Call 2, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KW.Base2

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : ¬last2 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, fun xi E K => ?run⟩
  case run =>
    simp only [cc2__mmd_sum_kernel_eq_skeleton]; unfold cc2__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : ¬last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB2 c i arg2 harg2 arg3 harg3 arg4 harg4 arg5 harg5 arg6 harg6 arg7 harg7 hc0 hc1 x0 x1 xa xq xc).1, y ∈ pc.1.set :=
  View.cover_of_tiledL (runB2 c i arg2 harg2 arg3 harg3 arg4 harg4 arg5 harg5 arg6 harg6 arg7 harg7 hc0 hc1 x0 x1 xa xq xc).1 S1x1x1.size (by sl_kernel_rfl) y

end Cert.Kernel.Regions

end
-- ==== Proof.KW.CaseC2.lean ====
/-
  Call 2, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KW.Base2

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, ?_, fun E K => ?run⟩
  case run =>
    simp only [cc2__mmd_sum_kernel_eq_skeleton]; unfold cc2__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC2 c i arg2 harg2 arg3 harg3 arg4 harg4 arg5 harg5 arg6 harg6 arg7 harg7 hc0 hc1 x0 x1 xa xq xc).1, y ∈ pc.1.set :=
  View.cover_of_tiledL (runC2 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC2 c i arg2 harg2 arg3 harg3 arg4 harg4 arg5 harg5 arg6 harg6 arg7 harg7 hc0 hc1 x0 x1 xa xq xc).2.1, y ∈ pc.1.set :=
  View.cover_of_tiledL (runC2 c i arg2 harg2 arg3 harg3 arg4 harg4 arg5 harg5 arg6 harg6 arg7 harg7 hc0 hc1 x0 x1 xa xq xc).2.1 S1x1x1.size (by sl_kernel_rfl) y

end Cert.Kernel.Regions

end
-- ==== Proof.KW.Data2.lean ====
/-
  Call 2: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KW.CaseA2
import proofs.«105376_j19189913878688_2_alg».proof.Proof.KW.CaseB2
import proofs.«105376_j19189913878688_2_alg».proof.Proof.KW.CaseC2

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The three cases at a point -/

/-- The run of case A at a point that is the first of its row. -/
def atA2 (c : Dev nD) (t : Fin cfg2.N) (h0 : t.val % 8 = 0) :=
  runA2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    ((hfirst2 t).mpr h0) (fun h => by have := (hlast2 t).mp h; omega) (blk2 V c 0 t) (blk2 V c 1 t)
/-- The run of case B at a point inside its row, from the scratch contents handed to it. -/
def atB2 (c : Dev nD) (t : Fin cfg2.N) (h0 : ¬t.val % 8 = 0) (h1 : ¬t.val % 8 = 7)
    (xa : Vec F S1x1x1 .f32) (xq : Vec F S512x1 .f32) (xc : Vec F S512x256 .bf16) :=
  runB2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    (fun h => h0 ((hfirst2 t).mp h)) (fun h => h1 ((hlast2 t).mp h)) (blk2 V c 0 t) (blk2 V c 1 t) xa xq xc
/-- The run of case C at a point that is the last of its row. -/
def atC2 (c : Dev nD) (t : Fin cfg2.N) (h0 : ¬t.val % 8 = 0) (h1 : t.val % 8 = 7)
    (xa : Vec F S1x1x1 .f32) (xq : Vec F S512x1 .f32) (xc : Vec F S512x256 .bf16) :=
  runC2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    (fun h => h0 ((hfirst2 t).mp h)) ((hlast2 t).mpr h1) (blk2 V c 0 t) (blk2 V c 1 t) xa xq xc

/-- What each case leaves in a buffer: its pieces read back. -/
def accA2 (c : Dev nD) (t : Fin cfg2.N) (h0 : t.val % 8 = 0) : Vec F S1x1x1 .f32 :=
  VAcc2.read (Elt F) (VAcc2.writes (Elt F) VAcc2.junk (atA2 V c t h0).1)
def sqA2 (c : Dev nD) (t : Fin cfg2.N) (h0 : t.val % 8 = 0) : Vec F S512x1 .f32 :=
  VSq2.read (Elt F) (VSq2.writes (Elt F) VSq2.junk (atA2 V c t h0).2.1)
def cpA2 (c : Dev nD) (t : Fin cfg2.N) (h0 : t.val % 8 = 0) : Vec F S512x256 .bf16 :=
  VCp2.read (Elt F) (VCp2.writes (Elt F) VCp2.junk (atA2 V c t h0).2.2.1)
def accB2 (c : Dev nD) (t : Fin cfg2.N) (h0 : ¬t.val % 8 = 0) (h1 : ¬t.val % 8 = 7)
    (xa : Vec F S1x1x1 .f32) (xq : Vec F S512x1 .f32) (xc : Vec F S512x256 .bf16) : Vec F S1x1x1 .f32 :=
  VAcc2.read (Elt F) (VAcc2.writes (Elt F) VAcc2.junk (atB2 V c t h0 h1 xa xq xc).1)
def outC2 (c : Dev nD) (t : Fin cfg2.N) (h0 : ¬t.val % 8 = 0) (h1 : t.val % 8 = 7)
    (xa : Vec F S1x1x1 .f32) (xq : Vec F S512x1 .f32) (xc : Vec F S512x256 .bf16) : Vec F S1x1x1 .f32 :=
  VO2.read (Elt F) (VO2.writes (Elt F) VO2.junk (atC2 V c t h0 h1 xa xq xc).1)
def accC2 (c : Dev nD) (t : Fin cfg2.N) (h0 : ¬t.val % 8 = 0) (h1 : t.val % 8 = 7)
    (xa : Vec F S1x1x1 .f32) (xq : Vec F S512x1 .f32) (xc : Vec F S512x256 .bf16) : Vec F S1x1x1 .f32 :=
  VAcc2.read (Elt F) (VAcc2.writes (Elt F) VAcc2.junk (atC2 V c t h0 h1 xa xq xc).2.1)
/-- The output's staging buffer where the point stores nothing into it: a value nothing consults. -/
def idleOut2 : Vec F S1x1x1 .f32 := VO2.read (Elt F) VO2.junk

/-! ## The contents after each point -/

/-- After point n: the output's staging buffer, the running sum, the squared norms, the copy. -/
def stateAt2 (c : Dev nD) : (n : ℕ) → n < cfg2.N → Vec F S1x1x1 .f32 × Vec F S1x1x1 .f32 × Vec F S512x1 .f32 × Vec F S512x256 .bf16
  | 0, hn => (idleOut2, accA2 V c ⟨0, hn⟩ (Nat.zero_mod _), sqA2 V c ⟨0, hn⟩ (Nat.zero_mod _), cpA2 V c ⟨0, hn⟩ (Nat.zero_mod _))
  | n + 1, hn =>
    if h0 : (n + 1) % 8 = 0 then
      (idleOut2, accA2 V c ⟨n + 1, hn⟩ h0, sqA2 V c ⟨n + 1, hn⟩ h0, cpA2 V c ⟨n + 1, hn⟩ h0)
    else if h1 : (n + 1) % 8 = 7 then
      (outC2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       accC2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       (stateAt2 c n (Nat.lt_of_succ_lt hn)).2.2.1, (stateAt2 c n (Nat.lt_of_succ_lt hn)).2.2.2)
    else
      (idleOut2,
       accB2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       (stateAt2 c n (Nat.lt_of_succ_lt hn)).2.2.1, (stateAt2 c n (Nat.lt_of_succ_lt hn)).2.2.2)

theorem stateAt2_A (c : Dev nD) (t : Fin cfg2.N) (h0 : t.val % 8 = 0) :
    stateAt2 V c t.val t.isLt = (idleOut2, accA2 V c t h0, sqA2 V c t h0, cpA2 V c t h0) := by
  obtain ⟨n, hn⟩ := t
  cases n with
  | zero => exact rfl
  | succ n => exact (dif_pos h0).trans rfl

theorem stateAt2_B (c : Dev nD) (t : Fin cfg2.N) (h0 : ¬t.val % 8 = 0) (h1 : ¬t.val % 8 = 7) :
    stateAt2 V c t.val t.isLt = (idleOut2,
      accB2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      (stateAt2 V c (t.val - 1) (Nat.lt_of_le_of_lt (Nat.sub_le _ _) t.isLt)).2.2.1, (stateAt2 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt2_C (c : Dev nD) (t : Fin cfg2.N) (h0 : ¬t.val % 8 = 0) (h1 : t.val % 8 = 7) :
    stateAt2 V c t.val t.isLt = (
      outC2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      accC2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      (stateAt2 V c (t.val - 1) (Nat.lt_of_le_of_lt (Nat.sub_le _ _) t.isLt)).2.2.1, (stateAt2 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop((owns (c : Thread nD τ) scAcc2 fullShare (stateAt2 V c n hn).2.1 ∗ owns (c : Thread nD τ) scSq2 fullShare (stateAt2 V c n hn).2.2.1
      ∗ owns (c : Thread nD τ) scCp2 fullShare (stateAt2 V c n hn).2.2.2) ∗ others2 c)

theorem inv2_zero (c : Dev nD) (n : ℕ) (h : n ≤ cfg2.N) (hz : n = 0) :
    inv2 V c n h = Pipeline.scopedRest (Ix := Unit) (Name := ℕ) (U := UR sig nD τ) (Lvl := ℕ) (Val := Elt F) spec2 c := by
  subst hz; rfl

theorem inv2_succ (c : Dev nD) (n : ℕ) (hn : n < cfg2.N) :
    inv2 V c (n + 1) hn = iprop((owns (c : Thread nD τ) scAcc2 fullShare (stateAt2 V c n hn).2.1 ∗ owns (c : Thread nD τ) scSq2 fullShare (stateAt2 V c n hn).2.2.1
      ∗ owns (c : Thread nD τ) scCp2 fullShare (stateAt2 V c n hn).2.2.2) ∗ others2 c) := rfl

theorem inv2_pos (c : Dev nD) (n : ℕ) (h : n ≤ cfg2.N) (hz : n ≠ 0) :
    inv2 V c n h = iprop((owns (c : Thread nD τ) scAcc2 fullShare (stateAt2 V c (n - 1) (by omega)).2.1 ∗ owns (c : Thread nD τ) scSq2 fullShare (stateAt2 V c (n - 1) (by omega)).2.2.1
      ∗ owns (c : Thread nD τ) scCp2 fullShare (stateAt2 V c (n - 1) (by omega)).2.2.2) ∗ others2 c) := by
  cases n with
  | zero => exact absurd rfl hz
  | succ n => rfl

/-! ## The proof data -/

/-- The arrays as the call finds them; after the body each input's buffer at its block and the output's at
    `stateAt`'s first component; the invariant above; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (stateAt2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (stateAt2 V c t.val t.isLt).1 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-! ## The body at a point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = inv2 V c (t.val + 1) t.isLt from rfl, inv2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    have hl : ¬last2 (grid2.coords t) := fun h => h1 ((hlast2 t).mp h)
    rw [Dat.leavesExact_idle (dat2 V c) 2 t (idle2_2 t hl) (noFlush2_2 t hl)]
    rw [stateAt2_A V c t h0]
    unfold accA2 sqA2 cpA2; (try dsimp only)
    by_cases hz : t.val = 0
    · rw [inv2_castSucc V c t, inv2_zero V c _ _ hz, scoped2_eq]
      iintro ⟨⟨⟨HA, HQ, HC⟩, Hoth⟩, Ho, ⟨%d0, H0⟩, ⟨%d1, H1⟩, ⟨%d2, H2⟩⟩
      iapply ((atA2 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA2 _ _ _ _ _ _ _ _ _ _ _ _ _ _ _ _ _ _)
          isplitl [HQ]
          · unfold owns; iexists _; isplitr
            swap; · iexact HQ
            ipureintro; exact View.read_writes_of_cover _ _ _ _ _ (coverSqA2 _ _ _ _ _ _ _ _ _ _ _ _ _ _ _ _ _ _)
          unfold owns; iexists _; isplitr
          swap; · iexact HC
          ipureintro; exact View.read_writes_of_cover _ _ _ _ _ (coverCpA2 _ _ _ _ _ _ _ _ _ _ _ _ _ _ _ _ _ _)
        iexact Hoth
      isplitl [Ho]; · iexact Ho
      isplitl [H0]; · iexact H0
      isplitl [H1]; · iexact H1
      iexists _; iexact H2
    · rw [inv2_castSucc V c t, inv2_pos V c _ _ hz]
      iintro ⟨⟨⟨HA, HQ, HC⟩, Hoth⟩, Ho, ⟨%d0, H0⟩, ⟨%d1, H1⟩, ⟨%d2, H2⟩⟩
      iapply ((atA2 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA2 _ _ _ _ _ _ _ _ _ _ _ _ _ _ _ _ _ _)
          isplitl [HQ]
          · unfold owns; iexists _; isplitr
            swap; · iexact HQ
            ipureintro; exact View.read_writes_of_cover _ _ _ _ _ (coverSqA2 _ _ _ _ _ _ _ _ _ _ _ _ _ _ _ _ _ _)
          unfold owns; iexists _; isplitr
          swap; · iexact HC
          ipureintro; exact View.read_writes_of_cover _ _ _ _ _ (coverCpA2 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last2 (grid2.coords t) := (hlast2 t).mpr h1
      rw [show (dat2 V c).leavesExact 2 t = owns (c : Thread nD τ) (ms2_2 t) fullShare ((dat2 V c).after 2 t) from by
        unfold Dat.leavesExact; rw [live2_2 t hl], after2_2]
      rw [stateAt2_C V c t h0 h1]
      unfold outC2 accC2; (try dsimp only)
      rw [inv2_castSucc V c t, inv2_pos V c _ _ hz]
      iintro ⟨⟨⟨HA, HQ, HC⟩, Hoth⟩, Ho, ⟨%d0, H0⟩, ⟨%d1, H1⟩, ⟨%d2, H2⟩⟩
      iapply ((atC2 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC2 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC2 _ _ _ _ _ _ _ _ _ _ _ _ _ _ _ _ _ _ _ _ _)
    · have hl : ¬last2 (grid2.coords t) := fun h => h1 ((hlast2 t).mp h)
      rw [Dat.leavesExact_idle (dat2 V c) 2 t (idle2_2 t hl) (noFlush2_2 t hl)]
      rw [stateAt2_B V c t h0 h1]
      unfold accB2; (try dsimp only)
      rw [inv2_castSucc V c t, inv2_pos V c _ _ hz]
      iintro ⟨⟨⟨HA, HQ, HC⟩, Hoth⟩, Ho, ⟨%d0, H0⟩, ⟨%d1, H1⟩, ⟨%d2, H2⟩⟩
      iapply ((atB2 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB2 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the call is handed before its first point is the invariant there. -/
theorem inv2_in (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = inv2 V c 0 (Nat.zero_le _) from rfl, inv2_zero V c 0 _ rfl]
  try exact Idealize.SL.BI.Entails.refl _

/-- After the last point the invariant gives the scoped buffers back, the scratch contents forgotten. -/
theorem inv2_out (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 128 := N_2; omega), scoped2_eq]
  iintro ⟨⟨HA, HQ, HC⟩, Hoth⟩
  isplitr [Hoth]
  · isplitl [HA]; · iexists _; iexact HA
    isplitl [HQ]; · iexists _; iexact HQ
    iexists _; iexact HC
  iexact Hoth

end Cert.Kernel.Regions

end
-- ==== Proof.LibSharedWindows.lean ====
/-
  Windows that share an array. A pipeline may be handed one array through several input windows; the buffers behind its
  windows' arrays are then fewer than the windows. These lemmas say what a core's unscoped buffers are in that case —
  the DISTINCT buffers behind the arrays, and the rest —, list those buffers, and say that the rest only depends on the
  contents off the arrays. They hold for any window specification, any number of windows and any sharing pattern; how an
  array's share is dealt among the windows on it is left to the pipeline at hand.
-/
import Idealize.ShloMosaic.Lib.Pipeline.Kit
import Idealize.ShloMosaic.Lib.Pipeline.Launch

noncomputable section

namespace Cert.SharedWindows

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A core's unscoped buffers at contents `V` are the distinct buffers behind the windows' arrays at `V` and the rest,
    whether or not two windows are on one array. -/
theorem unscopedBufs_split {gr : Nat} {W : Nat} (win : Fin W → WinSpec sig gr) (c : Dev nD)
    (hunscoped : ∀ w, (arrRef win w).isScoped = false) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

/-- The distinct buffers behind the windows' arrays, listed. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs win c V : sProp 𝕄) = bigSepL l fun b => ((c.tc : Thread nD τ).loc b) ↦{fullShare} V b := by
  unfold arrBufs; exact bigSep_eq_bigSepL_of_eq l h hl _

/-- The unscoped buffers that are no window's array only see the contents off the arrays. -/
theorem unscopedRest_congr {gr : Nat} {W : Nat} (win : Fin W → WinSpec sig gr) (c : Dev nD)
    (V V' : (b : Ref sig .tc) → Buf Val ((c.tc : Thread nD τ).loc b))
    (h : ∀ b, b ∉ Finset.univ.image (arrRef win) → V b = V' b) :
    (unscopedRest win c V : sProp 𝕄) = unscopedRest win c V' := by
  unfold unscopedRest
  exact bigSep_congr fun b hb => by rw [h b (Finset.mem_sdiff.mp hb).2]

end Cert.SharedWindows

end
-- ==== Proof.KW.SharedSplit.lean ====
/-
  Windows that share an array, at this program's two pipelines whose two input windows read one array. A core's
  unscoped buffers hold that array once, whole, at the full share; the pipeline's proof data hold it once per window,
  each at that window's share. The full share is the composite of its left and right halves, so a points-to at the full
  share is the two points-tos at the halves, and back. These lemmas say so at a region's entry — the unscoped buffers
  make the pipeline's arrays and the unscoped rest — and at its exit — the arrays, at what the region left in them, and
  the rest make the unscoped buffers at any contents that have the arrays so and agree with the entry's off them.
-/
import proofs.«105376_j19189913878688_2_alg».proof.Proof.Gen.Kernel.Launch
import proofs.«105376_j19189913878688_2_alg».proof.Proof.LibSharedWindows
import Idealize.ShloMosaic.Lib.Pipeline.RegionsLoop

noncomputable section

namespace Cert.Kernel.SharedSplit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open PCS

variable {F : FTy → Type} [FloatOps F]

local notation "𝕄" => MT nD τ sig Unit (Elt F) ℕ (UR sig nD τ) ℕ

/-- The left half of the full share: what the first of two windows on one array holds of it. -/
abbrev qL : PosShare TreeShare := fullShare.left
/-- The right half of the full share: what the second holds. -/
abbrev qR : PosShare TreeShare := fullShare.right

/-- The two halves make the full share. -/
theorem full_mem : fullShare ∈ qL ·? qR := PosShare.mem_left_op_right fullShare

/-- A chain over two listed elements is their separating conjunction. -/
theorem bigSepL_pair {M : Type} [URA M] {I : Type} (i j : I) (Φ : I → sProp M) : bigSepL [i, j] Φ = iprop(Φ i ∗ Φ j) := rfl

/-! ## Pipeline 0 -/

/-- ENTRY of pipeline 0: a core's unscoped buffers at contents `V` are the pipeline's arrays at the proof data's entry
    contents — those being read off `V` (`hA`); the array `main_arg0` behind windows 0 and 1 held by window 0 at the left
    half and by window 1 at the right half of the full share, the output array `main_v0` at the full share — and the
    unscoped rest. -/
theorem entry0 (c : Dev nD) (dat : Pipeline.Dat τ (Elt F) Unit ℕ (UR sig nD τ) ℕ cfg0 c) (hq0 : dat.q 0 = qL) (hq1 : dat.q 1 = qR)
    (V : (b : Ref sig .tc) → Buf (Elt F) ((c : Thread nD τ).loc b)) (hA : ∀ w, dat.A w = V (Pipeline.arrRef spec0 w)) :
    (unscopedBufs c V : sProp 𝕄) ⊢ iprop(dat.arrays dat.A ∗ Pipeline.unscopedRest spec0 c V) := by
  rw [Cert.SharedWindows.unscopedBufs_split spec0 c Gen.winFacts₀0.arr_unscoped V]
  refine sep_mono ?_ .rfl
  rw [Cert.SharedWindows.arrBufs_eq_of_list spec0 c V [main_arg0, main_v0] (by decide) (by decide)]
  unfold Pipeline.Dat.arrays
  rw [Gen.bigSep_W0]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hA 0, hA 1, hA 2, (Gen.arr_whole0 0).set_eq_univ, (Gen.arr_whole0 2).set_eq_univ, bigSepL_pair]
  iintro ⟨Ha, Hb⟩
  ihave H := (pointsTo_share full_mem).1 $$ Ha
  icases H with ⟨H0, H1⟩
  isplitl [H0]; · iexact H0
  isplitl [H1]; · iexact H1
  iexact Hb

/-- EXIT of pipeline 0: the pipeline's arrays at contents `Fn` — the two halves of `main_arg0` joined into the full share
    — and the unscoped rest at `V` are the core's unscoped buffers at any contents `V'` that have the arrays at `Fn`
    (`hF`) and agree with `V` off them (`hrest`). -/
theorem exit0 (c : Dev nD) (dat : Pipeline.Dat τ (Elt F) Unit ℕ (UR sig nD τ) ℕ cfg0 c) (hq0 : dat.q 0 = qL) (hq1 : dat.q 1 = qR)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w)) (hrest : ∀ b, b ∉ Finset.univ.image (Pipeline.arrRef spec0) → V' b = V b) :
    iprop(dat.arrays Fn ∗ Pipeline.unscopedRest spec0 c V) ⊢ (unscopedBufs c V' : sProp 𝕄) := by
  rw [Cert.SharedWindows.unscopedBufs_split spec0 c Gen.winFacts₀0.arr_unscoped V',
    Cert.SharedWindows.unscopedRest_congr spec0 c V V' fun b hb => (hrest b hb).symm]
  refine sep_mono ?_ .rfl
  rw [Cert.SharedWindows.arrBufs_eq_of_list spec0 c V' [main_arg0, main_v0] (by decide) (by decide)]
  unfold Pipeline.Dat.arrays
  rw [Gen.bigSep_W0]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hF 0, hF 1, hF 2, (Gen.arr_whole0 0).set_eq_univ, (Gen.arr_whole0 2).set_eq_univ, bigSepL_pair]
  iintro ⟨H0, H1, Hb⟩
  isplitl [H0 H1]
  · iapply (pointsTo_share full_mem).2
    isplitl [H0]; · iexact H0
    iexact H1
  iexact Hb

/-! ## Pipeline 1 -/

/-- ENTRY of pipeline 1: a core's unscoped buffers at contents `V` are the pipeline's arrays at the proof data's entry
    contents — those being read off `V` (`hA`); the array `main_arg1` behind windows 0 and 1 held by window 0 at the left
    half and by window 1 at the right half of the full share, the output array `main_v2` at the full share — and the
    unscoped rest. -/
theorem entry1 (c : Dev nD) (dat : Pipeline.Dat τ (Elt F) Unit ℕ (UR sig nD τ) ℕ cfg1 c) (hq0 : dat.q 0 = qL) (hq1 : dat.q 1 = qR)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [Cert.SharedWindows.unscopedBufs_split spec1 c Gen.winFacts₀1.arr_unscoped V]
  refine sep_mono ?_ .rfl
  rw [Cert.SharedWindows.arrBufs_eq_of_list spec1 c V [main_arg1, main_v2] (by decide) (by decide)]
  unfold Pipeline.Dat.arrays
  rw [Gen.bigSep_W1]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hA 0, hA 1, hA 2, (Gen.arr_whole1 0).set_eq_univ, (Gen.arr_whole1 2).set_eq_univ, bigSepL_pair]
  iintro ⟨Ha, Hb⟩
  ihave H := (pointsTo_share full_mem).1 $$ Ha
  icases H with ⟨H0, H1⟩
  isplitl [H0]; · iexact H0
  isplitl [H1]; · iexact H1
  iexact Hb

/-- EXIT of pipeline 1: the pipeline's arrays at contents `Fn` — the two halves of `main_arg1` joined into the full share
    — and the unscoped rest at `V` are the core's unscoped buffers at any contents `V'` that have the arrays at `Fn`
    (`hF`) and agree with `V` off them (`hrest`). -/
theorem exit1 (c : Dev nD) (dat : Pipeline.Dat τ (Elt F) Unit ℕ (UR sig nD τ) ℕ cfg1 c) (hq0 : dat.q 0 = qL) (hq1 : dat.q 1 = qR)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w)) (hrest : ∀ b, b ∉ Finset.univ.image (Pipeline.arrRef spec1) → V' b = V b) :
    iprop(dat.arrays Fn ∗ Pipeline.unscopedRest spec1 c V) ⊢ (unscopedBufs c V' : sProp 𝕄) := by
  rw [Cert.SharedWindows.unscopedBufs_split spec1 c Gen.winFacts₀1.arr_unscoped V',
    Cert.SharedWindows.unscopedRest_congr spec1 c V V' fun b hb => (hrest b hb).symm]
  refine sep_mono ?_ .rfl
  rw [Cert.SharedWindows.arrBufs_eq_of_list spec1 c V' [main_arg1, main_v2] (by decide) (by decide)]
  unfold Pipeline.Dat.arrays
  rw [Gen.bigSep_W1]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hF 0, hF 1, hF 2, (Gen.arr_whole1 0).set_eq_univ, (Gen.arr_whole1 2).set_eq_univ, bigSepL_pair]
  iintro ⟨H0, H1, Hb⟩
  isplitl [H0 H1]
  · iapply (pointsTo_share full_mem).2
    isplitl [H0]; · iexact H0
    iexact H1
  iexact Hb

end Cert.Kernel.SharedSplit

end
-- ==== Proof.KW.Run.lean ====
/-
  The whole program's run. @main is three calls of the tile kernel, each followed by a stretch of host operations
  (the sum of the call's sixteen outputs; after the third also the three means and their combination). The buffers'
  contents at each boundary are a fold from the launch memory: a call leaves its output array at what its write-backs
  leave and every other buffer as it found it; a host stretch applies its operations. Every weakly fair execution
  terminates, and every final memory holds each unscoped buffer at the last boundary's contents; the arguments, which
  no call and no host operation writes, are read back through the fold to the launch memory.
-/
import proofs.«105376_j19189913878688_2_alg».proof.Proof.KW.Data0
import proofs.«105376_j19189913878688_2_alg».proof.Proof.KW.Data1
import proofs.«105376_j19189913878688_2_alg».proof.Proof.KW.Data2
import proofs.«105376_j19189913878688_2_alg».proof.Proof.KW.SharedSplit
import proofs.«105376_j19189913878688_2_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After call 0: its output array at what the write-backs leave. -/
def W1 (c : Dev nD) : Valuation τ sig (Elt F) :=
  Function.update (W0 m ρ c) (Proc.devRef .tc main_v0) ((dat0 (V0 m ρ) c).arrAt 2 cfg0.N)
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 2 cfg0.N := by
  unfold W1; exact Function.update_self _ _ _
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) _ _
/-- At the call's exit each of its arrays holds what the pipeline leaves: an input array what it held, the output what the write-backs left. -/
theorem hF0 (c : Dev nD) (w : Fin cfg0.W) : (dat0 (V0 m ρ) c).arrAt w cfg0.N = V1 m ρ c (Pipeline.arrRef spec0 w) := by
  fin_cases w
  · exact ((dat0 (V0 m ρ) c).arrAt_in 0 rfl _).trans ((A_eq0 (V0 m ρ) c 0).trans (W1_of_ne m ρ c _ (by decide)).symm)
  · exact ((dat0 (V0 m ρ) c).arrAt_in 1 rfl _).trans ((A_eq0 (V0 m ρ) c 1).trans (W1_of_ne m ρ c _ (by decide)).symm)
  · exact (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

/-- After the first host stretch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After call 1. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b

theorem W3_out (c : Dev nD) : W3 m ρ c (Proc.devRef .tc main_v2) = (dat1 (V2 m ρ) c).arrAt 2 cfg1.N := by
  unfold W3; exact Function.update_self _ _ _
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) _ _
/-- At the call's exit each of its arrays holds what the pipeline leaves: an input array what it held, the output what the write-backs left. -/
theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c _ (by decide)).symm)
  · exact ((dat1 (V2 m ρ) c).arrAt_in 1 rfl _).trans ((A_eq1 (V2 m ρ) c 1).trans (W3_of_ne m ρ c _ (by decide)).symm)
  · exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- After the second host stretch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After call 2. -/
def W5 (c : Dev nD) : Valuation τ sig (Elt F) :=
  Function.update (W4 m ρ c) (Proc.devRef .tc main_v4) ((dat2 (V4 m ρ) c).arrAt 2 cfg2.N)
abbrev V5 : (c : Dev nD) → (b : Ref sig .tc) → Buf (Elt F) ((c : Thread nD τ).loc b) := fun c b => W5 m ρ c b

theorem W5_out (c : Dev nD) : W5 m ρ c (Proc.devRef .tc main_v4) = (dat2 (V4 m ρ) c).arrAt 2 cfg2.N := by
  unfold W5; exact Function.update_self _ _ _
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) _ _
/-- At the call's exit each of its arrays holds what the pipeline leaves: an input array what it held, the output what the write-backs left. -/
theorem hF2 (c : Dev nD) (w : Fin cfg2.W) : (dat2 (V4 m ρ) c).arrAt w cfg2.N = V5 m ρ c (Pipeline.arrRef spec2 w) := by
  fin_cases w
  · exact ((dat2 (V4 m ρ) c).arrAt_in 0 rfl _).trans ((A_eq2 (V4 m ρ) c 0).trans (W5_of_ne m ρ c _ (by decide)).symm)
  · exact ((dat2 (V4 m ρ) c).arrAt_in 1 rfl _).trans ((A_eq2 (V4 m ρ) c 1).trans (W5_of_ne m ρ c _ (by decide)).symm)
  · exact (W5_out m ρ c).symm
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)

/-- After the last host stretch. -/
abbrev W6 : Dev nD → Valuation τ sig (Elt F) := fun c => StableHlo.after hostOps3 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 over the thread state: entered from every unscoped buffer at `W0`, left at `W1`; its arrays split out
    of the unscoped buffers and put back at the exit contents; the scratch buffers into the invariant and out; nothing
    owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := SharedSplit.entry0 c (pdats m ρ 0 c) rfl rfl (V0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (dat0 (V0 m ρ) c).Φ 0 from rfl]
    iintro ⟨-, -, Hr⟩
    iapply (inv0_in (V0 m ρ) c)
    iexact Hr
  hout c := by
    rw [Pipeline.ownSems0_none, show (pdats m ρ 0 c).Φ (Fin.last _) = (dat0 (V0 m ρ) c).Φ (Fin.last cfg0.N) from rfl]
    iintro Hr
    isplitr; · iempintro
    isplitr; · iempintro
    iapply (inv0_out (V0 m ρ) c)
    iexact Hr
  hexit c := by
    have hjoin := SharedSplit.exit0 c (pdats m ρ 0 c) rfl rfl (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Call 1 over the thread state: entered from every unscoped buffer at `W2`, left at `W3`; its arrays split out
    of the unscoped buffers and put back at the exit contents; the scratch buffers into the invariant and out; nothing
    owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := SharedSplit.entry1 c (pdats m ρ 1 c) rfl rfl (V2 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (V2 m ρ) c).Φ 0 from rfl]
    iintro ⟨-, -, Hr⟩
    iapply (inv1_in (V2 m ρ) c)
    iexact Hr
  hout c := by
    rw [Pipeline.ownSems0_none, show (pdats m ρ 1 c).Φ (Fin.last _) = (dat1 (V2 m ρ) c).Φ (Fin.last cfg1.N) from rfl]
    iintro Hr
    isplitr; · iempintro
    isplitr; · iempintro
    iapply (inv1_out (V2 m ρ) c)
    iexact Hr
  hexit c := by
    have hjoin := SharedSplit.exit1 c (pdats m ρ 1 c) rfl rfl (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Call 2 over the thread state: entered from every unscoped buffer at `W4`, left at `W5`; its arrays split out
    of the unscoped buffers and put back at the exit contents; the scratch buffers into the invariant and out; nothing
    owed; no semaphore of the kernel's own. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (dat2 (V4 m ρ) c).Φ 0 from rfl]
    iintro ⟨-, -, Hr⟩
    iapply (inv2_in (V4 m ρ) c)
    iexact Hr
  hout c := by
    rw [Pipeline.ownSems0_none, show (pdats m ρ 2 c).Φ (Fin.last _) = (dat2 (V4 m ρ) c).Φ (Fin.last cfg2.N) from rfl]
    iintro Hr
    isplitr; · iempintro
    isplitr; · iempintro
    iapply (inv2_out (V4 m ρ) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) :=
  main_segs adm (pdats m ρ) () 𝒱₀ L lv _ _ _ (reg0 m ρ) (reg1 m ρ) (reg2 m ρ) rfl rfl rfl c

set_option backward.isDefEq.respectTransparency.types false in
/-- Every weakly fair execution of @main from memory `m` with zero counters terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(iprop(StableHlo.held (c : Thread nD τ) (Pipeline.ucRefs τ sig) (W6 m ρ c) ∗ ∃ r, prngReg c r)
              ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W6_main_arg0 m ρ c),
    (h c _ (mem_uc main_arg1 (by decide))).trans (W6_main_arg1 m ρ c)⟩) (run_all m ρ)

end Cert.Kernel.Regions

end
-- ==== Proof.KI.Base0.lean ====
/-
  Call 0 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.KernelIdeal.Launch
import proofs.«105376_j19189913878688_2_alg».proof.Proof.Gen.KernelIdeal.Skeleton
import proofs.«105376_j19189913878688_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 8 = 0 :=
  (by decide +kernel : ∀ t : Fin grid0.N, first0 (grid0.coords t) ↔ t.val % 8 = 0)

/-- The point is the last of its row (j = 7): the body's second conditional. -/
abbrev last0 (i : grid0.Coords) : Prop := k0_cond2 i = 1#1
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off the last point of a row the output window is idle and not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The running sum, the row block's squared norms, and the row block's copy: whole scoped buffers of the call's own. -/
abbrev scAcc0 : Memref sig .tc .vmem S1x1x1 .f32 := Memref.whole cc0_scratch0
abbrev scSq0 : Memref sig .tc .vmem S512x1 .f32 := Memref.whole cc0_scratch1
abbrev scCp0 : Memref sig .tc .vmem S512x256 .bf16 := Memref.whole cc0_scratch2
/-- One staging buffer of the output window, through which its contents are stated. -/
abbrev VO0 : View sig .tc .vmem S1x1x1 .f32 := (Memref.whole cc0_stg2_0 : Memref sig .tc .vmem S1x1x1 .f32).view
abbrev VAcc0 : View sig .tc .vmem S1x1x1 .f32 := (scAcc0).view
abbrev VSq0 : View sig .tc .vmem S512x1 .f32 := (scSq0).view
abbrev VCp0 : View sig .tc .vmem S512x256 .bf16 := (scCp0).view

/-! ## The scratch buffers among the core's scoped buffers -/

/-- The core's scoped buffers that are neither a staging buffer of this call nor its scratch, each at some contents. -/
abbrev others0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The scoped buffers this call does not stage are its three scratch buffers, each owned at some contents, and the others. -/
theorem scoped0_eq (c : Dev nD) :
    (Pipeline.scopedRest (Ix := Unit) (Name := ℕ) (U := UR sig nD τ) (Lvl := ℕ) (Val := Elt F) spec0 c : sProp 𝕄)
      = iprop(((∃ d, owns (c : Thread nD τ) scAcc0 fullShare d) ∗ (∃ d, owns (c : Thread nD τ) scSq0 fullShare d)
          ∗ (∃ d, owns (c : Thread nD τ) scCp0 fullShare d)) ∗ others0 c) := by
  rw [Pipeline.scopedRest_split_of_list spec0 c [cc0_scratch0, cc0_scratch1, cc0_scratch2] (by decide) (by decide)]
  simp only [scAcc0, scSq0, scCp0, owns_whole, bigSepL]
  try rfl

end Cert.KernelIdeal.Regions

end
-- ==== Proof.KI.CaseA0.lean ====
/-
  Call 0, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KI.Base0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, ?_, ?_, fun xi E K => ?run⟩
  case run =>
    simp only [cc0__mmd_sum_kernel_eq_skeleton]; unfold cc0__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S1x1x1.Idx) :
    ∃ pc ∈ (runA0 c i arg2 harg2 arg3 harg3 arg4 harg4 arg5 harg5 arg6 harg6 arg7 harg7 hc0 hc1 x0 x1).1, y ∈ pc.1.set :=
  View.cover_of_tiledL (runA0 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S512x1.Idx) :
    ∃ pc ∈ (runA0 c i arg2 harg2 arg3 harg3 arg4 harg4 arg5 harg5 arg6 harg6 arg7 harg7 hc0 hc1 x0 x1).2.1, y ∈ pc.1.set :=
  View.cover_of_tiledL (runA0 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) (y : S512x256.Idx) :
    ∃ pc ∈ (runA0 c i arg2 harg2 arg3 harg3 arg4 harg4 arg5 harg5 arg6 harg6 arg7 harg7 hc0 hc1 x0 x1).2.2.1, y ∈ pc.1.set :=
  View.cover_of_tiledL (runA0 c i arg2 harg2 arg3 harg3 arg4 harg4 arg5 harg5 arg6 harg6 arg7 harg7 hc0 hc1 x0 x1).2.2.1 S512x256.size (by sl_kernel_rfl) y

end Cert.KernelIdeal.Regions

end
-- ==== Proof.KI.CaseB0.lean ====
/-
  Call 0, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KI.Base0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : ¬last0 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, fun xi E K => ?run⟩
  case run =>
    simp only [cc0__mmd_sum_kernel_eq_skeleton]; unfold cc0__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : ¬last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB0 c i arg2 harg2 arg3 harg3 arg4 harg4 arg5 harg5 arg6 harg6 arg7 harg7 hc0 hc1 x0 x1 xa xq xc).1, y ∈ pc.1.set :=
  View.cover_of_tiledL (runB0 c i arg2 harg2 arg3 harg3 arg4 harg4 arg5 harg5 arg6 harg6 arg7 harg7 hc0 hc1 x0 x1 xa xq xc).1 S1x1x1.size (by sl_kernel_rfl) y

end Cert.KernelIdeal.Regions

end
-- ==== Proof.KI.CaseC0.lean ====
/-
  Call 0, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KI.Base0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc0__mmd_sum_kernel i arg2 harg2 arg3 harg3 arg4 harg4 arg5 harg5 arg6 harg6 arg7 harg7) K } := by
  refine ⟨?_, ?_, fun E K => ?run⟩
  case run =>
    simp only [cc0__mmd_sum_kernel_eq_skeleton]; unfold cc0__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC0 c i arg2 harg2 arg3 harg3 arg4 harg4 arg5 harg5 arg6 harg6 arg7 harg7 hc0 hc1 x0 x1 xa xq xc).1, y ∈ pc.1.set :=
  View.cover_of_tiledL (runC0 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC0 c i arg2 harg2 arg3 harg3 arg4 harg4 arg5 harg5 arg6 harg6 arg7 harg7 hc0 hc1 x0 x1 xa xq xc).2.1, y ∈ pc.1.set :=
  View.cover_of_tiledL (runC0 c i arg2 harg2 arg3 harg3 arg4 harg4 arg5 harg5 arg6 harg6 arg7 harg7 hc0 hc1 x0 x1 xa xq xc).2.1 S1x1x1.size (by sl_kernel_rfl) y

end Cert.KernelIdeal.Regions

end
-- ==== Proof.KI.Data0.lean ====
/-
  Call 0: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KI.CaseA0
import proofs.«105376_j19189913878688_2_alg».proof.Proof.KI.CaseB0
import proofs.«105376_j19189913878688_2_alg».proof.Proof.KI.CaseC0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The three cases at a point -/

/-- The run of case A at a point that is the first of its row. -/
def atA0 (c : Dev nD) (t : Fin cfg0.N) (h0 : t.val % 8 = 0) :=
  runA0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    ((hfirst0 t).mpr h0) (fun h => by have := (hlast0 t).mp h; omega) (blk0 V c 0 t) (blk0 V c 1 t)
/-- The run of case B at a point inside its row, from the scratch contents handed to it. -/
def atB0 (c : Dev nD) (t : Fin cfg0.N) (h0 : ¬t.val % 8 = 0) (h1 : ¬t.val % 8 = 7)
    (xa : Vec F S1x1x1 .f32) (xq : Vec F S512x1 .f32) (xc : Vec F S512x256 .bf16) :=
  runB0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    (fun h => h0 ((hfirst0 t).mp h)) (fun h => h1 ((hlast0 t).mp h)) (blk0 V c 0 t) (blk0 V c 1 t) xa xq xc
/-- The run of case C at a point that is the last of its row. -/
def atC0 (c : Dev nD) (t : Fin cfg0.N) (h0 : ¬t.val % 8 = 0) (h1 : t.val % 8 = 7)
    (xa : Vec F S1x1x1 .f32) (xq : Vec F S512x1 .f32) (xc : Vec F S512x256 .bf16) :=
  runC0 (F := F) c (grid0.coords t) (ms0_0 t) (hs0_0 t) (ms0_1 t) (hs0_1 t) (ms0_2 t) (hs0_2 t) scAcc0 (Memref.isWhole_whole _) scSq0 (Memref.isWhole_whole _) scCp0 (Memref.isWhole_whole _)
    (fun h => h0 ((hfirst0 t).mp h)) ((hlast0 t).mpr h1) (blk0 V c 0 t) (blk0 V c 1 t) xa xq xc

/-- What each case leaves in a buffer: its pieces read back. -/
def accA0 (c : Dev nD) (t : Fin cfg0.N) (h0 : t.val % 8 = 0) : Vec F S1x1x1 .f32 :=
  VAcc0.read (Elt F) (VAcc0.writes (Elt F) VAcc0.junk (atA0 V c t h0).1)
def sqA0 (c : Dev nD) (t : Fin cfg0.N) (h0 : t.val % 8 = 0) : Vec F S512x1 .f32 :=
  VSq0.read (Elt F) (VSq0.writes (Elt F) VSq0.junk (atA0 V c t h0).2.1)
def cpA0 (c : Dev nD) (t : Fin cfg0.N) (h0 : t.val % 8 = 0) : Vec F S512x256 .bf16 :=
  VCp0.read (Elt F) (VCp0.writes (Elt F) VCp0.junk (atA0 V c t h0).2.2.1)
def accB0 (c : Dev nD) (t : Fin cfg0.N) (h0 : ¬t.val % 8 = 0) (h1 : ¬t.val % 8 = 7)
    (xa : Vec F S1x1x1 .f32) (xq : Vec F S512x1 .f32) (xc : Vec F S512x256 .bf16) : Vec F S1x1x1 .f32 :=
  VAcc0.read (Elt F) (VAcc0.writes (Elt F) VAcc0.junk (atB0 V c t h0 h1 xa xq xc).1)
def outC0 (c : Dev nD) (t : Fin cfg0.N) (h0 : ¬t.val % 8 = 0) (h1 : t.val % 8 = 7)
    (xa : Vec F S1x1x1 .f32) (xq : Vec F S512x1 .f32) (xc : Vec F S512x256 .bf16) : Vec F S1x1x1 .f32 :=
  VO0.read (Elt F) (VO0.writes (Elt F) VO0.junk (atC0 V c t h0 h1 xa xq xc).1)
def accC0 (c : Dev nD) (t : Fin cfg0.N) (h0 : ¬t.val % 8 = 0) (h1 : t.val % 8 = 7)
    (xa : Vec F S1x1x1 .f32) (xq : Vec F S512x1 .f32) (xc : Vec F S512x256 .bf16) : Vec F S1x1x1 .f32 :=
  VAcc0.read (Elt F) (VAcc0.writes (Elt F) VAcc0.junk (atC0 V c t h0 h1 xa xq xc).2.1)
/-- The output's staging buffer where the point stores nothing into it: a value nothing consults. -/
def idleOut0 : Vec F S1x1x1 .f32 := VO0.read (Elt F) VO0.junk

/-! ## The contents after each point -/

/-- After point n: the output's staging buffer, the running sum, the squared norms, the copy. -/
def stateAt0 (c : Dev nD) : (n : ℕ) → n < cfg0.N → Vec F S1x1x1 .f32 × Vec F S1x1x1 .f32 × Vec F S512x1 .f32 × Vec F S512x256 .bf16
  | 0, hn => (idleOut0, accA0 V c ⟨0, hn⟩ (Nat.zero_mod _), sqA0 V c ⟨0, hn⟩ (Nat.zero_mod _), cpA0 V c ⟨0, hn⟩ (Nat.zero_mod _))
  | n + 1, hn =>
    if h0 : (n + 1) % 8 = 0 then
      (idleOut0, accA0 V c ⟨n + 1, hn⟩ h0, sqA0 V c ⟨n + 1, hn⟩ h0, cpA0 V c ⟨n + 1, hn⟩ h0)
    else if h1 : (n + 1) % 8 = 7 then
      (outC0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       accC0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       (stateAt0 c n (Nat.lt_of_succ_lt hn)).2.2.1, (stateAt0 c n (Nat.lt_of_succ_lt hn)).2.2.2)
    else
      (idleOut0,
       accB0 V c ⟨n + 1, hn⟩ h0 h1 (stateAt0 c n (Nat.lt_of_succ_lt hn)).2.1 (stateAt0 c n (Nat.lt_of_succ_lt hn)).2.2.1 (stateAt0 c n (Nat.lt_of_succ_lt hn)).2.2.2,
       (stateAt0 c n (Nat.lt_of_succ_lt hn)).2.2.1, (stateAt0 c n (Nat.lt_of_succ_lt hn)).2.2.2)

theorem stateAt0_A (c : Dev nD) (t : Fin cfg0.N) (h0 : t.val % 8 = 0) :
    stateAt0 V c t.val t.isLt = (idleOut0, accA0 V c t h0, sqA0 V c t h0, cpA0 V c t h0) := by
  obtain ⟨n, hn⟩ := t
  cases n with
  | zero => exact rfl
  | succ n => exact (dif_pos h0).trans rfl

theorem stateAt0_B (c : Dev nD) (t : Fin cfg0.N) (h0 : ¬t.val % 8 = 0) (h1 : ¬t.val % 8 = 7) :
    stateAt0 V c t.val t.isLt = (idleOut0,
      accB0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      (stateAt0 V c (t.val - 1) (Nat.lt_of_le_of_lt (Nat.sub_le _ _) t.isLt)).2.2.1, (stateAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt0_C (c : Dev nD) (t : Fin cfg0.N) (h0 : ¬t.val % 8 = 0) (h1 : t.val % 8 = 7) :
    stateAt0 V c t.val t.isLt = (
      outC0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      accC0 V c t h0 h1 (stateAt0 V c (t.val - 1) (Nat.lt_of_le_of_lt (Nat.sub_le _ _) t.isLt)).2.1 (stateAt0 V c (t.val - 1) (Nat.lt_of_le_of_lt (Nat.sub_le _ _) t.isLt)).2.2.1 (stateAt0 V c (t.val - 1) (Nat.lt_of_le_of_lt (Nat.sub_le _ _) t.isLt)).2.2.2,
      (stateAt0 V c (t.val - 1) (Nat.lt_of_le_of_lt (Nat.sub_le _ _) t.isLt)).2.2.1, (stateAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop((owns (c : Thread nD τ) scAcc0 fullShare (stateAt0 V c n hn).2.1 ∗ owns (c : Thread nD τ) scSq0 fullShare (stateAt0 V c n hn).2.2.1
      ∗ owns (c : Thread nD τ) scCp0 fullShare (stateAt0 V c n hn).2.2.2) ∗ others0 c)

theorem inv0_zero (c : Dev nD) (n : ℕ) (h : n ≤ cfg0.N) (hz : n = 0) :
    inv0 V c n h = Pipeline.scopedRest (Ix := Unit) (Name := ℕ) (U := UR sig nD τ) (Lvl := ℕ) (Val := Elt F) spec0 c := by
  subst hz; rfl

theorem inv0_succ (c : Dev nD) (n : ℕ) (hn : n < cfg0.N) :
    inv0 V c (n + 1) hn = iprop((owns (c : Thread nD τ) scAcc0 fullShare (stateAt0 V c n hn).2.1 ∗ owns (c : Thread nD τ) scSq0 fullShare (stateAt0 V c n hn).2.2.1
      ∗ owns (c : Thread nD τ) scCp0 fullShare (stateAt0 V c n hn).2.2.2) ∗ others0 c) := rfl

theorem inv0_pos (c : Dev nD) (n : ℕ) (h : n ≤ cfg0.N) (hz : n ≠ 0) :
    inv0 V c n h = iprop((owns (c : Thread nD τ) scAcc0 fullShare (stateAt0 V c (n - 1) (by omega)).2.1 ∗ owns (c : Thread nD τ) scSq0 fullShare (stateAt0 V c (n - 1) (by omega)).2.2.1
      ∗ owns (c : Thread nD τ) scCp0 fullShare (stateAt0 V c (n - 1) (by omega)).2.2.2) ∗ others0 c) := by
  cases n with
  | zero => exact absurd rfl hz
  | succ n => rfl

/-! ## The proof data -/

/-- The arrays as the call finds them; after the body each input's buffer at its block and the output's at
    `stateAt`'s first component; the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (stateAt0 V c t.val t.isLt).1
  Φ t := inv0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (stateAt0 V c t.val t.isLt).1 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    have hl : ¬last0 (grid0.coords t) := fun h => h1 ((hlast0 t).mp h)
    rw [Dat.leavesExact_idle (dat0 V c) 2 t (idle0_2 t hl) (noFlush0_2 t hl)]
    rw [stateAt0_A V c t h0]
    unfold accA0 sqA0 cpA0; (try dsimp only)
    by_cases hz : t.val = 0
    · rw [inv0_castSucc V c t, inv0_zero V c _ _ hz, scoped0_eq]
      iintro ⟨⟨⟨HA, HQ, HC⟩, Hoth⟩, Ho, ⟨%d0, H0⟩, ⟨%d1, H1⟩, ⟨%d2, H2⟩⟩
      iapply ((atA0 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA0 _ _ _ _ _ _ _ _ _ _ _ _ _ _ _ _ _ _)
          isplitl [HQ]
          · unfold owns; iexists _; isplitr
            swap; · iexact HQ
            ipureintro; exact View.read_writes_of_cover _ _ _ _ _ (coverSqA0 _ _ _ _ _ _ _ _ _ _ _ _ _ _ _ _ _ _)
          unfold owns; iexists _; isplitr
          swap; · iexact HC
          ipureintro; exact View.read_writes_of_cover _ _ _ _ _ (coverCpA0 _ _ _ _ _ _ _ _ _ _ _ _ _ _ _ _ _ _)
        iexact Hoth
      isplitl [Ho]; · iexact Ho
      isplitl [H0]; · iexact H0
      isplitl [H1]; · iexact H1
      iexists _; iexact H2
    · rw [inv0_castSucc V c t, inv0_pos V c _ _ hz]
      iintro ⟨⟨⟨HA, HQ, HC⟩, Hoth⟩, Ho, ⟨%d0, H0⟩, ⟨%d1, H1⟩, ⟨%d2, H2⟩⟩
      iapply ((atA0 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA0 _ _ _ _ _ _ _ _ _ _ _ _ _ _ _ _ _ _)
          isplitl [HQ]
          · unfold owns; iexists _; isplitr
            swap; · iexact HQ
            ipureintro; exact View.read_writes_of_cover _ _ _ _ _ (coverSqA0 _ _ _ _ _ _ _ _ _ _ _ _ _ _ _ _ _ _)
          unfold owns; iexists _; isplitr
          swap; · iexact HC
          ipureintro; exact View.read_writes_of_cover _ _ _ _ _ (coverCpA0 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last0 (grid0.coords t) := (hlast0 t).mpr h1
      rw [show (dat0 V c).leavesExact 2 t = owns (c : Thread nD τ) (ms0_2 t) fullShare ((dat0 V c).after 2 t) from by
        unfold Dat.leavesExact; rw [live0_2 t hl], after0_2]
      rw [stateAt0_C V c t h0 h1]
      unfold outC0 accC0; (try dsimp only)
      rw [inv0_castSucc V c t, inv0_pos V c _ _ hz]
      iintro ⟨⟨⟨HA, HQ, HC⟩, Hoth⟩, Ho, ⟨%d0, H0⟩, ⟨%d1, H1⟩, ⟨%d2, H2⟩⟩
      iapply ((atC0 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC0 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC0 _ _ _ _ _ _ _ _ _ _ _ _ _ _ _ _ _ _ _ _ _)
    · have hl : ¬last0 (grid0.coords t) := fun h => h1 ((hlast0 t).mp h)
      rw [Dat.leavesExact_idle (dat0 V c) 2 t (idle0_2 t hl) (noFlush0_2 t hl)]
      rw [stateAt0_B V c t h0 h1]
      unfold accB0; (try dsimp only)
      rw [inv0_castSucc V c t, inv0_pos V c _ _ hz]
      iintro ⟨⟨⟨HA, HQ, HC⟩, Hoth⟩, Ho, ⟨%d0, H0⟩, ⟨%d1, H1⟩, ⟨%d2, H2⟩⟩
      iapply ((atB0 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB0 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed before its first point is the invariant there. -/
theorem inv0_in (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = inv0 V c 0 (Nat.zero_le _) from rfl, inv0_zero V c 0 _ rfl]
  try exact Idealize.SL.BI.Entails.refl _

/-- After the last point the invariant gives the scoped buffers back, the scratch contents forgotten. -/
theorem inv0_out (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), scoped0_eq]
  iintro ⟨⟨HA, HQ, HC⟩, Hoth⟩
  isplitr [Hoth]
  · isplitl [HA]; · iexists _; iexact HA
    isplitl [HQ]; · iexists _; iexact HQ
    iexists _; iexact HC
  iexact Hoth

end Cert.KernelIdeal.Regions

end
-- ==== Proof.KI.Base1.lean ====
/-
  Call 1 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.KernelIdeal.Launch
import proofs.«105376_j19189913878688_2_alg».proof.Proof.Gen.KernelIdeal.Skeleton
import proofs.«105376_j19189913878688_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)

/-- The point is the last of its row (j = 7): the body's second conditional. -/
abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off the last point of a row the output window is idle and not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The memrefs the body is called with -/

abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
/-- The running sum, the row block's squared norms, and the row block's copy: whole scoped buffers of the call's own. -/
abbrev scAcc1 : Memref sig .tc .vmem S1x1x1 .f32 := Memref.whole cc1_scratch0
abbrev scSq1 : Memref sig .tc .vmem S512x1 .f32 := Memref.whole cc1_scratch1
abbrev scCp1 : Memref sig .tc .vmem S512x256 .bf16 := Memref.whole cc1_scratch2
/-- One staging buffer of the output window, through which its contents are stated. -/
abbrev VO1 : View sig .tc .vmem S1x1x1 .f32 := (Memref.whole cc1_stg2_0 : Memref sig .tc .vmem S1x1x1 .f32).view
abbrev VAcc1 : View sig .tc .vmem S1x1x1 .f32 := (scAcc1).view
abbrev VSq1 : View sig .tc .vmem S512x1 .f32 := (scSq1).view
abbrev VCp1 : View sig .tc .vmem S512x256 .bf16 := (scCp1).view

/-! ## The scratch buffers among the core's scoped buffers -/

/-- The core's scoped buffers that are neither a staging buffer of this call nor its scratch, each at some contents. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The scoped buffers this call does not stage are its three scratch buffers, each owned at some contents, and the others. -/
theorem scoped1_eq (c : Dev nD) :
    (Pipeline.scopedRest (Ix := Unit) (Name := ℕ) (U := UR sig nD τ) (Lvl := ℕ) (Val := Elt F) spec1 c : sProp 𝕄)
      = iprop(((∃ d, owns (c : Thread nD τ) scAcc1 fullShare d) ∗ (∃ d, owns (c : Thread nD τ) scSq1 fullShare d)
          ∗ (∃ d, owns (c : Thread nD τ) scCp1 fullShare d)) ∗ others1 c) := by
  rw [Pipeline.scopedRest_split_of_list spec1 c [cc1_scratch0, cc1_scratch1, cc1_scratch2] (by decide) (by decide)]
  simp only [scAcc1, scSq1, scCp1, owns_whole, bigSepL]
  try rfl

end Cert.KernelIdeal.Regions

end
-- ==== Proof.KI.CaseA1.lean ====
/-
  Call 1, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KI.Base1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, ?_, ?_, fun xi E K => ?run⟩
  case run =>
    simp only [cc1__mmd_sum_kernel_eq_skeleton]; unfold cc1__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S1x1x1.Idx) :
    ∃ pc ∈ (runA1 c i arg2 harg2 arg3 harg3 arg4 harg4 arg5 harg5 arg6 harg6 arg7 harg7 hc0 hc1 x0 x1).1, y ∈ pc.1.set :=
  View.cover_of_tiledL (runA1 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S512x1.Idx) :
    ∃ pc ∈ (runA1 c i arg2 harg2 arg3 harg3 arg4 harg4 arg5 harg5 arg6 harg6 arg7 harg7 hc0 hc1 x0 x1).2.1, y ∈ pc.1.set :=
  View.cover_of_tiledL (runA1 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) (y : S512x256.Idx) :
    ∃ pc ∈ (runA1 c i arg2 harg2 arg3 harg3 arg4 harg4 arg5 harg5 arg6 harg6 arg7 harg7 hc0 hc1 x0 x1).2.2.1, y ∈ pc.1.set :=
  View.cover_of_tiledL (runA1 c i arg2 harg2 arg3 harg3 arg4 harg4 arg5 harg5 arg6 harg6 arg7 harg7 hc0 hc1 x0 x1).2.2.1 S512x256.size (by sl_kernel_rfl) y

end Cert.KernelIdeal.Regions

end
-- ==== Proof.KI.CaseB1.lean ====
/-
  Call 1, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KI.Base1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : ¬last1 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, fun xi E K => ?run⟩
  case run =>
    simp only [cc1__mmd_sum_kernel_eq_skeleton]; unfold cc1__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : ¬last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB1 c i arg2 harg2 arg3 harg3 arg4 harg4 arg5 harg5 arg6 harg6 arg7 harg7 hc0 hc1 x0 x1 xa xq xc).1, y ∈ pc.1.set :=
  View.cover_of_tiledL (runB1 c i arg2 harg2 arg3 harg3 arg4 harg4 arg5 harg5 arg6 harg6 arg7 harg7 hc0 hc1 x0 x1 xa xq xc).1 S1x1x1.size (by sl_kernel_rfl) y

end Cert.KernelIdeal.Regions

end
-- ==== Proof.KI.CaseC1.lean ====
/-
  Call 1, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KI.Base1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc1__mmd_sum_kernel i arg2 harg2 arg3 harg3 arg4 harg4 arg5 harg5 arg6 harg6 arg7 harg7) K } := by
  refine ⟨?_, ?_, fun E K => ?run⟩
  case run =>
    simp only [cc1__mmd_sum_kernel_eq_skeleton]; unfold cc1__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC1 c i arg2 harg2 arg3 harg3 arg4 harg4 arg5 harg5 arg6 harg6 arg7 harg7 hc0 hc1 x0 x1 xa xq xc).1, y ∈ pc.1.set :=
  View.cover_of_tiledL (runC1 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC1 c i arg2 harg2 arg3 harg3 arg4 harg4 arg5 harg5 arg6 harg6 arg7 harg7 hc0 hc1 x0 x1 xa xq xc).2.1, y ∈ pc.1.set :=
  View.cover_of_tiledL (runC1 c i arg2 harg2 arg3 harg3 arg4 harg4 arg5 harg5 arg6 harg6 arg7 harg7 hc0 hc1 x0 x1 xa xq xc).2.1 S1x1x1.size (by sl_kernel_rfl) y

end Cert.KernelIdeal.Regions

end
-- ==== Proof.KI.Data1.lean ====
/-
  Call 1: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KI.CaseA1
import proofs.«105376_j19189913878688_2_alg».proof.Proof.KI.CaseB1
import proofs.«105376_j19189913878688_2_alg».proof.Proof.KI.CaseC1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The three cases at a point -/

/-- The run of case A at a point that is the first of its row. -/
def atA1 (c : Dev nD) (t : Fin cfg1.N) (h0 : t.val % 8 = 0) :=
  runA1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    ((hfirst1 t).mpr h0) (fun h => by have := (hlast1 t).mp h; omega) (blk1 V c 0 t) (blk1 V c 1 t)
/-- The run of case B at a point inside its row, from the scratch contents handed to it. -/
def atB1 (c : Dev nD) (t : Fin cfg1.N) (h0 : ¬t.val % 8 = 0) (h1 : ¬t.val % 8 = 7)
    (xa : Vec F S1x1x1 .f32) (xq : Vec F S512x1 .f32) (xc : Vec F S512x256 .bf16) :=
  runB1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    (fun h => h0 ((hfirst1 t).mp h)) (fun h => h1 ((hlast1 t).mp h)) (blk1 V c 0 t) (blk1 V c 1 t) xa xq xc
/-- The run of case C at a point that is the last of its row. -/
def atC1 (c : Dev nD) (t : Fin cfg1.N) (h0 : ¬t.val % 8 = 0) (h1 : t.val % 8 = 7)
    (xa : Vec F S1x1x1 .f32) (xq : Vec F S512x1 .f32) (xc : Vec F S512x256 .bf16) :=
  runC1 (F := F) c (grid1.coords t) (ms1_0 t) (hs1_0 t) (ms1_1 t) (hs1_1 t) (ms1_2 t) (hs1_2 t) scAcc1 (Memref.isWhole_whole _) scSq1 (Memref.isWhole_whole _) scCp1 (Memref.isWhole_whole _)
    (fun h => h0 ((hfirst1 t).mp h)) ((hlast1 t).mpr h1) (blk1 V c 0 t) (blk1 V c 1 t) xa xq xc

/-- What each case leaves in a buffer: its pieces read back. -/
def accA1 (c : Dev nD) (t : Fin cfg1.N) (h0 : t.val % 8 = 0) : Vec F S1x1x1 .f32 :=
  VAcc1.read (Elt F) (VAcc1.writes (Elt F) VAcc1.junk (atA1 V c t h0).1)
def sqA1 (c : Dev nD) (t : Fin cfg1.N) (h0 : t.val % 8 = 0) : Vec F S512x1 .f32 :=
  VSq1.read (Elt F) (VSq1.writes (Elt F) VSq1.junk (atA1 V c t h0).2.1)
def cpA1 (c : Dev nD) (t : Fin cfg1.N) (h0 : t.val % 8 = 0) : Vec F S512x256 .bf16 :=
  VCp1.read (Elt F) (VCp1.writes (Elt F) VCp1.junk (atA1 V c t h0).2.2.1)
def accB1 (c : Dev nD) (t : Fin cfg1.N) (h0 : ¬t.val % 8 = 0) (h1 : ¬t.val % 8 = 7)
    (xa : Vec F S1x1x1 .f32) (xq : Vec F S512x1 .f32) (xc : Vec F S512x256 .bf16) : Vec F S1x1x1 .f32 :=
  VAcc1.read (Elt F) (VAcc1.writes (Elt F) VAcc1.junk (atB1 V c t h0 h1 xa xq xc).1)
def outC1 (c : Dev nD) (t : Fin cfg1.N) (h0 : ¬t.val % 8 = 0) (h1 : t.val % 8 = 7)
    (xa : Vec F S1x1x1 .f32) (xq : Vec F S512x1 .f32) (xc : Vec F S512x256 .bf16) : Vec F S1x1x1 .f32 :=
  VO1.read (Elt F) (VO1.writes (Elt F) VO1.junk (atC1 V c t h0 h1 xa xq xc).1)
def accC1 (c : Dev nD) (t : Fin cfg1.N) (h0 : ¬t.val % 8 = 0) (h1 : t.val % 8 = 7)
    (xa : Vec F S1x1x1 .f32) (xq : Vec F S512x1 .f32) (xc : Vec F S512x256 .bf16) : Vec F S1x1x1 .f32 :=
  VAcc1.read (Elt F) (VAcc1.writes (Elt F) VAcc1.junk (atC1 V c t h0 h1 xa xq xc).2.1)
/-- The output's staging buffer where the point stores nothing into it: a value nothing consults. -/
def idleOut1 : Vec F S1x1x1 .f32 := VO1.read (Elt F) VO1.junk

/-! ## The contents after each point -/

/-- After point n: the output's staging buffer, the running sum, the squared norms, the copy. -/
def stateAt1 (c : Dev nD) : (n : ℕ) → n < cfg1.N → Vec F S1x1x1 .f32 × Vec F S1x1x1 .f32 × Vec F S512x1 .f32 × Vec F S512x256 .bf16
  | 0, hn => (idleOut1, accA1 V c ⟨0, hn⟩ (Nat.zero_mod _), sqA1 V c ⟨0, hn⟩ (Nat.zero_mod _), cpA1 V c ⟨0, hn⟩ (Nat.zero_mod _))
  | n + 1, hn =>
    if h0 : (n + 1) % 8 = 0 then
      (idleOut1, accA1 V c ⟨n + 1, hn⟩ h0, sqA1 V c ⟨n + 1, hn⟩ h0, cpA1 V c ⟨n + 1, hn⟩ h0)
    else if h1 : (n + 1) % 8 = 7 then
      (outC1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       accC1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       (stateAt1 c n (Nat.lt_of_succ_lt hn)).2.2.1, (stateAt1 c n (Nat.lt_of_succ_lt hn)).2.2.2)
    else
      (idleOut1,
       accB1 V c ⟨n + 1, hn⟩ h0 h1 (stateAt1 c n (Nat.lt_of_succ_lt hn)).2.1 (stateAt1 c n (Nat.lt_of_succ_lt hn)).2.2.1 (stateAt1 c n (Nat.lt_of_succ_lt hn)).2.2.2,
       (stateAt1 c n (Nat.lt_of_succ_lt hn)).2.2.1, (stateAt1 c n (Nat.lt_of_succ_lt hn)).2.2.2)

theorem stateAt1_A (c : Dev nD) (t : Fin cfg1.N) (h0 : t.val % 8 = 0) :
    stateAt1 V c t.val t.isLt = (idleOut1, accA1 V c t h0, sqA1 V c t h0, cpA1 V c t h0) := by
  obtain ⟨n, hn⟩ := t
  cases n with
  | zero => exact rfl
  | succ n => exact (dif_pos h0).trans rfl

theorem stateAt1_B (c : Dev nD) (t : Fin cfg1.N) (h0 : ¬t.val % 8 = 0) (h1 : ¬t.val % 8 = 7) :
    stateAt1 V c t.val t.isLt = (idleOut1,
      accB1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      (stateAt1 V c (t.val - 1) (Nat.lt_of_le_of_lt (Nat.sub_le _ _) t.isLt)).2.2.1, (stateAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt1_C (c : Dev nD) (t : Fin cfg1.N) (h0 : ¬t.val % 8 = 0) (h1 : t.val % 8 = 7) :
    stateAt1 V c t.val t.isLt = (
      outC1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      accC1 V c t h0 h1 (stateAt1 V c (t.val - 1) (Nat.lt_of_le_of_lt (Nat.sub_le _ _) t.isLt)).2.1 (stateAt1 V c (t.val - 1) (Nat.lt_of_le_of_lt (Nat.sub_le _ _) t.isLt)).2.2.1 (stateAt1 V c (t.val - 1) (Nat.lt_of_le_of_lt (Nat.sub_le _ _) t.isLt)).2.2.2,
      (stateAt1 V c (t.val - 1) (Nat.lt_of_le_of_lt (Nat.sub_le _ _) t.isLt)).2.2.1, (stateAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scAcc1 fullShare (stateAt1 V c n hn).2.1 ∗ owns (c : Thread nD τ) scSq1 fullShare (stateAt1 V c n hn).2.2.1
      ∗ owns (c : Thread nD τ) scCp1 fullShare (stateAt1 V c n hn).2.2.2) ∗ others1 c)

theorem inv1_zero (c : Dev nD) (n : ℕ) (h : n ≤ cfg1.N) (hz : n = 0) :
    inv1 V c n h = Pipeline.scopedRest (Ix := Unit) (Name := ℕ) (U := UR sig nD τ) (Lvl := ℕ) (Val := Elt F) spec1 c := by
  subst hz; rfl

theorem inv1_succ (c : Dev nD) (n : ℕ) (hn : n < cfg1.N) :
    inv1 V c (n + 1) hn = iprop((owns (c : Thread nD τ) scAcc1 fullShare (stateAt1 V c n hn).2.1 ∗ owns (c : Thread nD τ) scSq1 fullShare (stateAt1 V c n hn).2.2.1
      ∗ owns (c : Thread nD τ) scCp1 fullShare (stateAt1 V c n hn).2.2.2) ∗ others1 c) := rfl

theorem inv1_pos (c : Dev nD) (n : ℕ) (h : n ≤ cfg1.N) (hz : n ≠ 0) :
    inv1 V c n h = iprop((owns (c : Thread nD τ) scAcc1 fullShare (stateAt1 V c (n - 1) (by omega)).2.1 ∗ owns (c : Thread nD τ) scSq1 fullShare (stateAt1 V c (n - 1) (by omega)).2.2.1
      ∗ owns (c : Thread nD τ) scCp1 fullShare (stateAt1 V c (n - 1) (by omega)).2.2.2) ∗ others1 c) := by
  cases n with
  | zero => exact absurd rfl hz
  | succ n => rfl

/-! ## The proof data -/

/-- The arrays as the call finds them; after the body each input's buffer at its block and the output's at
    `stateAt`'s first component; the invariant above; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt1 V c t.val t.isLt).1
  Φ t := inv1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stateAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    have hl : ¬last1 (grid1.coords t) := fun h => h1 ((hlast1 t).mp h)
    rw [Dat.leavesExact_idle (dat1 V c) 2 t (idle1_2 t hl) (noFlush1_2 t hl)]
    rw [stateAt1_A V c t h0]
    unfold accA1 sqA1 cpA1; (try dsimp only)
    by_cases hz : t.val = 0
    · rw [inv1_castSucc V c t, inv1_zero V c _ _ hz, scoped1_eq]
      iintro ⟨⟨⟨HA, HQ, HC⟩, Hoth⟩, Ho, ⟨%d0, H0⟩, ⟨%d1, H1⟩, ⟨%d2, H2⟩⟩
      iapply ((atA1 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA1 _ _ _ _ _ _ _ _ _ _ _ _ _ _ _ _ _ _)
          isplitl [HQ]
          · unfold owns; iexists _; isplitr
            swap; · iexact HQ
            ipureintro; exact View.read_writes_of_cover _ _ _ _ _ (coverSqA1 _ _ _ _ _ _ _ _ _ _ _ _ _ _ _ _ _ _)
          unfold owns; iexists _; isplitr
          swap; · iexact HC
          ipureintro; exact View.read_writes_of_cover _ _ _ _ _ (coverCpA1 _ _ _ _ _ _ _ _ _ _ _ _ _ _ _ _ _ _)
        iexact Hoth
      isplitl [Ho]; · iexact Ho
      isplitl [H0]; · iexact H0
      isplitl [H1]; · iexact H1
      iexists _; iexact H2
    · rw [inv1_castSucc V c t, inv1_pos V c _ _ hz]
      iintro ⟨⟨⟨HA, HQ, HC⟩, Hoth⟩, Ho, ⟨%d0, H0⟩, ⟨%d1, H1⟩, ⟨%d2, H2⟩⟩
      iapply ((atA1 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA1 _ _ _ _ _ _ _ _ _ _ _ _ _ _ _ _ _ _)
          isplitl [HQ]
          · unfold owns; iexists _; isplitr
            swap; · iexact HQ
            ipureintro; exact View.read_writes_of_cover _ _ _ _ _ (coverSqA1 _ _ _ _ _ _ _ _ _ _ _ _ _ _ _ _ _ _)
          unfold owns; iexists _; isplitr
          swap; · iexact HC
          ipureintro; exact View.read_writes_of_cover _ _ _ _ _ (coverCpA1 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last1 (grid1.coords t) := (hlast1 t).mpr h1
      rw [show (dat1 V c).leavesExact 2 t = owns (c : Thread nD τ) (ms1_2 t) fullShare ((dat1 V c).after 2 t) from by
        unfold Dat.leavesExact; rw [live1_2 t hl], after1_2]
      rw [stateAt1_C V c t h0 h1]
      unfold outC1 accC1; (try dsimp only)
      rw [inv1_castSucc V c t, inv1_pos V c _ _ hz]
      iintro ⟨⟨⟨HA, HQ, HC⟩, Hoth⟩, Ho, ⟨%d0, H0⟩, ⟨%d1, H1⟩, ⟨%d2, H2⟩⟩
      iapply ((atC1 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC1 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC1 _ _ _ _ _ _ _ _ _ _ _ _ _ _ _ _ _ _ _ _ _)
    · have hl : ¬last1 (grid1.coords t) := fun h => h1 ((hlast1 t).mp h)
      rw [Dat.leavesExact_idle (dat1 V c) 2 t (idle1_2 t hl) (noFlush1_2 t hl)]
      rw [stateAt1_B V c t h0 h1]
      unfold accB1; (try dsimp only)
      rw [inv1_castSucc V c t, inv1_pos V c _ _ hz]
      iintro ⟨⟨⟨HA, HQ, HC⟩, Hoth⟩, Ho, ⟨%d0, H0⟩, ⟨%d1, H1⟩, ⟨%d2, H2⟩⟩
      iapply ((atB1 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB1 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed before its first point is the invariant there. -/
theorem inv1_in (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the scoped buffers back, the scratch contents forgotten. -/
theorem inv1_out (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega), scoped1_eq]
  iintro ⟨⟨HA, HQ, HC⟩, Hoth⟩
  isplitr [Hoth]
  · isplitl [HA]; · iexists _; iexact HA
    isplitl [HQ]; · iexists _; iexact HQ
    iexists _; iexact HC
  iexact Hoth

end Cert.KernelIdeal.Regions

end
-- ==== Proof.KI.Base2.lean ====
/-
  Call 2 of the program (the tile kernel on its 16 x 8 grid), what its three control cases share.

  The grid is walked row-major, the column coordinate j fastest: point t has j = t mod 8. The body zeroes the running
  sum and stores the row block's squared norms and its copy at j = 0, adds the tile's sum at every point, and writes the
  running sum to the output block at j = 7; so a point is in one of three cases: first of its row (A), inside (B), last (C).
  Stated here: the two conditions in closed form over the grid, where the output window is idle and where it is written
  back, the staging and scratch memrefs the body is called with, and the scratch buffers split off the core's other
  scoped buffers.
-/
import proofs.«105376_j19189913878688_2_alg».proof.Proof.Gen.KernelIdeal.Launch
import proofs.«105376_j19189913878688_2_alg».proof.Proof.Gen.KernelIdeal.Skeleton
import proofs.«105376_j19189913878688_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point is the first of its row of the grid (j = 0): the body's first conditional. -/
abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 8 = 0 :=
  (by decide +kernel : ∀ t : Fin grid2.N, first2 (grid2.coords t) ↔ t.val % 8 = 0)

/-- The point is the last of its row (j = 7): the body's second conditional. -/
abbrev last2 (i : grid2.Coords) : Prop := k2_cond2 i = 1#1
theorem hlast2 : ∀ t : Fin cfg2.N, last2 (grid2.coords t) ↔ t.val % 8 = 7 :=
  (by decide +kernel : ∀ t : Fin grid2.N, last2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Off the last point of a row the output window is idle and not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The memrefs the body is called with -/

abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1 .f32 := win2_2.stage (cfg2.slots t 2)
abbrev hs2_2 (t : Fin cfg2.N) : (ms2_2 t).IsWhole := hstage2_2 ((cfg2.slots t 2).cast nbuf2_2)
/-- The running sum, the row block's squared norms, and the row block's copy: whole scoped buffers of the call's own. -/
abbrev scAcc2 : Memref sig .tc .vmem S1x1x1 .f32 := Memref.whole cc2_scratch0
abbrev scSq2 : Memref sig .tc .vmem S512x1 .f32 := Memref.whole cc2_scratch1
abbrev scCp2 : Memref sig .tc .vmem S512x256 .bf16 := Memref.whole cc2_scratch2
/-- One staging buffer of the output window, through which its contents are stated. -/
abbrev VO2 : View sig .tc .vmem S1x1x1 .f32 := (Memref.whole cc2_stg2_0 : Memref sig .tc .vmem S1x1x1 .f32).view
abbrev VAcc2 : View sig .tc .vmem S1x1x1 .f32 := (scAcc2).view
abbrev VSq2 : View sig .tc .vmem S512x1 .f32 := (scSq2).view
abbrev VCp2 : View sig .tc .vmem S512x256 .bf16 := (scCp2).view

/-! ## The scratch buffers among the core's scoped buffers -/

/-- The core's scoped buffers that are neither a staging buffer of this call nor its scratch, each at some contents. -/
abbrev others2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The scoped buffers this call does not stage are its three scratch buffers, each owned at some contents, and the others. -/
theorem scoped2_eq (c : Dev nD) :
    (Pipeline.scopedRest (Ix := Unit) (Name := ℕ) (U := UR sig nD τ) (Lvl := ℕ) (Val := Elt F) spec2 c : sProp 𝕄)
      = iprop(((∃ d, owns (c : Thread nD τ) scAcc2 fullShare d) ∗ (∃ d, owns (c : Thread nD τ) scSq2 fullShare d)
          ∗ (∃ d, owns (c : Thread nD τ) scCp2 fullShare d)) ∗ others2 c) := by
  rw [Pipeline.scopedRest_split_of_list spec2 c [cc2_scratch0, cc2_scratch1, cc2_scratch2] (by decide) (by decide)]
  simp only [scAcc2, scSq2, scCp2, owns_whole, bigSepL]
  try rfl

end Cert.KernelIdeal.Regions

end
-- ==== Proof.KI.CaseA2.lean ====
/-
  Call 2, the first point of a row of the grid: the running sum is zeroed and the tile's sum added, the row block's squared norms and copy are stored; the output block is left as found. The whole body is run once on whole staging and scratch memrefs; what each buffer it stores
  into ends with is a list of stored pieces, found by the run itself.
-/
import proofs.«105376_j19189913878688_2_alg».proof.Proof.KI.Base2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) :
    Σ' (LA : List (View.Piece (Elt F) S1x1x1 .f32)) (LQ : List (View.Piece (Elt F) S512x1 .f32)), { LC : List (View.Piece (Elt F) S512x256 .bf16) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LC)) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, ?_, ?_, fun xi E K => ?run⟩
  case run =>
    simp only [cc2__mmd_sum_kernel_eq_skeleton]; unfold cc2__mmd_sum_kernel_skel
    unfold owns
    iintro ⟨⟨%f0, %hf0, H0⟩, ⟨%f1, %hf1, H1⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    iexists _; iexact H7

/-- The pieces the case leaves in the running sum tile it, so they cover it. -/
theorem coverAccA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S1x1x1.Idx) :
    ∃ pc ∈ (runA2 c i arg2 harg2 arg3 harg3 arg4 harg4 arg5 harg5 arg6 harg6 arg7 harg7 hc0 hc1 x0 x1).1, y ∈ pc.1.set :=
  View.cover_of_tiledL (runA2 c i arg2 harg2 arg3 harg3 arg4 harg4 arg5 harg5 arg6 harg6 arg7 harg7 hc0 hc1 x0 x1).1 S1x1x1.size (by sl_kernel_rfl) y

/-- The pieces the case leaves in the squared norms tile it, so they cover it. -/
theorem coverSqA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S512x1.Idx) :
    ∃ pc ∈ (runA2 c i arg2 harg2 arg3 harg3 arg4 harg4 arg5 harg5 arg6 harg6 arg7 harg7 hc0 hc1 x0 x1).2.1, y ∈ pc.1.set :=
  View.cover_of_tiledL (runA2 c i arg2 harg2 arg3 harg3 arg4 harg4 arg5 harg5 arg6 harg6 arg7 harg7 hc0 hc1 x0 x1).2.1 S512x1.size (by sl_kernel_rfl) y

/-- The pieces the case leaves in the row block's copy tile it, so they cover it. -/
theorem coverCpA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) (y : S512x256.Idx) :
    ∃ pc ∈ (runA2 c i arg2 harg2 arg3 harg3 arg4 harg4 arg5 harg5 arg6 harg6 arg7 harg7 hc0 hc1 x0 x1).2.2.1, y ∈ pc.1.set :=
  View.cover_of_tiledL (runA2 c i arg2 harg2 arg3 harg3 arg4 harg4 arg5 harg5 arg6 harg6 arg7 harg7 hc0 hc1 x0 x1).2.2.1 S512x256.size (by sl_kernel_rfl) y

end Cert.KernelIdeal.Regions

end
-- ==== Proof.KI.CaseB2.lean ====
/-
  Call 2, a point inside a row: the tile's sum is added to the running sum; the squared norms, the copy and the output block are left as found. The whole body is run once on whole staging and scratch memrefs; what each buffer it stores
  into ends with is a list of stored pieces, found by the run itself.
-/
import proofs.«105376_j19189913878688_2_alg».proof.Proof.KI.Base2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runB2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : ¬last2 i)
    (x0 : Vec F S512x256 .f32) (x1 : Vec F S1024x256 .f32) (xa : Vec F S1x1x1 .f32) (xq : Vec F S512x1 .f32) (xc : Vec F S512x256 .bf16) :
    { LA : List (View.Piece (Elt F) S1x1x1 .f32) //
      ∀ (xi : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, fun xi E K => ?run⟩
  case run =>
    simp only [cc2__mmd_sum_kernel_eq_skeleton]; unfold cc2__mmd_sum_kernel_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the running sum tile it, so they cover it. -/
theorem coverAccB2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : ¬last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runB2 c i arg2 harg2 arg3 harg3 arg4 harg4 arg5 harg5 arg6 harg6 arg7 harg7 hc0 hc1 x0 x1 xa xq xc).1, y ∈ pc.1.set :=
  View.cover_of_tiledL (runB2 c i arg2 harg2 arg3 harg3 arg4 harg4 arg5 harg5 arg6 harg6 arg7 harg7 hc0 hc1 x0 x1 xa xq xc).1 S1x1x1.size (by sl_kernel_rfl) y

end Cert.KernelIdeal.Regions

end
-- ==== Proof.KI.CaseC2.lean ====
/-
  Call 2, the last point of a row: the tile's sum is added to the running sum, which is then stored into the output block; the squared norms and the copy are left as found. The whole body is run once on whole staging and scratch memrefs; what each buffer it stores
  into ends with is a list of stored pieces, found by the run itself.
-/
import proofs.«105376_j19189913878688_2_alg».proof.Proof.KI.Base2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the pieces it leaves. -/
noncomputable def runC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) :
    Σ' (LO : List (View.Piece (Elt F) S1x1x1 .f32)), { LA : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xa ∗ owns (c : Thread nD τ) arg6 fullShare xq ∗ owns (c : Thread nD τ) arg7 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)
                ∗ owns (c : Thread nD τ) arg6 fullShare xq ∗ owns (c : Thread nD τ) arg7 fullShare xc) -∗ K ⟨⟩))
          ⊢ wp frame (wpE (defs₀ (F := F)) Variants.none c none) E (cc2__mmd_sum_kernel i arg2 harg2 arg3 harg3 arg4 harg4 arg5 harg5 arg6 harg6 arg7 harg7) K } := by
  refine ⟨?_, ?_, fun E K => ?run⟩
  case run =>
    simp only [cc2__mmd_sum_kernel_eq_skeleton]; unfold cc2__mmd_sum_kernel_skel
    unfold owns
    iintro ⟨⟨%f0, %hf0, H0⟩, ⟨%f1, %hf1, H1⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    iexists _; isplitr; · ipureintro; exact harg7.read_unread _
    iexact H7

/-- The pieces the case leaves in the output block tile it, so they cover it. -/
theorem coverOutC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC2 c i arg2 harg2 arg3 harg3 arg4 harg4 arg5 harg5 arg6 harg6 arg7 harg7 hc0 hc1 x0 x1 xa xq xc).1, y ∈ pc.1.set :=
  View.cover_of_tiledL (runC2 c i arg2 harg2 arg3 harg3 arg4 harg4 arg5 harg5 arg6 harg6 arg7 harg7 hc0 hc1 x0 x1 xa xq xc).1 S1x1x1.size (by sl_kernel_rfl) y

/-- The pieces the case leaves in the running sum tile it, so they cover it. -/
theorem coverAccC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) (y : S1x1x1.Idx) :
    ∃ pc ∈ (runC2 c i arg2 harg2 arg3 harg3 arg4 harg4 arg5 harg5 arg6 harg6 arg7 harg7 hc0 hc1 x0 x1 xa xq xc).2.1, y ∈ pc.1.set :=
  View.cover_of_tiledL (runC2 c i arg2 harg2 arg3 harg3 arg4 harg4 arg5 harg5 arg6 harg6 arg7 harg7 hc0 hc1 x0 x1 xa xq xc).2.1 S1x1x1.size (by sl_kernel_rfl) y

end Cert.KernelIdeal.Regions

end
-- ==== Proof.KI.Data2.lean ====
/-
  Call 2: what its buffers hold after each grid point, its proof data, and the body at every point.

  After point t the running-sum scratch holds the sum of the tile sums of the points of t's row up to t, the
  squared-norm and copy scratches hold what the row's first point stored, and the output's staging buffer holds the
  running sum if t is the last point of its row. These contents are defined by recursion on the point, each step being
  the pieces the matching case's run leaves, read back. The region invariant before point n > 0 holds the three scratch
  buffers at the contents point n - 1 left; before the first point they hold anything.
-/
import proofs.«105376_j19189913878688_2_alg».proof.Proof.KI.CaseA2
import proofs.«105376_j19189913878688_2_alg».proof.Proof.KI.CaseB2
import proofs.«105376_j19189913878688_2_alg».proof.Proof.KI.CaseC2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The three cases at a point -/

/-- The run of case A at a point that is the first of its row. -/
def atA2 (c : Dev nD) (t : Fin cfg2.N) (h0 : t.val % 8 = 0) :=
  runA2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    ((hfirst2 t).mpr h0) (fun h => by have := (hlast2 t).mp h; omega) (blk2 V c 0 t) (blk2 V c 1 t)
/-- The run of case B at a point inside its row, from the scratch contents handed to it. -/
def atB2 (c : Dev nD) (t : Fin cfg2.N) (h0 : ¬t.val % 8 = 0) (h1 : ¬t.val % 8 = 7)
    (xa : Vec F S1x1x1 .f32) (xq : Vec F S512x1 .f32) (xc : Vec F S512x256 .bf16) :=
  runB2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    (fun h => h0 ((hfirst2 t).mp h)) (fun h => h1 ((hlast2 t).mp h)) (blk2 V c 0 t) (blk2 V c 1 t) xa xq xc
/-- The run of case C at a point that is the last of its row. -/
def atC2 (c : Dev nD) (t : Fin cfg2.N) (h0 : ¬t.val % 8 = 0) (h1 : t.val % 8 = 7)
    (xa : Vec F S1x1x1 .f32) (xq : Vec F S512x1 .f32) (xc : Vec F S512x256 .bf16) :=
  runC2 (F := F) c (grid2.coords t) (ms2_0 t) (hs2_0 t) (ms2_1 t) (hs2_1 t) (ms2_2 t) (hs2_2 t) scAcc2 (Memref.isWhole_whole _) scSq2 (Memref.isWhole_whole _) scCp2 (Memref.isWhole_whole _)
    (fun h => h0 ((hfirst2 t).mp h)) ((hlast2 t).mpr h1) (blk2 V c 0 t) (blk2 V c 1 t) xa xq xc

/-- What each case leaves in a buffer: its pieces read back. -/
def accA2 (c : Dev nD) (t : Fin cfg2.N) (h0 : t.val % 8 = 0) : Vec F S1x1x1 .f32 :=
  VAcc2.read (Elt F) (VAcc2.writes (Elt F) VAcc2.junk (atA2 V c t h0).1)
def sqA2 (c : Dev nD) (t : Fin cfg2.N) (h0 : t.val % 8 = 0) : Vec F S512x1 .f32 :=
  VSq2.read (Elt F) (VSq2.writes (Elt F) VSq2.junk (atA2 V c t h0).2.1)
def cpA2 (c : Dev nD) (t : Fin cfg2.N) (h0 : t.val % 8 = 0) : Vec F S512x256 .bf16 :=
  VCp2.read (Elt F) (VCp2.writes (Elt F) VCp2.junk (atA2 V c t h0).2.2.1)
def accB2 (c : Dev nD) (t : Fin cfg2.N) (h0 : ¬t.val % 8 = 0) (h1 : ¬t.val % 8 = 7)
    (xa : Vec F S1x1x1 .f32) (xq : Vec F S512x1 .f32) (xc : Vec F S512x256 .bf16) : Vec F S1x1x1 .f32 :=
  VAcc2.read (Elt F) (VAcc2.writes (Elt F) VAcc2.junk (atB2 V c t h0 h1 xa xq xc).1)
def outC2 (c : Dev nD) (t : Fin cfg2.N) (h0 : ¬t.val % 8 = 0) (h1 : t.val % 8 = 7)
    (xa : Vec F S1x1x1 .f32) (xq : Vec F S512x1 .f32) (xc : Vec F S512x256 .bf16) : Vec F S1x1x1 .f32 :=
  VO2.read (Elt F) (VO2.writes (Elt F) VO2.junk (atC2 V c t h0 h1 xa xq xc).1)
def accC2 (c : Dev nD) (t : Fin cfg2.N) (h0 : ¬t.val % 8 = 0) (h1 : t.val % 8 = 7)
    (xa : Vec F S1x1x1 .f32) (xq : Vec F S512x1 .f32) (xc : Vec F S512x256 .bf16) : Vec F S1x1x1 .f32 :=
  VAcc2.read (Elt F) (VAcc2.writes (Elt F) VAcc2.junk (atC2 V c t h0 h1 xa xq xc).2.1)
/-- The output's staging buffer where the point stores nothing into it: a value nothing consults. -/
def idleOut2 : Vec F S1x1x1 .f32 := VO2.read (Elt F) VO2.junk

/-! ## The contents after each point -/

/-- After point n: the output's staging buffer, the running sum, the squared norms, the copy. -/
def stateAt2 (c : Dev nD) : (n : ℕ) → n < cfg2.N → Vec F S1x1x1 .f32 × Vec F S1x1x1 .f32 × Vec F S512x1 .f32 × Vec F S512x256 .bf16
  | 0, hn => (idleOut2, accA2 V c ⟨0, hn⟩ (Nat.zero_mod _), sqA2 V c ⟨0, hn⟩ (Nat.zero_mod _), cpA2 V c ⟨0, hn⟩ (Nat.zero_mod _))
  | n + 1, hn =>
    if h0 : (n + 1) % 8 = 0 then
      (idleOut2, accA2 V c ⟨n + 1, hn⟩ h0, sqA2 V c ⟨n + 1, hn⟩ h0, cpA2 V c ⟨n + 1, hn⟩ h0)
    else if h1 : (n + 1) % 8 = 7 then
      (outC2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       accC2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       (stateAt2 c n (Nat.lt_of_succ_lt hn)).2.2.1, (stateAt2 c n (Nat.lt_of_succ_lt hn)).2.2.2)
    else
      (idleOut2,
       accB2 V c ⟨n + 1, hn⟩ h0 h1 (stateAt2 c n (Nat.lt_of_succ_lt hn)).2.1 (stateAt2 c n (Nat.lt_of_succ_lt hn)).2.2.1 (stateAt2 c n (Nat.lt_of_succ_lt hn)).2.2.2,
       (stateAt2 c n (Nat.lt_of_succ_lt hn)).2.2.1, (stateAt2 c n (Nat.lt_of_succ_lt hn)).2.2.2)

theorem stateAt2_A (c : Dev nD) (t : Fin cfg2.N) (h0 : t.val % 8 = 0) :
    stateAt2 V c t.val t.isLt = (idleOut2, accA2 V c t h0, sqA2 V c t h0, cpA2 V c t h0) := by
  obtain ⟨n, hn⟩ := t
  cases n with
  | zero => exact rfl
  | succ n => exact (dif_pos h0).trans rfl

theorem stateAt2_B (c : Dev nD) (t : Fin cfg2.N) (h0 : ¬t.val % 8 = 0) (h1 : ¬t.val % 8 = 7) :
    stateAt2 V c t.val t.isLt = (idleOut2,
      accB2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      (stateAt2 V c (t.val - 1) (Nat.lt_of_le_of_lt (Nat.sub_le _ _) t.isLt)).2.2.1, (stateAt2 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

theorem stateAt2_C (c : Dev nD) (t : Fin cfg2.N) (h0 : ¬t.val % 8 = 0) (h1 : t.val % 8 = 7) :
    stateAt2 V c t.val t.isLt = (
      outC2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      accC2 V c t h0 h1 (stateAt2 V c (t.val - 1) (Nat.lt_of_le_of_lt (Nat.sub_le _ _) t.isLt)).2.1 (stateAt2 V c (t.val - 1) (Nat.lt_of_le_of_lt (Nat.sub_le _ _) t.isLt)).2.2.1 (stateAt2 V c (t.val - 1) (Nat.lt_of_le_of_lt (Nat.sub_le _ _) t.isLt)).2.2.2,
      (stateAt2 V c (t.val - 1) (Nat.lt_of_le_of_lt (Nat.sub_le _ _) t.isLt)).2.2.1, (stateAt2 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The region invariant -/

/-- Before point n: at the start the scoped buffers the call does not stage, each at anything; afterwards the three
    scratch buffers at what point n - 1 left, and the others at anything. -/
def inv2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop((owns (c : Thread nD τ) scAcc2 fullShare (stateAt2 V c n hn).2.1 ∗ owns (c : Thread nD τ) scSq2 fullShare (stateAt2 V c n hn).2.2.1
      ∗ owns (c : Thread nD τ) scCp2 fullShare (stateAt2 V c n hn).2.2.2) ∗ others2 c)

theorem inv2_zero (c : Dev nD) (n : ℕ) (h : n ≤ cfg2.N) (hz : n = 0) :
    inv2 V c n h = Pipeline.scopedRest (Ix := Unit) (Name := ℕ) (U := UR sig nD τ) (Lvl := ℕ) (Val := Elt F) spec2 c := by
  subst hz; rfl

theorem inv2_succ (c : Dev nD) (n : ℕ) (hn : n < cfg2.N) :
    inv2 V c (n + 1) hn = iprop((owns (c : Thread nD τ) scAcc2 fullShare (stateAt2 V c n hn).2.1 ∗ owns (c : Thread nD τ) scSq2 fullShare (stateAt2 V c n hn).2.2.1
      ∗ owns (c : Thread nD τ) scCp2 fullShare (stateAt2 V c n hn).2.2.2) ∗ others2 c) := rfl

theorem inv2_pos (c : Dev nD) (n : ℕ) (h : n ≤ cfg2.N) (hz : n ≠ 0) :
    inv2 V c n h = iprop((owns (c : Thread nD τ) scAcc2 fullShare (stateAt2 V c (n - 1) (by omega)).2.1 ∗ owns (c : Thread nD τ) scSq2 fullShare (stateAt2 V c (n - 1) (by omega)).2.2.1
      ∗ owns (c : Thread nD τ) scCp2 fullShare (stateAt2 V c (n - 1) (by omega)).2.2.2) ∗ others2 c) := by
  cases n with
  | zero => exact absurd rfl hz
  | succ n => rfl

/-! ## The proof data -/

/-- The arrays as the call finds them; after the body each input's buffer at its block and the output's at
    `stateAt`'s first component; the invariant above; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (stateAt2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (stateAt2 V c t.val t.isLt).1 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-! ## The body at a point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms say which case the point is in; the
    invariant hands the body the scratch buffers at what the point before left (at anything before the first point, which
    is of case A, where every scratch buffer is stored whole before it is used) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = inv2 V c (t.val + 1) t.isLt from rfl, inv2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    have hl : ¬last2 (grid2.coords t) := fun h => h1 ((hlast2 t).mp h)
    rw [Dat.leavesExact_idle (dat2 V c) 2 t (idle2_2 t hl) (noFlush2_2 t hl)]
    rw [stateAt2_A V c t h0]
    unfold accA2 sqA2 cpA2; (try dsimp only)
    by_cases hz : t.val = 0
    · rw [inv2_castSucc V c t, inv2_zero V c _ _ hz, scoped2_eq]
      iintro ⟨⟨⟨HA, HQ, HC⟩, Hoth⟩, Ho, ⟨%d0, H0⟩, ⟨%d1, H1⟩, ⟨%d2, H2⟩⟩
      iapply ((atA2 V c t h0).2.2.2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA2 _ _ _ _ _ _ _ _ _ _ _ _ _ _ _ _ _ _)
          isplitl [HQ]
          · unfold owns; iexists _; isplitr
            swap; · iexact HQ
            ipureintro; exact View.read_writes_of_cover _ _ _ _ _ (coverSqA2 _ _ _ _ _ _ _ _ _ _ _ _ _ _ _ _ _ _)
          unfold owns; iexists _; isplitr
          swap; · iexact HC
          ipureintro; exact View.read_writes_of_cover _ _ _ _ _ (coverCpA2 _ _ _ _ _ _ _ _ _ _ _ _ _ _ _ _ _ _)
        iexact Hoth
      isplitl [Ho]; · iexact Ho
      isplitl [H0]; · iexact H0
      isplitl [H1]; · iexact H1
      iexists _; iexact H2
    · rw [inv2_castSucc V c t, inv2_pos V c _ _ hz]
      iintro ⟨⟨⟨HA, HQ, HC⟩, Hoth⟩, Ho, ⟨%d0, H0⟩, ⟨%d1, H1⟩, ⟨%d2, H2⟩⟩
      iapply ((atA2 V c t h0).2.2.2 _ Set.univ _)
      isplitl [H0]; · iexact H0
      isplitl [H1]; · iexact H1
      isplitl [H2]; · iexact H2
      isplitl [HA]; · iexists _; iexact HA
      isplitl [HQ]; · iexists _; iexact HQ
      isplitl [HC]; · iexists _; iexact HC
      iintro ⟨H0, H1, H2, ⟨%ea, HA⟩, ⟨%eq, HQ⟩, ⟨%ec, HC⟩⟩
      isplitl [HA HQ HC Hoth]
      · isplitr [Hoth]
        · isplitl [HA]
          · unfold owns; iexists _; isplitr
            swap; · iexact HA
            ipureintro; exact View.read_writes_of_cover _ _ _ _ _ (coverAccA2 _ _ _ _ _ _ _ _ _ _ _ _ _ _ _ _ _ _)
          isplitl [HQ]
          · unfold owns; iexists _; isplitr
            swap; · iexact HQ
            ipureintro; exact View.read_writes_of_cover _ _ _ _ _ (coverSqA2 _ _ _ _ _ _ _ _ _ _ _ _ _ _ _ _ _ _)
          unfold owns; iexists _; isplitr
          swap; · iexact HC
          ipureintro; exact View.read_writes_of_cover _ _ _ _ _ (coverCpA2 _ _ _ _ _ _ _ _ _ _ _ _ _ _ _ _ _ _)
        iexact Hoth
      isplitl [Ho]; · iexact Ho
      isplitl [H0]; · iexact H0
      isplitl [H1]; · iexact H1
      iexists _; iexact H2
  · have hz : t.val ≠ 0 := fun h => h0 (by rw [h])
    by_cases h1 : t.val % 8 = 7
    · have hl : last2 (grid2.coords t) := (hlast2 t).mpr h1
      rw [show (dat2 V c).leavesExact 2 t = owns (c : Thread nD τ) (ms2_2 t) fullShare ((dat2 V c).after 2 t) from by
        unfold Dat.leavesExact; rw [live2_2 t hl], after2_2]
      rw [stateAt2_C V c t h0 h1]
      unfold outC2 accC2; (try dsimp only)
      rw [inv2_castSucc V c t, inv2_pos V c _ _ hz]
      iintro ⟨⟨⟨HA, HQ, HC⟩, Hoth⟩, Ho, ⟨%d0, H0⟩, ⟨%d1, H1⟩, ⟨%d2, H2⟩⟩
      iapply ((atC2 V c t h0 h1 _ _ _).2.2 Set.univ _)
      isplitl [H0]; · iexact H0
      isplitl [H1]; · iexact H1
      isplitl [H2]; · iexists _; iexact H2
      isplitl [HA]; · iexact HA
      isplitl [HQ]; · iexact HQ
      isplitl [HC]; · iexact HC
      iintro ⟨H0, H1, ⟨%e2, H2⟩, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccC2 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      unfold owns; iexists _; isplitr
      swap; · iexact H2
      ipureintro; exact View.read_writes_of_cover _ _ _ _ _ (coverOutC2 _ _ _ _ _ _ _ _ _ _ _ _ _ _ _ _ _ _ _ _ _)
    · have hl : ¬last2 (grid2.coords t) := fun h => h1 ((hlast2 t).mp h)
      rw [Dat.leavesExact_idle (dat2 V c) 2 t (idle2_2 t hl) (noFlush2_2 t hl)]
      rw [stateAt2_B V c t h0 h1]
      unfold accB2; (try dsimp only)
      rw [inv2_castSucc V c t, inv2_pos V c _ _ hz]
      iintro ⟨⟨⟨HA, HQ, HC⟩, Hoth⟩, Ho, ⟨%d0, H0⟩, ⟨%d1, H1⟩, ⟨%d2, H2⟩⟩
      iapply ((atB2 V c t h0 h1 _ _ _).2 _ Set.univ _)
      isplitl [H0]; · iexact H0
      isplitl [H1]; · iexact H1
      isplitl [H2]; · iexact H2
      isplitl [HA]; · iexact HA
      isplitl [HQ]; · iexact HQ
      isplitl [HC]; · iexact HC
      iintro ⟨H0, H1, H2, ⟨%ea, HA⟩, HQ, HC⟩
      isplitl [HA HQ HC Hoth]
      · isplitr [Hoth]
        · isplitl [HA]
          · unfold owns; iexists _; isplitr
            swap; · iexact HA
            ipureintro; exact View.read_writes_of_cover _ _ _ _ _ (coverAccB2 _ _ _ _ _ _ _ _ _ _ _ _ _ _ _ _ _ _ _ _ _)
          isplitl [HQ]; · iexact HQ
          iexact HC
        iexact Hoth
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the call is handed before its first point is the invariant there. -/
theorem inv2_in (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = inv2 V c 0 (Nat.zero_le _) from rfl, inv2_zero V c 0 _ rfl]
  try exact Idealize.SL.BI.Entails.refl _

/-- After the last point the invariant gives the scoped buffers back, the scratch contents forgotten. -/
theorem inv2_out (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 128 := N_2; omega), scoped2_eq]
  iintro ⟨⟨HA, HQ, HC⟩, Hoth⟩
  isplitr [Hoth]
  · isplitl [HA]; · iexists _; iexact HA
    isplitl [HQ]; · iexists _; iexact HQ
    iexists _; iexact HC
  iexact Hoth

end Cert.KernelIdeal.Regions

end
-- ==== Proof.SharedSplit.lean ====
/-
  Windows that share an array, at this program's two pipelines whose two input windows read one array. A core's
  unscoped buffers hold that array once, whole, at the full share; the pipeline's proof data hold it once per window,
  each at that window's share. The full share is the composite of its left and right halves, so a points-to at the full
  share is the two points-tos at the halves, and back. These lemmas say so at a region's entry — the unscoped buffers
  make the pipeline's arrays and the unscoped rest — and at its exit — the arrays, at what the region left in them, and
  the rest make the unscoped buffers at any contents that have the arrays so and agree with the entry's off them.
-/
import proofs.«105376_j19189913878688_2_alg».proof.Proof.Gen.KernelIdeal.Launch
import proofs.«105376_j19189913878688_2_alg».proof.Proof.LibSharedWindows
import Idealize.ShloMosaic.Lib.Pipeline.RegionsLoop

noncomputable section

namespace Cert.KernelIdeal.SharedSplit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open PCS

variable {F : FTy → Type} [FloatOps F]

local notation "𝕄" => MT nD τ sig Unit (Elt F) ℕ (UR sig nD τ) ℕ

/-- The left half of the full share: what the first of two windows on one array holds of it. -/
abbrev qL : PosShare TreeShare := fullShare.left
/-- The right half of the full share: what the second holds. -/
abbrev qR : PosShare TreeShare := fullShare.right

/-- The two halves make the full share. -/
theorem full_mem : fullShare ∈ qL ·? qR := PosShare.mem_left_op_right fullShare

/-- A chain over two listed elements is their separating conjunction. -/
theorem bigSepL_pair {M : Type} [URA M] {I : Type} (i j : I) (Φ : I → sProp M) : bigSepL [i, j] Φ = iprop(Φ i ∗ Φ j) := rfl

/-! ## Pipeline 0 -/

/-- ENTRY of pipeline 0: a core's unscoped buffers at contents `V` are the pipeline's arrays at the proof data's entry
    contents — those being read off `V` (`hA`); the array `main_arg0` behind windows 0 and 1 held by window 0 at the left
    half and by window 1 at the right half of the full share, the output array `main_v0` at the full share — and the
    unscoped rest. -/
theorem entry0 (c : Dev nD) (dat : Pipeline.Dat τ (Elt F) Unit ℕ (UR sig nD τ) ℕ cfg0 c) (hq0 : dat.q 0 = qL) (hq1 : dat.q 1 = qR)
    (V : (b : Ref sig .tc) → Buf (Elt F) ((c : Thread nD τ).loc b)) (hA : ∀ w, dat.A w = V (Pipeline.arrRef spec0 w)) :
    (unscopedBufs c V : sProp 𝕄) ⊢ iprop(dat.arrays dat.A ∗ Pipeline.unscopedRest spec0 c V) := by
  rw [Cert.SharedWindows.unscopedBufs_split spec0 c Gen.winFacts₀0.arr_unscoped V]
  refine sep_mono ?_ .rfl
  rw [Cert.SharedWindows.arrBufs_eq_of_list spec0 c V [main_arg0, main_v0] (by decide) (by decide)]
  unfold Pipeline.Dat.arrays
  rw [Gen.bigSep_W0]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hA 0, hA 1, hA 2, (Gen.arr_whole0 0).set_eq_univ, (Gen.arr_whole0 2).set_eq_univ, bigSepL_pair]
  iintro ⟨Ha, Hb⟩
  ihave H := (pointsTo_share full_mem).1 $$ Ha
  icases H with ⟨H0, H1⟩
  isplitl [H0]; · iexact H0
  isplitl [H1]; · iexact H1
  iexact Hb

/-- EXIT of pipeline 0: the pipeline's arrays at contents `Fn` — the two halves of `main_arg0` joined into the full share
    — and the unscoped rest at `V` are the core's unscoped buffers at any contents `V'` that have the arrays at `Fn`
    (`hF`) and agree with `V` off them (`hrest`). -/
theorem exit0 (c : Dev nD) (dat : Pipeline.Dat τ (Elt F) Unit ℕ (UR sig nD τ) ℕ cfg0 c) (hq0 : dat.q 0 = qL) (hq1 : dat.q 1 = qR)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w)) (hrest : ∀ b, b ∉ Finset.univ.image (Pipeline.arrRef spec0) → V' b = V b) :
    iprop(dat.arrays Fn ∗ Pipeline.unscopedRest spec0 c V) ⊢ (unscopedBufs c V' : sProp 𝕄) := by
  rw [Cert.SharedWindows.unscopedBufs_split spec0 c Gen.winFacts₀0.arr_unscoped V',
    Cert.SharedWindows.unscopedRest_congr spec0 c V V' fun b hb => (hrest b hb).symm]
  refine sep_mono ?_ .rfl
  rw [Cert.SharedWindows.arrBufs_eq_of_list spec0 c V' [main_arg0, main_v0] (by decide) (by decide)]
  unfold Pipeline.Dat.arrays
  rw [Gen.bigSep_W0]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hF 0, hF 1, hF 2, (Gen.arr_whole0 0).set_eq_univ, (Gen.arr_whole0 2).set_eq_univ, bigSepL_pair]
  iintro ⟨H0, H1, Hb⟩
  isplitl [H0 H1]
  · iapply (pointsTo_share full_mem).2
    isplitl [H0]; · iexact H0
    iexact H1
  iexact Hb

/-! ## Pipeline 1 -/

/-- ENTRY of pipeline 1: a core's unscoped buffers at contents `V` are the pipeline's arrays at the proof data's entry
    contents — those being read off `V` (`hA`); the array `main_arg1` behind windows 0 and 1 held by window 0 at the left
    half and by window 1 at the right half of the full share, the output array `main_v2` at the full share — and the
    unscoped rest. -/
theorem entry1 (c : Dev nD) (dat : Pipeline.Dat τ (Elt F) Unit ℕ (UR sig nD τ) ℕ cfg1 c) (hq0 : dat.q 0 = qL) (hq1 : dat.q 1 = qR)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [Cert.SharedWindows.unscopedBufs_split spec1 c Gen.winFacts₀1.arr_unscoped V]
  refine sep_mono ?_ .rfl
  rw [Cert.SharedWindows.arrBufs_eq_of_list spec1 c V [main_arg1, main_v2] (by decide) (by decide)]
  unfold Pipeline.Dat.arrays
  rw [Gen.bigSep_W1]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hA 0, hA 1, hA 2, (Gen.arr_whole1 0).set_eq_univ, (Gen.arr_whole1 2).set_eq_univ, bigSepL_pair]
  iintro ⟨Ha, Hb⟩
  ihave H := (pointsTo_share full_mem).1 $$ Ha
  icases H with ⟨H0, H1⟩
  isplitl [H0]; · iexact H0
  isplitl [H1]; · iexact H1
  iexact Hb

/-- EXIT of pipeline 1: the pipeline's arrays at contents `Fn` — the two halves of `main_arg1` joined into the full share
    — and the unscoped rest at `V` are the core's unscoped buffers at any contents `V'` that have the arrays at `Fn`
    (`hF`) and agree with `V` off them (`hrest`). -/
theorem exit1 (c : Dev nD) (dat : Pipeline.Dat τ (Elt F) Unit ℕ (UR sig nD τ) ℕ cfg1 c) (hq0 : dat.q 0 = qL) (hq1 : dat.q 1 = qR)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w)) (hrest : ∀ b, b ∉ Finset.univ.image (Pipeline.arrRef spec1) → V' b = V b) :
    iprop(dat.arrays Fn ∗ Pipeline.unscopedRest spec1 c V) ⊢ (unscopedBufs c V' : sProp 𝕄) := by
  rw [Cert.SharedWindows.unscopedBufs_split spec1 c Gen.winFacts₀1.arr_unscoped V',
    Cert.SharedWindows.unscopedRest_congr spec1 c V V' fun b hb => (hrest b hb).symm]
  refine sep_mono ?_ .rfl
  rw [Cert.SharedWindows.arrBufs_eq_of_list spec1 c V' [main_arg1, main_v2] (by decide) (by decide)]
  unfold Pipeline.Dat.arrays
  rw [Gen.bigSep_W1]
  have h0 : dat.share 0 = qL := by unfold Pipeline.Dat.share; rw [if_neg (by decide), hq0]
  have h1 : dat.share 1 = qR := by unfold Pipeline.Dat.share; rw [if_neg (by decide), hq1]
  have h2 : dat.share 2 = fullShare := by unfold Pipeline.Dat.share; rw [if_pos (by decide)]
  rw [h0, h1, h2, hF 0, hF 1, hF 2, (Gen.arr_whole1 0).set_eq_univ, (Gen.arr_whole1 2).set_eq_univ, bigSepL_pair]
  iintro ⟨H0, H1, Hb⟩
  isplitl [H0 H1]
  · iapply (pointsTo_share full_mem).2
    isplitl [H0]; · iexact H0
    iexact H1
  iexact Hb

end Cert.KernelIdeal.SharedSplit

end
-- ==== Proof.KI.Run.lean ====
/-
  The whole program's run. @main is three calls of the tile kernel, each followed by a stretch of host operations
  (the sum of the call's sixteen outputs; after the third also the three means and their combination). The buffers'
  contents at each boundary are a fold from the launch memory: a call leaves its output array at what its write-backs
  leave and every other buffer as it found it; a host stretch applies its operations. Every weakly fair execution
  terminates, and every final memory holds each unscoped buffer at the last boundary's contents; the arguments, which
  no call and no host operation writes, are read back through the fold to the launch memory.
-/
import proofs.«105376_j19189913878688_2_alg».proof.Proof.KI.Data0
import proofs.«105376_j19189913878688_2_alg».proof.Proof.KI.Data1
import proofs.«105376_j19189913878688_2_alg».proof.Proof.KI.Data2
import proofs.«105376_j19189913878688_2_alg».proof.Proof.SharedSplit
import proofs.«105376_j19189913878688_2_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After call 0: its output array at what the write-backs leave. -/
def W1 (c : Dev nD) : Valuation τ sig (Elt F) :=
  Function.update (W0 m ρ c) (Proc.devRef .tc main_v0) ((dat0 (V0 m ρ) c).arrAt 2 cfg0.N)
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 2 cfg0.N := by
  unfold W1; exact Function.update_self _ _ _
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) _ _
/-- At the call's exit each of its arrays holds what the pipeline leaves: an input array what it held, the output what the write-backs left. -/
theorem hF0 (c : Dev nD) (w : Fin cfg0.W) : (dat0 (V0 m ρ) c).arrAt w cfg0.N = V1 m ρ c (Pipeline.arrRef spec0 w) := by
  fin_cases w
  · exact ((dat0 (V0 m ρ) c).arrAt_in 0 rfl _).trans ((A_eq0 (V0 m ρ) c 0).trans (W1_of_ne m ρ c _ (by decide)).symm)
  · exact ((dat0 (V0 m ρ) c).arrAt_in 1 rfl _).trans ((A_eq0 (V0 m ρ) c 1).trans (W1_of_ne m ρ c _ (by decide)).symm)
  · exact (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

/-- After the first host stretch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After call 1. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b

theorem W3_out (c : Dev nD) : W3 m ρ c (Proc.devRef .tc main_v2) = (dat1 (V2 m ρ) c).arrAt 2 cfg1.N := by
  unfold W3; exact Function.update_self _ _ _
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) _ _
/-- At the call's exit each of its arrays holds what the pipeline leaves: an input array what it held, the output what the write-backs left. -/
theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c _ (by decide)).symm)
  · exact ((dat1 (V2 m ρ) c).arrAt_in 1 rfl _).trans ((A_eq1 (V2 m ρ) c 1).trans (W3_of_ne m ρ c _ (by decide)).symm)
  · exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- After the second host stretch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After call 2. -/
def W5 (c : Dev nD) : Valuation τ sig (Elt F) :=
  Function.update (W4 m ρ c) (Proc.devRef .tc main_v4) ((dat2 (V4 m ρ) c).arrAt 2 cfg2.N)
abbrev V5 : (c : Dev nD) → (b : Ref sig .tc) → Buf (Elt F) ((c : Thread nD τ).loc b) := fun c b => W5 m ρ c b

theorem W5_out (c : Dev nD) : W5 m ρ c (Proc.devRef .tc main_v4) = (dat2 (V4 m ρ) c).arrAt 2 cfg2.N := by
  unfold W5; exact Function.update_self _ _ _
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) _ _
/-- At the call's exit each of its arrays holds what the pipeline leaves: an input array what it held, the output what the write-backs left. -/
theorem hF2 (c : Dev nD) (w : Fin cfg2.W) : (dat2 (V4 m ρ) c).arrAt w cfg2.N = V5 m ρ c (Pipeline.arrRef spec2 w) := by
  fin_cases w
  · exact ((dat2 (V4 m ρ) c).arrAt_in 0 rfl _).trans ((A_eq2 (V4 m ρ) c 0).trans (W5_of_ne m ρ c _ (by decide)).symm)
  · exact ((dat2 (V4 m ρ) c).arrAt_in 1 rfl _).trans ((A_eq2 (V4 m ρ) c 1).trans (W5_of_ne m ρ c _ (by decide)).symm)
  · exact (W5_out m ρ c).symm
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)

/-- After the last host stretch. -/
abbrev W6 : Dev nD → Valuation τ sig (Elt F) := fun c => StableHlo.after hostOps3 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 over the thread state: entered from every unscoped buffer at `W0`, left at `W1`; its arrays split out
    of the unscoped buffers and put back at the exit contents; the scratch buffers into the invariant and out; nothing
    owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := SharedSplit.entry0 c (pdats m ρ 0 c) rfl rfl (V0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (dat0 (V0 m ρ) c).Φ 0 from rfl]
    iintro ⟨-, -, Hr⟩
    iapply (inv0_in (V0 m ρ) c)
    iexact Hr
  hout c := by
    rw [Pipeline.ownSems0_none, show (pdats m ρ 0 c).Φ (Fin.last _) = (dat0 (V0 m ρ) c).Φ (Fin.last cfg0.N) from rfl]
    iintro Hr
    isplitr; · iempintro
    isplitr; · iempintro
    iapply (inv0_out (V0 m ρ) c)
    iexact Hr
  hexit c := by
    have hjoin := SharedSplit.exit0 c (pdats m ρ 0 c) rfl rfl (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Call 1 over the thread state: entered from every unscoped buffer at `W2`, left at `W3`; its arrays split out
    of the unscoped buffers and put back at the exit contents; the scratch buffers into the invariant and out; nothing
    owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := SharedSplit.entry1 c (pdats m ρ 1 c) rfl rfl (V2 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (V2 m ρ) c).Φ 0 from rfl]
    iintro ⟨-, -, Hr⟩
    iapply (inv1_in (V2 m ρ) c)
    iexact Hr
  hout c := by
    rw [Pipeline.ownSems0_none, show (pdats m ρ 1 c).Φ (Fin.last _) = (dat1 (V2 m ρ) c).Φ (Fin.last cfg1.N) from rfl]
    iintro Hr
    isplitr; · iempintro
    isplitr; · iempintro
    iapply (inv1_out (V2 m ρ) c)
    iexact Hr
  hexit c := by
    have hjoin := SharedSplit.exit1 c (pdats m ρ 1 c) rfl rfl (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Call 2 over the thread state: entered from every unscoped buffer at `W4`, left at `W5`; its arrays split out
    of the unscoped buffers and put back at the exit contents; the scratch buffers into the invariant and out; nothing
    owed; no semaphore of the kernel's own. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (dat2 (V4 m ρ) c).Φ 0 from rfl]
    iintro ⟨-, -, Hr⟩
    iapply (inv2_in (V4 m ρ) c)
    iexact Hr
  hout c := by
    rw [Pipeline.ownSems0_none, show (pdats m ρ 2 c).Φ (Fin.last _) = (dat2 (V4 m ρ) c).Φ (Fin.last cfg2.N) from rfl]
    iintro Hr
    isplitr; · iempintro
    isplitr; · iempintro
    iapply (inv2_out (V4 m ρ) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) :=
  main_segs adm (pdats m ρ) () 𝒱₀ L lv _ _ _ (reg0 m ρ) (reg1 m ρ) (reg2 m ρ) rfl rfl rfl c

set_option backward.isDefEq.respectTransparency.types false in
/-- Every weakly fair execution of @main from memory `m` with zero counters terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(iprop(StableHlo.held (c : Thread nD τ) (Pipeline.ucRefs τ sig) (W6 m ρ c) ∗ ∃ r, prngReg c r)
              ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W6_main_arg0 m ρ c),
    (h c _ (mem_uc main_arg1 (by decide))).trans (W6_main_arg1 m ρ c)⟩) (run_all m ρ)

end Cert.KernelIdeal.Regions

end
-- ==== Proof.Spec.lean ====
/-
  The quantity both programs compute, stated once over the extended reals.

  For two arrays X, Y of 8192 rows and 256 columns, the RBF kernel value of row r of X against row c of Y is
  exp(-d(r,c)) where d is the Euclidean distance computed from the expansion |x|^2 + |y|^2 - 2 x.y, clamped at zero,
  with the square root taken only where the squared distance is positive. The mean of these values over all pairs is
  `mean X Y`; the maximum mean discrepancy is mean X X + mean Y Y - 2 mean X Y. Every operation is the exact one on the
  extended reals; float literals are kept as the extended real their bit pattern denotes.
-/
import Idealize.ShloMosaic.PureOps.Ideal
import Idealize.ShloMosaic.PureOps.Ideal.Laws
import Idealize.ShloMosaic.Lib.ValueIdx

noncomputable section

namespace Cert.Mmd

open Idealize.ShloMosaic Idealize.ShloMosaic.ValueIdx

/-- An 8192 x 256 array of extended reals. -/
abbrev Arr : Type := (⟨2, ![8192, 256]⟩ : Shape).Idx → EReal

/-- The extended real a 32-bit float pattern denotes. -/
abbrev lit (b : BitVec 32) : EReal := Ideal.ofBits .f32 b

/-- The squared norm of row r: zero plus the sum of the squares of its entries. -/
def rowSq (X : Arr) (r : Fin 8192) : EReal :=
  lit 0x00000000#32 + ∑ k : Fin 256, X (ix2 r k) * X (ix2 r k)

/-- The inner product of row r of X with row c of Y. -/
def gram (X Y : Arr) (r c : Fin 8192) : EReal :=
  ∑ k : Fin 256, X (ix2 r k) * Y (ix2 c k)

/-- The squared distance of row r of X from row c of Y, by the expansion, clamped at zero. -/
def sqDist (X Y : Arr) (r c : Fin 8192) : EReal :=
  max ((rowSq X r + rowSq Y c) - lit 0x40000000#32 * gram X Y r c) (lit 0x00000000#32)

/-- The distance: the square root where the squared distance is positive, zero elsewhere (the root is taken of 1 there). -/
def dist (X Y : Arr) (r c : Fin 8192) : EReal :=
  Scalar.select (Ideal.cmp .ogt (sqDist X Y r c) (lit 0x00000000#32))
    (Ideal.sqrt (Scalar.select (Ideal.cmp .ogt (sqDist X Y r c) (lit 0x00000000#32)) (sqDist X Y r c) (lit 0x3F800000#32)))
    (lit 0x00000000#32)

/-- The kernel value exp(-1 * d). -/
def kern (X Y : Arr) (r c : Fin 8192) : EReal :=
  Ideal.exp (lit 0xBF800000#32 * dist X Y r c)

/-- The sum of the kernel values over all pairs of rows, from zero. -/
def total (X Y : Arr) : EReal :=
  lit 0x00000000#32 + ∑ r : Fin 8192, ∑ c : Fin 8192, kern X Y r c

/-- The mean: the total over 8192 * 8192 = 2^26. -/
def mean (X Y : Arr) : EReal :=
  Ideal.div (total X Y) (lit 0x4C800000#32)

/-- The maximum mean discrepancy. -/
def mmd (X Y : Arr) : EReal :=
  (mean X X + mean Y Y) - lit 0x40000000#32 * mean X Y

end Cert.Mmd

end
-- ==== Proof.KI.Tail.lean ====
/-
  The host operations after the three calls. The last buffer of @main is a fixed function of the three calls' output
  arrays: each array's sixteen entries are summed from zero, each sum is divided by 2^26, and the result is the first
  quotient plus the second minus twice the third. The first two sums are computed in earlier stretches; no call and no
  later operation writes them, so the last stretch reads them as they were left. Over the extended reals the host's sum
  is the exact sum, and the sum over the index set of a [16,1,1] array is the sum over its sixteen first coordinates.
-/
import proofs.«105376_j19189913878688_2_alg».proof.Proof.KI.Run
import proofs.«105376_j19189913878688_2_alg».proof.Proof.Spec
import Idealize.ShloMosaic.Lib.StableHlo.Run
import Idealize.ShloMosaic.PureOps.Ideal.Laws
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

namespace Tail

/-! ## The sum over a [n,1,1] index set -/

/-- The indices of a [n,1,1] array are its first coordinates. -/
def idxEquivUnit3 {n : Nat} : Fin n ≃ (⟨3, ![n, 1, 1]⟩ : Shape).Idx where
  toFun i := ix3 i 0 0
  invFun j := j 0
  left_inv _ := rfl
  right_inv j := by
    have h1 : j 1 = (0 : Fin 1) := Subsingleton.elim (α := Fin 1) _ _
    have h2 : j 2 = (0 : Fin 1) := Subsingleton.elim (α := Fin 1) _ _
    show ix3 (j 0) 0 0 = j
    conv_rhs => rw [eq_ix3 j, h1, h2]
    rfl

/-- A sum over them is the sum over the first coordinate. -/
theorem sum_idxUnit3 {M : Type*} [AddCommMonoid M] {n : Nat} (f : (⟨3, ![n, 1, 1]⟩ : Shape).Idx → M) :
    ∑ j, f j = ∑ i : Fin n, f (ix3 i 0 0) :=
  (Equiv.sum_comp (idxEquivUnit3 (n := n)) f).symm

/-! ## The last buffer as a function of the three output arrays -/

/-- The sum of an output array's sixteen entries from zero, as the host computes it. -/
def sum16 (o : FVec F S16x1x1 .f32) : FVec F S_ .f32 :=
  Host.reduceAdd o (constant S_ .f32 0x00000000#32) reducesTo_S16x1x1_S_d0_1_2 h_S_

/-- The host tail: the three means and their combination. -/
def tailFn (o0 o1 o2 : FVec F S16x1x1 .f32) : FVec F S_ .f32 :=
  subf (addf (Host.divf (sum16 o0) (constant S_ .f32 0x4C800000#32)) (Host.divf (sum16 o1) (constant S_ .f32 0x4C800000#32)))
    (mulf (constant S_ .f32 0x40000000#32) (Host.divf (sum16 o2) (constant S_ .f32 0x4C800000#32)))

variable (m : (ℓ : Loc nD τ sig) → Buf (Elt F) ℓ) (ρ : Dev nD → PrngReg)

/-- The first stretch leaves the first call's sum. -/
theorem W2_v1 (c : Dev nD) : W2 m ρ c (Proc.devRef .tc main_v1) = sum16 (W1 m ρ c (Proc.devRef .tc main_v0)) := by
  show StableHlo.after hostOps1 _ (Proc.devRef .tc main_v1) = _
  after_results
  rfl

/-- The second stretch leaves the second call's sum. -/
theorem W4_v3 (c : Dev nD) : W4 m ρ c (Proc.devRef .tc main_v3) = sum16 (W3 m ρ c (Proc.devRef .tc main_v2)) := by
  show StableHlo.after hostOps2 _ (Proc.devRef .tc main_v3) = _
  after_results
  rfl

/-- The first sum is still there when the last stretch starts: neither later call nor the second stretch writes it. -/
theorem W5_v1 (c : Dev nD) : W5 m ρ c (Proc.devRef .tc main_v1) = sum16 (W1 m ρ c (Proc.devRef .tc main_v0)) :=
  calc W5 m ρ c (Proc.devRef .tc main_v1)
    _ = W4 m ρ c (Proc.devRef .tc main_v1) := W5_of_ne m ρ c main_v1 (by decide)
    _ = W3 m ρ c (Proc.devRef .tc main_v1) := StableHlo.after_of_writes_sub hostOps2 _ hostOps2_writes (by decide)
    _ = W2 m ρ c (Proc.devRef .tc main_v1) := W3_of_ne m ρ c main_v1 (by decide)
    _ = _ := W2_v1 m ρ c

/-- So is the second. -/
theorem W5_v3 (c : Dev nD) : W5 m ρ c (Proc.devRef .tc main_v3) = sum16 (W3 m ρ c (Proc.devRef .tc main_v2)) :=
  calc W5 m ρ c (Proc.devRef .tc main_v3)
    _ = W4 m ρ c (Proc.devRef .tc main_v3) := W5_of_ne m ρ c main_v3 (by decide)
    _ = _ := W4_v3 m ρ c

/-- The last stretch computes the tail of the two earlier sums and the third call's output array. -/
theorem W6_v11 (c : Dev nD) : W6 m ρ c (Proc.devRef .tc main_v11)
    = tailFn (W1 m ρ c (Proc.devRef .tc main_v0)) (W3 m ρ c (Proc.devRef .tc main_v2)) (W5 m ρ c (Proc.devRef .tc main_v4)) := by
  show StableHlo.after hostOps3 _ (Proc.devRef .tc main_v11) = _
  after_results
  rw [W5_v1 m ρ c, W5_v3 m ρ c]
  rfl

/-- Over the extended reals the host's sum of the sixteen entries from zero is zero plus their sum. -/
theorem sum16_apply (o : FVec Ideal S16x1x1 .f32) (i : S_.Idx) :
    sum16 (F := Ideal) o i = Cert.Mmd.lit 0x00000000#32 + ∑ k : Fin 16, o (ix3 k 0 0) := by
  unfold sum16
  simp only [Host.reduceAdd, Ideal.hostReduceAdd_def]
  refine (Ideal.hostReduceAdd_total reducesTo_S16x1x1_S_d0_1_2 (fun b => b.elim0) o _ i).trans ?_
  rw [sum_idxUnit3]
  rfl

end Tail

/-- The last buffer's value as a function of the three calls' output arrays, over the extended reals. -/
def tailVal (o0 o1 o2 : FVec Ideal S16x1x1 .f32) : EReal :=
  (Ideal.div (Cert.Mmd.lit 0x00000000#32 + ∑ i : Fin 16, o0 (ix3 i 0 0)) (Cert.Mmd.lit 0x4C800000#32)
      + Ideal.div (Cert.Mmd.lit 0x00000000#32 + ∑ i : Fin 16, o1 (ix3 i 0 0)) (Cert.Mmd.lit 0x4C800000#32))
    - Cert.Mmd.lit 0x40000000#32 * Ideal.div (Cert.Mmd.lit 0x00000000#32 + ∑ i : Fin 16, o2 (ix3 i 0 0)) (Cert.Mmd.lit 0x4C800000#32)

/-- The host tail read at its one index, over the extended reals. -/
theorem Tail.tailFn_apply (o0 o1 o2 : FVec Ideal S16x1x1 .f32) (i : S_.Idx) :
    Tail.tailFn (F := Ideal) o0 o1 o2 i = tailVal o0 o1 o2 := by
  show (Ideal.div (Tail.sum16 (F := Ideal) o0 i) (Cert.Mmd.lit 0x4C800000#32) + Ideal.div (Tail.sum16 (F := Ideal) o1 i) (Cert.Mmd.lit 0x4C800000#32))
      - Cert.Mmd.lit 0x40000000#32 * Ideal.div (Tail.sum16 (F := Ideal) o2 i) (Cert.Mmd.lit 0x4C800000#32) = _
  rw [Tail.sum16_apply, Tail.sum16_apply, Tail.sum16_apply]
  rfl

/-- The last buffer of @main, at its one index, is the tail's value at the three calls' output arrays as they were left. -/
theorem tail_eq (m : (ℓ : Loc nD τ sig) → Buf (Elt Ideal) ℓ) (ρ : Dev nD → PrngReg) (c : Dev nD) (i : S_.Idx) :
    (W6 (F := Ideal) m ρ c (Proc.devRef .tc main_v11)) i
      = tailVal (W1 m ρ c (Proc.devRef .tc main_v0)) (W3 m ρ c (Proc.devRef .tc main_v2)) (W5 m ρ c (Proc.devRef .tc main_v4)) := by
  rw [Tail.W6_v11 m ρ c]
  exact Tail.tailFn_apply _ _ _ i

end Cert.KernelIdeal.Regions

end
-- ==== Proof.KI.Args.lean ====
/-
  The argument arrays as each call finds them: no call and no host operation before it writes an argument, so the
  second and third calls read the launch contents.
-/
import proofs.«105376_j19189913878688_2_alg».proof.Proof.KI.Run

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V2_main_arg1 (c : Dev nD) : V2 m ρ c main_arg1 = m ((c : Thread nD τ).loc main_arg1) :=
  calc W2 m ρ c (Proc.devRef .tc main_arg1)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

theorem V4_main_arg0 (c : Dev nD) : V4 m ρ c main_arg0 = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem V4_main_arg1 (c : Dev nD) : V4 m ρ c main_arg1 = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = m ((c : Thread nD τ).loc main_arg1) := V2_main_arg1 m ρ c

end Cert.KernelIdeal.Regions

end
-- ==== Proof.KI.Outputs.lean ====
/-
  What each call's output array holds after the run. A call writes its output block back at the last point of each row
  of the grid, sixteen write-backs in all, each covering one entry of the [16,1,1] output array; so the array ends
  holding, at entry i, what point 8 i + 7 left in the output's staging buffer.
-/
import proofs.«105376_j19189913878688_2_alg».proof.Proof.KI.Data0
import proofs.«105376_j19189913878688_2_alg».proof.Proof.KI.Data1
import proofs.«105376_j19189913878688_2_alg».proof.Proof.KI.Data2
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (V : (c : Dev nD) → (b : Ref sig .tc) → Buf (Elt F) ((c : Thread nD τ).loc b))

/-- A [1,1,1] array has one index. -/
instance subsingleton_S1x1x1 : Subsingleton S1x1x1.Idx := ⟨fun a b => funext fun d => Fin.ext (by
  match d with
  | ⟨0, _⟩ => exact (Nat.lt_one_iff.mp (a 0).isLt).trans (Nat.lt_one_iff.mp (b 0).isLt).symm
  | ⟨1, _⟩ => exact (Nat.lt_one_iff.mp (a 1).isLt).trans (Nat.lt_one_iff.mp (b 1).isLt).symm
  | ⟨2, _⟩ => exact (Nat.lt_one_iff.mp (a 2).isLt).trans (Nat.lt_one_iff.mp (b 2).isLt).symm)⟩

/-! ## Call 0 -/

theorem idx0_2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem xsize0_2 : ∀ t : Fin cfg0.N, win0_2.xsize (grid0.coords t) 0 = 1 ∧ win0_2.xsize (grid0.coords t) 1 = 1 ∧ win0_2.xsize (grid0.coords t) 2 = 1 :=
  (by decide +kernel : ∀ t : Fin grid0.N, win0_2.xsize (grid0.coords t) 0 = 1 ∧ win0_2.xsize (grid0.coords t) 1 = 1 ∧ win0_2.xsize (grid0.coords t) 2 = 1)

theorem stateAt0_reindex (c : Dev nD) {n n' : ℕ} (e : n = n') (h : n < cfg0.N) (h' : n' < cfg0.N) : stateAt0 V c n h = stateAt0 V c n' h' := by
  subst e; rfl

/-- The call's output array after the run: entry i is what the last point of row i of the grid left in the output block. -/
def outArr0 (c : Dev nD) : Vec F S16x1x1 .f32 :=
  fun i => (stateAt0 V c (8 * (i 0).val + 7) (by rw [show cfg0.N = 128 from N_0]; have : (i 0).val < 16 := (i 0).isLt; omega)).1 (ix3 0 0 0)

/-- A write-back happens at the last point of a row and writes that point's output block: block (t / 8, 0, 0) of the array. -/
theorem flushed0_2 (c : Dev nD) (t : Fin cfg0.N) (hf : (cfg0.win 2).flush t = true) :
    (dat0 V c).flushed 2 t = ((cfg0.win 2).blk t).view.read (Elt F) (outArr0 V c) := by
  have h7 : t.val % 8 = 7 := (flush0_2 t).mp hf
  have hN : t.val < 128 := lt_of_lt_of_eq t.isLt N_0
  show (cfg0.win 2).cut (grid0.coords t) ((dat0 V c).after 2 t) = _
  rw [after0_2]
  funext y
  rw [View.read_apply]
  show (stateAt0 V c t.val t.isLt).1 _ = outArr0 V c (((cfg0.win 2).blk t).view.emb y)
  have he : ((((cfg0.win 2).blk t).view.emb y) 0 : Nat) = t.val / 8 := by
    have h := Pipeline.Window.rect_emb_val (cfg0.win 2) t y 0
    have hi := (idx0_2 t).1
    have hx : win0_2.xsize (grid0.coords t) 0 = 1 := (xsize0_2 t).1
    have hy : (y 0 : Nat) = 0 := Nat.lt_one_iff.mp (lt_of_lt_of_eq (y 0).isLt hx)
    calc ((((cfg0.win 2).blk t).view.emb y) 0 : Nat) = (cfg0.win 2).index t 0 * (cfg0.win 2).size 0 + (y 0 : Nat) := h
      _ = t.val / 8 := by rw [show (cfg0.win 2).index t 0 = t.val / 8 from hi, show (cfg0.win 2).size 0 = 1 from rfl, hy]; omega
  unfold outArr0
  rw [stateAt0_reindex V c (show 8 * ((((cfg0.win 2).blk t).view.emb y) 0 : Nat) + 7 = t.val by rw [he]; omega) _ t.isLt]
  exact congrArg _ (Subsingleton.elim (α := S1x1x1.Idx) _ _)

/-- The sixteen write-backs cover the output array, so it ends holding `outArr`. -/
theorem final0 (c : Dev nD) : (dat0 V c).arrAt 2 cfg0.N = outArr0 V c :=
  (dat0 V c).arrAt_eq_of_cover 2 (outArr0 V c) (flushed0_2 V c) fun i => by
    have hi0 : (i 0 : Nat) < 16 := (i 0).isLt
    have hi1 : (i 1 : Nat) < 1 := (i 1).isLt
    have hi2 : (i 2 : Nat) < 1 := (i 2).isLt
    have hlt : 8 * (i 0 : Nat) + 7 < cfg0.N := by rw [show cfg0.N = 128 from N_0]; omega
    refine ⟨⟨8 * (i 0 : Nat) + 7, hlt⟩, (flush0_2 _).mpr (by show (8 * (i 0 : Nat) + 7) % 8 = 7; omega), ?_⟩
    show i ∈ ((View.whole main_v0).slice (win0_2.rect ⟨8 * (i 0 : Nat) + 7, hlt⟩)).set
    rw [View.set_slice_whole, Rect.mem_set_unit]
    intro a
    have hidx := idx0_2 ⟨8 * (i 0 : Nat) + 7, hlt⟩
    have hxs := xsize0_2 ⟨8 * (i 0 : Nat) + 7, hlt⟩
    match a with
    | ⟨0, _⟩ =>
      show win0_2.index ⟨8 * (i 0 : Nat) + 7, hlt⟩ 0 * win0_2.size 0 ≤ (i 0 : Nat) ∧ (i 0 : Nat) < win0_2.index ⟨8 * (i 0 : Nat) + 7, hlt⟩ 0 * win0_2.size 0 + win0_2.xsize (grid0.coords ⟨8 * (i 0 : Nat) + 7, hlt⟩) 0
      rw [hidx.1, hxs.1, show win0_2.size 0 = 1 from rfl]; dsimp only; omega
    | ⟨1, _⟩ =>
      show win0_2.index ⟨8 * (i 0 : Nat) + 7, hlt⟩ 1 * win0_2.size 1 ≤ (i 1 : Nat) ∧ (i 1 : Nat) < win0_2.index ⟨8 * (i 0 : Nat) + 7, hlt⟩ 1 * win0_2.size 1 + win0_2.xsize (grid0.coords ⟨8 * (i 0 : Nat) + 7, hlt⟩) 1
      rw [hidx.2.1, hxs.2.1]; omega
    | ⟨2, _⟩ =>
      show win0_2.index ⟨8 * (i 0 : Nat) + 7, hlt⟩ 2 * win0_2.size 2 ≤ (i 2 : Nat) ∧ (i 2 : Nat) < win0_2.index ⟨8 * (i 0 : Nat) + 7, hlt⟩ 2 * win0_2.size 2 + win0_2.xsize (grid0.coords ⟨8 * (i 0 : Nat) + 7, hlt⟩) 2
      rw [hidx.2.2, hxs.2.2]; omega

/-! ## Call 1 -/

theorem idx1_2 : ∀ t : Fin cfg1.N, win1_2.index t (0 : Fin 3) = t.val / 8 ∧ win1_2.index t (1 : Fin 3) = 0 ∧ win1_2.index t (2 : Fin 3) = 0 :=
  (by decide +kernel : ∀ t : Fin grid1.N, win1_2.index t (0 : Fin 3) = t.val / 8 ∧ win1_2.index t (1 : Fin 3) = 0 ∧ win1_2.index t (2 : Fin 3) = 0)
theorem xsize1_2 : ∀ t : Fin cfg1.N, win1_2.xsize (grid1.coords t) 0 = 1 ∧ win1_2.xsize (grid1.coords t) 1 = 1 ∧ win1_2.xsize (grid1.coords t) 2 = 1 :=
  (by decide +kernel : ∀ t : Fin grid1.N, win1_2.xsize (grid1.coords t) 0 = 1 ∧ win1_2.xsize (grid1.coords t) 1 = 1 ∧ win1_2.xsize (grid1.coords t) 2 = 1)

theorem stateAt1_reindex (c : Dev nD) {n n' : ℕ} (e : n = n') (h : n < cfg1.N) (h' : n' < cfg1.N) : stateAt1 V c n h = stateAt1 V c n' h' := by
  subst e; rfl

/-- The call's output array after the run: entry i is what the last point of row i of the grid left in the output block. -/
def outArr1 (c : Dev nD) : Vec F S16x1x1 .f32 :=
  fun i => (stateAt1 V c (8 * (i 0).val + 7) (by rw [show cfg1.N = 128 from N_1]; have : (i 0).val < 16 := (i 0).isLt; omega)).1 (ix3 0 0 0)

/-- A write-back happens at the last point of a row and writes that point's output block: block (t / 8, 0, 0) of the array. -/
theorem flushed1_2 (c : Dev nD) (t : Fin cfg1.N) (hf : (cfg1.win 2).flush t = true) :
    (dat1 V c).flushed 2 t = ((cfg1.win 2).blk t).view.read (Elt F) (outArr1 V c) := by
  have h7 : t.val % 8 = 7 := (flush1_2 t).mp hf
  have hN : t.val < 128 := lt_of_lt_of_eq t.isLt N_1
  show (cfg1.win 2).cut (grid1.coords t) ((dat1 V c).after 2 t) = _
  rw [after1_2]
  funext y
  rw [View.read_apply]
  show (stateAt1 V c t.val t.isLt).1 _ = outArr1 V c (((cfg1.win 2).blk t).view.emb y)
  have he : ((((cfg1.win 2).blk t).view.emb y) 0 : Nat) = t.val / 8 := by
    have h := Pipeline.Window.rect_emb_val (cfg1.win 2) t y 0
    have hi := (idx1_2 t).1
    have hx : win1_2.xsize (grid1.coords t) 0 = 1 := (xsize1_2 t).1
    have hy : (y 0 : Nat) = 0 := Nat.lt_one_iff.mp (lt_of_lt_of_eq (y 0).isLt hx)
    calc ((((cfg1.win 2).blk t).view.emb y) 0 : Nat) = (cfg1.win 2).index t 0 * (cfg1.win 2).size 0 + (y 0 : Nat) := h
      _ = t.val / 8 := by rw [show (cfg1.win 2).index t 0 = t.val / 8 from hi, show (cfg1.win 2).size 0 = 1 from rfl, hy]; omega
  unfold outArr1
  rw [stateAt1_reindex V c (show 8 * ((((cfg1.win 2).blk t).view.emb y) 0 : Nat) + 7 = t.val by rw [he]; omega) _ t.isLt]
  exact congrArg _ (Subsingleton.elim (α := S1x1x1.Idx) _ _)

/-- The sixteen write-backs cover the output array, so it ends holding `outArr`. -/
theorem final1 (c : Dev nD) : (dat1 V c).arrAt 2 cfg1.N = outArr1 V c :=
  (dat1 V c).arrAt_eq_of_cover 2 (outArr1 V c) (flushed1_2 V c) fun i => by
    have hi0 : (i 0 : Nat) < 16 := (i 0).isLt
    have hi1 : (i 1 : Nat) < 1 := (i 1).isLt
    have hi2 : (i 2 : Nat) < 1 := (i 2).isLt
    have hlt : 8 * (i 0 : Nat) + 7 < cfg1.N := by rw [show cfg1.N = 128 from N_1]; omega
    refine ⟨⟨8 * (i 0 : Nat) + 7, hlt⟩, (flush1_2 _).mpr (by show (8 * (i 0 : Nat) + 7) % 8 = 7; omega), ?_⟩
    show i ∈ ((View.whole main_v2).slice (win1_2.rect ⟨8 * (i 0 : Nat) + 7, hlt⟩)).set
    rw [View.set_slice_whole, Rect.mem_set_unit]
    intro a
    have hidx := idx1_2 ⟨8 * (i 0 : Nat) + 7, hlt⟩
    have hxs := xsize1_2 ⟨8 * (i 0 : Nat) + 7, hlt⟩
    match a with
    | ⟨0, _⟩ =>
      show win1_2.index ⟨8 * (i 0 : Nat) + 7, hlt⟩ 0 * win1_2.size 0 ≤ (i 0 : Nat) ∧ (i 0 : Nat) < win1_2.index ⟨8 * (i 0 : Nat) + 7, hlt⟩ 0 * win1_2.size 0 + win1_2.xsize (grid1.coords ⟨8 * (i 0 : Nat) + 7, hlt⟩) 0
      rw [hidx.1, hxs.1, show win1_2.size 0 = 1 from rfl]; dsimp only; omega
    | ⟨1, _⟩ =>
      show win1_2.index ⟨8 * (i 0 : Nat) + 7, hlt⟩ 1 * win1_2.size 1 ≤ (i 1 : Nat) ∧ (i 1 : Nat) < win1_2.index ⟨8 * (i 0 : Nat) + 7, hlt⟩ 1 * win1_2.size 1 + win1_2.xsize (grid1.coords ⟨8 * (i 0 : Nat) + 7, hlt⟩) 1
      rw [hidx.2.1, hxs.2.1]; omega
    | ⟨2, _⟩ =>
      show win1_2.index ⟨8 * (i 0 : Nat) + 7, hlt⟩ 2 * win1_2.size 2 ≤ (i 2 : Nat) ∧ (i 2 : Nat) < win1_2.index ⟨8 * (i 0 : Nat) + 7, hlt⟩ 2 * win1_2.size 2 + win1_2.xsize (grid1.coords ⟨8 * (i 0 : Nat) + 7, hlt⟩) 2
      rw [hidx.2.2, hxs.2.2]; omega

/-! ## Call 2 -/

theorem idx2_2 : ∀ t : Fin cfg2.N, win2_2.index t (0 : Fin 3) = t.val / 8 ∧ win2_2.index t (1 : Fin 3) = 0 ∧ win2_2.index t (2 : Fin 3) = 0 :=
  (by decide +kernel : ∀ t : Fin grid2.N, win2_2.index t (0 : Fin 3) = t.val / 8 ∧ win2_2.index t (1 : Fin 3) = 0 ∧ win2_2.index t (2 : Fin 3) = 0)
theorem xsize2_2 : ∀ t : Fin cfg2.N, win2_2.xsize (grid2.coords t) 0 = 1 ∧ win2_2.xsize (grid2.coords t) 1 = 1 ∧ win2_2.xsize (grid2.coords t) 2 = 1 :=
  (by decide +kernel : ∀ t : Fin grid2.N, win2_2.xsize (grid2.coords t) 0 = 1 ∧ win2_2.xsize (grid2.coords t) 1 = 1 ∧ win2_2.xsize (grid2.coords t) 2 = 1)

theorem stateAt2_reindex (c : Dev nD) {n n' : ℕ} (e : n = n') (h : n < cfg2.N) (h' : n' < cfg2.N) : stateAt2 V c n h = stateAt2 V c n' h' := by
  subst e; rfl

/-- The call's output array after the run: entry i is what the last point of row i of the grid left in the output block. -/
def outArr2 (c : Dev nD) : Vec F S16x1x1 .f32 :=
  fun i => (stateAt2 V c (8 * (i 0).val + 7) (by rw [show cfg2.N = 128 from N_2]; have : (i 0).val < 16 := (i 0).isLt; omega)).1 (ix3 0 0 0)

/-- A write-back happens at the last point of a row and writes that point's output block: block (t / 8, 0, 0) of the array. -/
theorem flushed2_2 (c : Dev nD) (t : Fin cfg2.N) (hf : (cfg2.win 2).flush t = true) :
    (dat2 V c).flushed 2 t = ((cfg2.win 2).blk t).view.read (Elt F) (outArr2 V c) := by
  have h7 : t.val % 8 = 7 := (flush2_2 t).mp hf
  have hN : t.val < 128 := lt_of_lt_of_eq t.isLt N_2
  show (cfg2.win 2).cut (grid2.coords t) ((dat2 V c).after 2 t) = _
  rw [after2_2]
  funext y
  rw [View.read_apply]
  show (stateAt2 V c t.val t.isLt).1 _ = outArr2 V c (((cfg2.win 2).blk t).view.emb y)
  have he : ((((cfg2.win 2).blk t).view.emb y) 0 : Nat) = t.val / 8 := by
    have h := Pipeline.Window.rect_emb_val (cfg2.win 2) t y 0
    have hi := (idx2_2 t).1
    have hx : win2_2.xsize (grid2.coords t) 0 = 1 := (xsize2_2 t).1
    have hy : (y 0 : Nat) = 0 := Nat.lt_one_iff.mp (lt_of_lt_of_eq (y 0).isLt hx)
    calc ((((cfg2.win 2).blk t).view.emb y) 0 : Nat) = (cfg2.win 2).index t 0 * (cfg2.win 2).size 0 + (y 0 : Nat) := h
      _ = t.val / 8 := by rw [show (cfg2.win 2).index t 0 = t.val / 8 from hi, show (cfg2.win 2).size 0 = 1 from rfl, hy]; omega
  unfold outArr2
  rw [stateAt2_reindex V c (show 8 * ((((cfg2.win 2).blk t).view.emb y) 0 : Nat) + 7 = t.val by rw [he]; omega) _ t.isLt]
  exact congrArg _ (Subsingleton.elim (α := S1x1x1.Idx) _ _)

/-- The sixteen write-backs cover the output array, so it ends holding `outArr`. -/
theorem final2 (c : Dev nD) : (dat2 V c).arrAt 2 cfg2.N = outArr2 V c :=
  (dat2 V c).arrAt_eq_of_cover 2 (outArr2 V c) (flushed2_2 V c) fun i => by
    have hi0 : (i 0 : Nat) < 16 := (i 0).isLt
    have hi1 : (i 1 : Nat) < 1 := (i 1).isLt
    have hi2 : (i 2 : Nat) < 1 := (i 2).isLt
    have hlt : 8 * (i 0 : Nat) + 7 < cfg2.N := by rw [show cfg2.N = 128 from N_2]; omega
    refine ⟨⟨8 * (i 0 : Nat) + 7, hlt⟩, (flush2_2 _).mpr (by show (8 * (i 0 : Nat) + 7) % 8 = 7; omega), ?_⟩
    show i ∈ ((View.whole main_v4).slice (win2_2.rect ⟨8 * (i 0 : Nat) + 7, hlt⟩)).set
    rw [View.set_slice_whole, Rect.mem_set_unit]
    intro a
    have hidx := idx2_2 ⟨8 * (i 0 : Nat) + 7, hlt⟩
    have hxs := xsize2_2 ⟨8 * (i 0 : Nat) + 7, hlt⟩
    match a with
    | ⟨0, _⟩ =>
      show win2_2.index ⟨8 * (i 0 : Nat) + 7, hlt⟩ 0 * win2_2.size 0 ≤ (i 0 : Nat) ∧ (i 0 : Nat) < win2_2.index ⟨8 * (i 0 : Nat) + 7, hlt⟩ 0 * win2_2.size 0 + win2_2.xsize (grid2.coords ⟨8 * (i 0 : Nat) + 7, hlt⟩) 0
      rw [hidx.1, hxs.1, show win2_2.size 0 = 1 from rfl]; dsimp only; omega
    | ⟨1, _⟩ =>
      show win2_2.index ⟨8 * (i 0 : Nat) + 7, hlt⟩ 1 * win2_2.size 1 ≤ (i 1 : Nat) ∧ (i 1 : Nat) < win2_2.index ⟨8 * (i 0 : Nat) + 7, hlt⟩ 1 * win2_2.size 1 + win2_2.xsize (grid2.coords ⟨8 * (i 0 : Nat) + 7, hlt⟩) 1
      rw [hidx.2.1, hxs.2.1]; omega
    | ⟨2, _⟩ =>
      show win2_2.index ⟨8 * (i 0 : Nat) + 7, hlt⟩ 2 * win2_2.size 2 ≤ (i 2 : Nat) ∧ (i 2 : Nat) < win2_2.index ⟨8 * (i 0 : Nat) + 7, hlt⟩ 2 * win2_2.size 2 + win2_2.xsize (grid2.coords ⟨8 * (i 0 : Nat) + 7, hlt⟩) 2
      rw [hidx.2.2, hxs.2.2]; omega

end Cert.KernelIdeal.Regions

end
-- ==== Proof.KI.Pieces0.lean ====
/-
  Call 0: what each control case of the body leaves in the buffers it stores into, as closed expressions in the
  body's arithmetic.

  The first point of a row stores the row block's squared norms and its copy (functions of the row block alone), zeroes
  the running sum, and adds the tile's sum to it; the tile's sum is computed from the column block, the copy and the
  squared norms as read back from the buffers just stored. Every later point adds its tile's sum, computed from its
  column block and the copy and squared norms handed to it, to the running sum handed to it; the last point also
  stores the new running sum into the output block. Each buffer is stored whole, so what it holds afterwards is the
  payload of its last store.
-/
import proofs.«105376_j19189913878688_2_alg».proof.Proof.KI.Data0
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 and of a rank-3 buffer, as constant functions. -/
theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The tile's sum added to a running sum: the body's last store, as a function of the point's coordinates, the
    column block, the copy and the squared norms of the row block, and the running sum. -/
def step0 (i : grid0.Coords) (x1 : Vec F S1024x256 .f32) (xc : Vec F S512x256 .bf16) (xq : Vec F S512x1 .f32)
    (xa : Vec F S1x1x1 .f32) : Vec F S1x1x1 .f32 :=
  k0_pay1 (BitVec.ofNat 32 (i 1).val) (k0_pay5 x1 xc xq) (iota .tc S512x1024 32 [0] iota_S512x1024_d0_w32) (k0_pay6 i) xa

/-! ## The pieces of each run, over any whole memrefs -/

/-- Case A, the squared norms: one whole store of the row block's squared norms. -/
theorem canonSqA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) :
    View.canon (runA0 c i arg2 harg2 arg3 harg3 arg4 harg4 arg5 harg5 arg6 harg6 arg7 harg7 hc0 hc1 x0 x1).2.1 = k0_pay3 x0 := by
  unfold runA0
  dsimp only
  sl_unfold_words
  rw [View.canon_unit_zero hz2_0]
  simp only [View.readAt_eq_ld, harg2.read_unread, View.ld_unit_zero (S := S512x256) hz2_0]

/-- Case A, the copy: one whole store of the row block's copy. -/
theorem canonCpA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) :
    View.canon (runA0 c i arg2 harg2 arg3 harg3 arg4 harg4 arg5 harg5 arg6 harg6 arg7 harg7 hc0 hc1 x0 x1).2.2.1 = k0_pay4 x0 := by
  unfold runA0
  dsimp only
  sl_unfold_words
  rw [View.canon_unit_zero hz2_0]
  simp only [View.readAt_eq_ld, harg2.read_unread, View.ld_unit_zero (S := S512x256) hz2_0]

/-- Case A, the running sum: zeroed, then the tile's sum added, the copy and the squared norms read back from the
    stores just made. -/
theorem canonAccA0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first0 i) (hc1 : ¬last0 i)
    (x0 : Vec F S512x256 .f32) (x1 : Vec F S1024x256 .f32) :
    View.canon (runA0 c i arg2 harg2 arg3 harg3 arg4 harg4 arg5 harg5 arg6 harg6 arg7 harg7 hc0 hc1 x0 x1).1
      = step0 i x1 (k0_pay4 x0) (k0_pay3 x0) (k0_pay2 (F := F)) := by
  unfold runA0
  dsimp only
  sl_unfold_words
  rw [View.canon_cons_unit_zero (S := S1x1x1) hz3_0, View.readCov_unit_zero (S := S512x256) _ hz2_0,
    View.readCov_unit_zero (S := S512x1) _ hz2_0, View.readCov_unit_zero (S := S1x1x1) _ hz3_0]
  simp only [View.readAt_eq_ld, harg2.read_unread, harg3.read_unread, View.ld_unit_zero (S := S512x256) hz2_0,
    View.ld_unit_zero (S := S1024x256) hz2_0]
  rfl

/-- Case B, the running sum: the tile's sum added to what the point was handed. -/
theorem canonAccB0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : ¬last0 i)
    (x0 : Vec F S512x256 .f32) (x1 : Vec F S1024x256 .f32) (xa : Vec F S1x1x1 .f32) (xq : Vec F S512x1 .f32) (xc : Vec F S512x256 .bf16) :
    View.canon (runB0 c i arg2 harg2 arg3 harg3 arg4 harg4 arg5 harg5 arg6 harg6 arg7 harg7 hc0 hc1 x0 x1 xa xq xc).1 = step0 i x1 xc xq xa := by
  unfold runB0
  dsimp only
  sl_unfold_words
  rw [View.canon_unit_zero (S := S1x1x1) hz3_0]
  simp only [View.readAt_eq_ld, harg3.read_unread, harg5.read_unread, harg6.read_unread, harg7.read_unread,
    View.ld_unit_zero (S := S1024x256) hz2_0, View.ld_unit_zero (S := S512x256) hz2_0,
    View.ld_unit_zero (S := S512x1) hz2_0, View.ld_unit_zero (S := S1x1x1) hz3_0]
  rfl

/-- Case C, the running sum: as in case B. -/
theorem canonAccC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) :
    View.canon (runC0 c i arg2 harg2 arg3 harg3 arg4 harg4 arg5 harg5 arg6 harg6 arg7 harg7 hc0 hc1 x0 x1 xa xq xc).2.1 = step0 i x1 xc xq xa := by
  unfold runC0
  dsimp only
  sl_unfold_words
  rw [View.canon_unit_zero (S := S1x1x1) hz3_0]
  simp only [View.readAt_eq_ld, harg3.read_unread, harg5.read_unread, harg6.read_unread, harg7.read_unread,
    View.ld_unit_zero (S := S1024x256) hz2_0, View.ld_unit_zero (S := S512x256) hz2_0,
    View.ld_unit_zero (S := S512x1) hz2_0, View.ld_unit_zero (S := S1x1x1) hz3_0]
  rfl

/-- Case C, the output block: the new running sum, read back. -/
theorem canonOutC0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first0 i) (hc1 : last0 i)
    (x0 : Vec F S512x256 .f32) (x1 : Vec F S1024x256 .f32) (xa : Vec F S1x1x1 .f32) (xq : Vec F S512x1 .f32) (xc : Vec F S512x256 .bf16) :
    View.canon (runC0 c i arg2 harg2 arg3 harg3 arg4 harg4 arg5 harg5 arg6 harg6 arg7 harg7 hc0 hc1 x0 x1 xa xq xc).1 = step0 i x1 xc xq xa := by
  unfold runC0
  dsimp only
  sl_unfold_words
  rw [View.canon_unit_zero (S := S1x1x1) hz3_0, View.readCov_unit_zero (S := S1x1x1) _ hz3_0]
  simp only [View.readAt_eq_ld, harg3.read_unread, harg5.read_unread, harg6.read_unread, harg7.read_unread,
    View.ld_unit_zero (S := S1024x256) hz2_0, View.ld_unit_zero (S := S512x256) hz2_0,
    View.ld_unit_zero (S := S512x1) hz2_0, View.ld_unit_zero (S := S1x1x1) hz3_0]
  rfl

/-! ## The same at a grid point -/

variable (V : (c : Dev nD) → (b : Ref sig .tc) → Buf (Elt F) ((c : Thread nD τ).loc b))

theorem sqA0_eq (c : Dev nD) (t : Fin cfg0.N) (h0 : t.val % 8 = 0) :
    sqA0 V c t h0 = k0_pay3 (blk0 V c 0 t) := by
  unfold sqA0 atA0
  rw [View.read_writes_eq_canon _ _ _ (coverSqA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) ((hfirst0 t).mpr h0) (fun h => by have := (hlast0 t).mp h; omega) (blk0 V c 0 t) (blk0 V c 1 t))]
  exact canonSqA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t)

theorem cpA0_eq (c : Dev nD) (t : Fin cfg0.N) (h0 : t.val % 8 = 0) :
    cpA0 V c t h0 = k0_pay4 (blk0 V c 0 t) := by
  unfold cpA0 atA0
  rw [View.read_writes_eq_canon _ _ _ (coverCpA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) ((hfirst0 t).mpr h0) (fun h => by have := (hlast0 t).mp h; omega) (blk0 V c 0 t) (blk0 V c 1 t))]
  exact canonCpA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t)

theorem accA0_eq (c : Dev nD) (t : Fin cfg0.N) (h0 : t.val % 8 = 0) :
    accA0 V c t h0
      = step0 (grid0.coords t) (blk0 V c 1 t) (k0_pay4 (blk0 V c 0 t)) (k0_pay3 (blk0 V c 0 t)) (k0_pay2 (F := F)) := by
  unfold accA0 atA0
  rw [View.read_writes_eq_canon _ _ _ (coverAccA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) ((hfirst0 t).mpr h0) (fun h => by have := (hlast0 t).mp h; omega) (blk0 V c 0 t) (blk0 V c 1 t))]
  exact canonAccA0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t)

theorem accB0_eq (c : Dev nD) (t : Fin cfg0.N) (h0 : ¬t.val % 8 = 0) (h1 : ¬t.val % 8 = 7)
    (xa : Vec F S1x1x1 .f32) (xq : Vec F S512x1 .f32) (xc : Vec F S512x256 .bf16) :
    accB0 V c t h0 h1 xa xq xc = step0 (grid0.coords t) (blk0 V c 1 t) xc xq xa := by
  unfold accB0 atB0
  rw [View.read_writes_eq_canon _ _ _ (coverAccB0 c (grid0.coords t) (ms0_0 t) (hs0_0 t) (ms0_1 t) (hs0_1 t) (ms0_2 t) (hs0_2 t) scAcc0 (Memref.isWhole_whole _) scSq0 (Memref.isWhole_whole _) scCp0 (Memref.isWhole_whole _) (fun h => h0 ((hfirst0 t).mp h)) (fun h => h1 ((hlast0 t).mp h)) (blk0 V c 0 t) (blk0 V c 1 t) xa xq xc)]
  exact canonAccB0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t) xa xq xc

theorem accC0_eq (c : Dev nD) (t : Fin cfg0.N) (h0 : ¬t.val % 8 = 0) (h1 : t.val % 8 = 7)
    (xa : Vec F S1x1x1 .f32) (xq : Vec F S512x1 .f32) (xc : Vec F S512x256 .bf16) :
    accC0 V c t h0 h1 xa xq xc = step0 (grid0.coords t) (blk0 V c 1 t) xc xq xa := by
  unfold accC0 atC0
  rw [View.read_writes_eq_canon _ _ _ (coverAccC0 c (grid0.coords t) (ms0_0 t) (hs0_0 t) (ms0_1 t) (hs0_1 t) (ms0_2 t) (hs0_2 t) scAcc0 (Memref.isWhole_whole _) scSq0 (Memref.isWhole_whole _) scCp0 (Memref.isWhole_whole _) (fun h => h0 ((hfirst0 t).mp h)) ((hlast0 t).mpr h1) (blk0 V c 0 t) (blk0 V c 1 t) xa xq xc)]
  exact canonAccC0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t) xa xq xc

theorem outC0_eq (c : Dev nD) (t : Fin cfg0.N) (h0 : ¬t.val % 8 = 0) (h1 : t.val % 8 = 7)
    (xa : Vec F S1x1x1 .f32) (xq : Vec F S512x1 .f32) (xc : Vec F S512x256 .bf16) :
    outC0 V c t h0 h1 xa xq xc = accC0 V c t h0 h1 xa xq xc := by
  rw [accC0_eq]
  unfold outC0 atC0
  rw [View.read_writes_eq_canon _ _ _ (coverOutC0 c (grid0.coords t) (ms0_0 t) (hs0_0 t) (ms0_1 t) (hs0_1 t) (ms0_2 t) (hs0_2 t) scAcc0 (Memref.isWhole_whole _) scSq0 (Memref.isWhole_whole _) scCp0 (Memref.isWhole_whole _) (fun h => h0 ((hfirst0 t).mp h)) ((hlast0 t).mpr h1) (blk0 V c 0 t) (blk0 V c 1 t) xa xq xc)]
  exact canonOutC0 c (grid0.coords t) (ms0_0 t) (hs0_0 t) (ms0_1 t) (hs0_1 t) (ms0_2 t) (hs0_2 t) scAcc0 (Memref.isWhole_whole _) scSq0 (Memref.isWhole_whole _) scCp0 (Memref.isWhole_whole _) _ _ (blk0 V c 0 t) (blk0 V c 1 t) xa xq xc

end Cert.KernelIdeal.Regions

end
-- ==== Proof.KI.Pieces1.lean ====
/-
  Call 1: what each control case of the body leaves in the buffers it stores into, as closed expressions in the
  body's arithmetic.

  The first point of a row stores the row block's squared norms and its copy (functions of the row block alone), zeroes
  the running sum, and adds the tile's sum to it; the tile's sum is computed from the column block, the copy and the
  squared norms as read back from the buffers just stored. Every later point adds its tile's sum, computed from its
  column block and the copy and squared norms handed to it, to the running sum handed to it; the last point also
  stores the new running sum into the output block. Each buffer is stored whole, so what it holds afterwards is the
  payload of its last store.
-/
import proofs.«105376_j19189913878688_2_alg».proof.Proof.KI.Data1
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 and of a rank-3 buffer, as constant functions. -/
theorem hz2_1 : (![0, 0] : Fin 2 → Nat) = fun _ => 0 := funext fun a => by fin_cases a <;> rfl
theorem hz3_1 : (![0, 0, 0] : Fin 3 → Nat) = fun _ => 0 := funext fun a => by fin_cases a <;> rfl

/-- The tile's sum added to a running sum: the body's last store, as a function of the point's coordinates, the
    column block, the copy and the squared norms of the row block, and the running sum. -/
def step1 (i : grid1.Coords) (x1 : Vec F S1024x256 .f32) (xc : Vec F S512x256 .bf16) (xq : Vec F S512x1 .f32)
    (xa : Vec F S1x1x1 .f32) : Vec F S1x1x1 .f32 :=
  k1_pay1 (BitVec.ofNat 32 (i 1).val) (k1_pay5 x1 xc xq) (iota .tc S512x1024 32 [0] iota_S512x1024_d0_w32) (k1_pay6 i) xa

/-! ## The pieces of each run, over any whole memrefs -/

/-- Case A, the squared norms: one whole store of the row block's squared norms. -/
theorem canonSqA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) :
    View.canon (runA1 c i arg2 harg2 arg3 harg3 arg4 harg4 arg5 harg5 arg6 harg6 arg7 harg7 hc0 hc1 x0 x1).2.1 = k1_pay3 x0 := by
  unfold runA1
  dsimp only
  sl_unfold_words
  rw [View.canon_unit_zero hz2_1]
  simp only [View.readAt_eq_ld, harg2.read_unread, View.ld_unit_zero (S := S512x256) hz2_1]

/-- Case A, the copy: one whole store of the row block's copy. -/
theorem canonCpA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) :
    View.canon (runA1 c i arg2 harg2 arg3 harg3 arg4 harg4 arg5 harg5 arg6 harg6 arg7 harg7 hc0 hc1 x0 x1).2.2.1 = k1_pay4 x0 := by
  unfold runA1
  dsimp only
  sl_unfold_words
  rw [View.canon_unit_zero hz2_1]
  simp only [View.readAt_eq_ld, harg2.read_unread, View.ld_unit_zero (S := S512x256) hz2_1]

/-- Case A, the running sum: zeroed, then the tile's sum added, the copy and the squared norms read back from the
    stores just made. -/
theorem canonAccA1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first1 i) (hc1 : ¬last1 i)
    (x0 : Vec F S512x256 .f32) (x1 : Vec F S1024x256 .f32) :
    View.canon (runA1 c i arg2 harg2 arg3 harg3 arg4 harg4 arg5 harg5 arg6 harg6 arg7 harg7 hc0 hc1 x0 x1).1
      = step1 i x1 (k1_pay4 x0) (k1_pay3 x0) (k1_pay2 (F := F)) := by
  unfold runA1
  dsimp only
  sl_unfold_words
  rw [View.canon_cons_unit_zero (S := S1x1x1) hz3_1, View.readCov_unit_zero (S := S512x256) _ hz2_1,
    View.readCov_unit_zero (S := S512x1) _ hz2_1, View.readCov_unit_zero (S := S1x1x1) _ hz3_1]
  simp only [View.readAt_eq_ld, harg2.read_unread, harg3.read_unread, View.ld_unit_zero (S := S512x256) hz2_1,
    View.ld_unit_zero (S := S1024x256) hz2_1]
  rfl

/-- Case B, the running sum: the tile's sum added to what the point was handed. -/
theorem canonAccB1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : ¬last1 i)
    (x0 : Vec F S512x256 .f32) (x1 : Vec F S1024x256 .f32) (xa : Vec F S1x1x1 .f32) (xq : Vec F S512x1 .f32) (xc : Vec F S512x256 .bf16) :
    View.canon (runB1 c i arg2 harg2 arg3 harg3 arg4 harg4 arg5 harg5 arg6 harg6 arg7 harg7 hc0 hc1 x0 x1 xa xq xc).1 = step1 i x1 xc xq xa := by
  unfold runB1
  dsimp only
  sl_unfold_words
  rw [View.canon_unit_zero (S := S1x1x1) hz3_1]
  simp only [View.readAt_eq_ld, harg3.read_unread, harg5.read_unread, harg6.read_unread, harg7.read_unread,
    View.ld_unit_zero (S := S1024x256) hz2_1, View.ld_unit_zero (S := S512x256) hz2_1,
    View.ld_unit_zero (S := S512x1) hz2_1, View.ld_unit_zero (S := S1x1x1) hz3_1]
  rfl

/-- Case C, the running sum: as in case B. -/
theorem canonAccC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) :
    View.canon (runC1 c i arg2 harg2 arg3 harg3 arg4 harg4 arg5 harg5 arg6 harg6 arg7 harg7 hc0 hc1 x0 x1 xa xq xc).2.1 = step1 i x1 xc xq xa := by
  unfold runC1
  dsimp only
  sl_unfold_words
  rw [View.canon_unit_zero (S := S1x1x1) hz3_1]
  simp only [View.readAt_eq_ld, harg3.read_unread, harg5.read_unread, harg6.read_unread, harg7.read_unread,
    View.ld_unit_zero (S := S1024x256) hz2_1, View.ld_unit_zero (S := S512x256) hz2_1,
    View.ld_unit_zero (S := S512x1) hz2_1, View.ld_unit_zero (S := S1x1x1) hz3_1]
  rfl

/-- Case C, the output block: the new running sum, read back. -/
theorem canonOutC1 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first1 i) (hc1 : last1 i)
    (x0 : Vec F S512x256 .f32) (x1 : Vec F S1024x256 .f32) (xa : Vec F S1x1x1 .f32) (xq : Vec F S512x1 .f32) (xc : Vec F S512x256 .bf16) :
    View.canon (runC1 c i arg2 harg2 arg3 harg3 arg4 harg4 arg5 harg5 arg6 harg6 arg7 harg7 hc0 hc1 x0 x1 xa xq xc).1 = step1 i x1 xc xq xa := by
  unfold runC1
  dsimp only
  sl_unfold_words
  rw [View.canon_unit_zero (S := S1x1x1) hz3_1, View.readCov_unit_zero (S := S1x1x1) _ hz3_1]
  simp only [View.readAt_eq_ld, harg3.read_unread, harg5.read_unread, harg6.read_unread, harg7.read_unread,
    View.ld_unit_zero (S := S1024x256) hz2_1, View.ld_unit_zero (S := S512x256) hz2_1,
    View.ld_unit_zero (S := S512x1) hz2_1, View.ld_unit_zero (S := S1x1x1) hz3_1]
  rfl

/-! ## The same at a grid point -/

variable (V : (c : Dev nD) → (b : Ref sig .tc) → Buf (Elt F) ((c : Thread nD τ).loc b))

theorem sqA1_eq (c : Dev nD) (t : Fin cfg1.N) (h0 : t.val % 8 = 0) :
    sqA1 V c t h0 = k1_pay3 (blk1 V c 0 t) := by
  unfold sqA1 atA1
  rw [View.read_writes_eq_canon _ _ _ (coverSqA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) ((hfirst1 t).mpr h0) (fun h => by have := (hlast1 t).mp h; omega) (blk1 V c 0 t) (blk1 V c 1 t))]
  exact canonSqA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t)

theorem cpA1_eq (c : Dev nD) (t : Fin cfg1.N) (h0 : t.val % 8 = 0) :
    cpA1 V c t h0 = k1_pay4 (blk1 V c 0 t) := by
  unfold cpA1 atA1
  rw [View.read_writes_eq_canon _ _ _ (coverCpA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) ((hfirst1 t).mpr h0) (fun h => by have := (hlast1 t).mp h; omega) (blk1 V c 0 t) (blk1 V c 1 t))]
  exact canonCpA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t)

theorem accA1_eq (c : Dev nD) (t : Fin cfg1.N) (h0 : t.val % 8 = 0) :
    accA1 V c t h0
      = step1 (grid1.coords t) (blk1 V c 1 t) (k1_pay4 (blk1 V c 0 t)) (k1_pay3 (blk1 V c 0 t)) (k1_pay2 (F := F)) := by
  unfold accA1 atA1
  rw [View.read_writes_eq_canon _ _ _ (coverAccA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) ((hfirst1 t).mpr h0) (fun h => by have := (hlast1 t).mp h; omega) (blk1 V c 0 t) (blk1 V c 1 t))]
  exact canonAccA1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t)

theorem accB1_eq (c : Dev nD) (t : Fin cfg1.N) (h0 : ¬t.val % 8 = 0) (h1 : ¬t.val % 8 = 7)
    (xa : Vec F S1x1x1 .f32) (xq : Vec F S512x1 .f32) (xc : Vec F S512x256 .bf16) :
    accB1 V c t h0 h1 xa xq xc = step1 (grid1.coords t) (blk1 V c 1 t) xc xq xa := by
  unfold accB1 atB1
  rw [View.read_writes_eq_canon _ _ _ (coverAccB1 c (grid1.coords t) (ms1_0 t) (hs1_0 t) (ms1_1 t) (hs1_1 t) (ms1_2 t) (hs1_2 t) scAcc1 (Memref.isWhole_whole _) scSq1 (Memref.isWhole_whole _) scCp1 (Memref.isWhole_whole _) (fun h => h0 ((hfirst1 t).mp h)) (fun h => h1 ((hlast1 t).mp h)) (blk1 V c 0 t) (blk1 V c 1 t) xa xq xc)]
  exact canonAccB1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t) xa xq xc

theorem accC1_eq (c : Dev nD) (t : Fin cfg1.N) (h0 : ¬t.val % 8 = 0) (h1 : t.val % 8 = 7)
    (xa : Vec F S1x1x1 .f32) (xq : Vec F S512x1 .f32) (xc : Vec F S512x256 .bf16) :
    accC1 V c t h0 h1 xa xq xc = step1 (grid1.coords t) (blk1 V c 1 t) xc xq xa := by
  unfold accC1 atC1
  rw [View.read_writes_eq_canon _ _ _ (coverAccC1 c (grid1.coords t) (ms1_0 t) (hs1_0 t) (ms1_1 t) (hs1_1 t) (ms1_2 t) (hs1_2 t) scAcc1 (Memref.isWhole_whole _) scSq1 (Memref.isWhole_whole _) scCp1 (Memref.isWhole_whole _) (fun h => h0 ((hfirst1 t).mp h)) ((hlast1 t).mpr h1) (blk1 V c 0 t) (blk1 V c 1 t) xa xq xc)]
  exact canonAccC1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t) xa xq xc

theorem outC1_eq (c : Dev nD) (t : Fin cfg1.N) (h0 : ¬t.val % 8 = 0) (h1 : t.val % 8 = 7)
    (xa : Vec F S1x1x1 .f32) (xq : Vec F S512x1 .f32) (xc : Vec F S512x256 .bf16) :
    outC1 V c t h0 h1 xa xq xc = accC1 V c t h0 h1 xa xq xc := by
  rw [accC1_eq]
  unfold outC1 atC1
  rw [View.read_writes_eq_canon _ _ _ (coverOutC1 c (grid1.coords t) (ms1_0 t) (hs1_0 t) (ms1_1 t) (hs1_1 t) (ms1_2 t) (hs1_2 t) scAcc1 (Memref.isWhole_whole _) scSq1 (Memref.isWhole_whole _) scCp1 (Memref.isWhole_whole _) (fun h => h0 ((hfirst1 t).mp h)) ((hlast1 t).mpr h1) (blk1 V c 0 t) (blk1 V c 1 t) xa xq xc)]
  exact canonOutC1 c (grid1.coords t) (ms1_0 t) (hs1_0 t) (ms1_1 t) (hs1_1 t) (ms1_2 t) (hs1_2 t) scAcc1 (Memref.isWhole_whole _) scSq1 (Memref.isWhole_whole _) scCp1 (Memref.isWhole_whole _) _ _ (blk1 V c 0 t) (blk1 V c 1 t) xa xq xc

end Cert.KernelIdeal.Regions

end
-- ==== Proof.KI.Pieces2.lean ====
/-
  Call 2: what each control case of the body leaves in the buffers it stores into, as closed expressions in the
  body's arithmetic.

  The first point of a row stores the row block's squared norms and its copy (functions of the row block alone), zeroes
  the running sum, and adds the tile's sum to it; the tile's sum is computed from the column block, the copy and the
  squared norms as read back from the buffers just stored. Every later point adds its tile's sum, computed from its
  column block and the copy and squared norms handed to it, to the running sum handed to it; the last point also
  stores the new running sum into the output block. Each buffer is stored whole, so what it holds afterwards is the
  payload of its last store.
-/
import proofs.«105376_j19189913878688_2_alg».proof.Proof.KI.Data2
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 and of a rank-3 buffer, as constant functions. -/
theorem hz2_2 : (![0, 0] : Fin 2 → Nat) = fun _ => 0 := funext fun a => by fin_cases a <;> rfl
theorem hz3_2 : (![0, 0, 0] : Fin 3 → Nat) = fun _ => 0 := funext fun a => by fin_cases a <;> rfl

/-- The tile's sum added to a running sum: the body's last store, as a function of the column block, the copy and
    the squared norms of the row block, and the running sum (this call has no diagonal to force, so the point's
    coordinates do not enter). -/
def step2 (x1 : Vec F S1024x256 .f32) (xc : Vec F S512x256 .bf16) (xq : Vec F S512x1 .f32)
    (xa : Vec F S1x1x1 .f32) : Vec F S1x1x1 .f32 :=
  k2_pay1 (k2_pay5 x1 xc xq) xa

/-! ## The pieces of each run, over any whole memrefs -/

/-- Case A, the squared norms: one whole store of the row block's squared norms. -/
theorem canonSqA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) :
    View.canon (runA2 c i arg2 harg2 arg3 harg3 arg4 harg4 arg5 harg5 arg6 harg6 arg7 harg7 hc0 hc1 x0 x1).2.1 = k2_pay3 x0 := by
  unfold runA2
  dsimp only
  sl_unfold_words
  rw [View.canon_unit_zero hz2_2]
  simp only [View.readAt_eq_ld, harg2.read_unread, View.ld_unit_zero (S := S512x256) hz2_2]

/-- Case A, the copy: one whole store of the row block's copy. -/
theorem canonCpA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) :
    View.canon (runA2 c i arg2 harg2 arg3 harg3 arg4 harg4 arg5 harg5 arg6 harg6 arg7 harg7 hc0 hc1 x0 x1).2.2.1 = k2_pay4 x0 := by
  unfold runA2
  dsimp only
  sl_unfold_words
  rw [View.canon_unit_zero hz2_2]
  simp only [View.readAt_eq_ld, harg2.read_unread, View.ld_unit_zero (S := S512x256) hz2_2]

/-- Case A, the running sum: zeroed, then the tile's sum added, the copy and the squared norms read back from the
    stores just made. -/
theorem canonAccA2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : first2 i) (hc1 : ¬last2 i)
    (x0 : Vec F S512x256 .f32) (x1 : Vec F S1024x256 .f32) :
    View.canon (runA2 c i arg2 harg2 arg3 harg3 arg4 harg4 arg5 harg5 arg6 harg6 arg7 harg7 hc0 hc1 x0 x1).1
      = step2 x1 (k2_pay4 x0) (k2_pay3 x0) (k2_pay2 (F := F)) := by
  unfold runA2
  dsimp only
  sl_unfold_words
  rw [View.canon_cons_unit_zero (S := S1x1x1) hz3_2, View.readCov_unit_zero (S := S512x256) _ hz2_2,
    View.readCov_unit_zero (S := S512x1) _ hz2_2, View.readCov_unit_zero (S := S1x1x1) _ hz3_2]
  simp only [View.readAt_eq_ld, harg2.read_unread, harg3.read_unread, View.ld_unit_zero (S := S512x256) hz2_2,
    View.ld_unit_zero (S := S1024x256) hz2_2]
  rfl

/-- Case B, the running sum: the tile's sum added to what the point was handed. -/
theorem canonAccB2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : ¬last2 i)
    (x0 : Vec F S512x256 .f32) (x1 : Vec F S1024x256 .f32) (xa : Vec F S1x1x1 .f32) (xq : Vec F S512x1 .f32) (xc : Vec F S512x256 .bf16) :
    View.canon (runB2 c i arg2 harg2 arg3 harg3 arg4 harg4 arg5 harg5 arg6 harg6 arg7 harg7 hc0 hc1 x0 x1 xa xq xc).1 = step2 x1 xc xq xa := by
  unfold runB2
  dsimp only
  sl_unfold_words
  rw [View.canon_unit_zero (S := S1x1x1) hz3_2]
  simp only [View.readAt_eq_ld, harg3.read_unread, harg5.read_unread, harg6.read_unread, harg7.read_unread,
    View.ld_unit_zero (S := S1024x256) hz2_2, View.ld_unit_zero (S := S512x256) hz2_2,
    View.ld_unit_zero (S := S512x1) hz2_2, View.ld_unit_zero (S := S1x1x1) hz3_2]
  rfl

/-- Case C, the running sum: as in case B. -/
theorem canonAccC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) :
    View.canon (runC2 c i arg2 harg2 arg3 harg3 arg4 harg4 arg5 harg5 arg6 harg6 arg7 harg7 hc0 hc1 x0 x1 xa xq xc).2.1 = step2 x1 xc xq xa := by
  unfold runC2
  dsimp only
  sl_unfold_words
  rw [View.canon_unit_zero (S := S1x1x1) hz3_2]
  simp only [View.readAt_eq_ld, harg3.read_unread, harg5.read_unread, harg6.read_unread, harg7.read_unread,
    View.ld_unit_zero (S := S1024x256) hz2_2, View.ld_unit_zero (S := S512x256) hz2_2,
    View.ld_unit_zero (S := S512x1) hz2_2, View.ld_unit_zero (S := S1x1x1) hz3_2]
  rfl

/-- Case C, the output block: the new running sum, read back. -/
theorem canonOutC2 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S512x1 .f32) (harg6 : arg6.IsWhole) (arg7 : Memref sig .tc .vmem S512x256 .bf16) (harg7 : arg7.IsWhole) (hc0 : ¬first2 i) (hc1 : last2 i)
    (x0 : Vec F S512x256 .f32) (x1 : Vec F S1024x256 .f32) (xa : Vec F S1x1x1 .f32) (xq : Vec F S512x1 .f32) (xc : Vec F S512x256 .bf16) :
    View.canon (runC2 c i arg2 harg2 arg3 harg3 arg4 harg4 arg5 harg5 arg6 harg6 arg7 harg7 hc0 hc1 x0 x1 xa xq xc).1 = step2 x1 xc xq xa := by
  unfold runC2
  dsimp only
  sl_unfold_words
  rw [View.canon_unit_zero (S := S1x1x1) hz3_2, View.readCov_unit_zero (S := S1x1x1) _ hz3_2]
  simp only [View.readAt_eq_ld, harg3.read_unread, harg5.read_unread, harg6.read_unread, harg7.read_unread,
    View.ld_unit_zero (S := S1024x256) hz2_2, View.ld_unit_zero (S := S512x256) hz2_2,
    View.ld_unit_zero (S := S512x1) hz2_2, View.ld_unit_zero (S := S1x1x1) hz3_2]
  rfl

/-! ## The same at a grid point -/

variable (V : (c : Dev nD) → (b : Ref sig .tc) → Buf (Elt F) ((c : Thread nD τ).loc b))

theorem sqA2_eq (c : Dev nD) (t : Fin cfg2.N) (h0 : t.val % 8 = 0) :
    sqA2 V c t h0 = k2_pay3 (blk2 V c 0 t) := by
  unfold sqA2 atA2
  rw [View.read_writes_eq_canon _ _ _ (coverSqA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) ((hfirst2 t).mpr h0) (fun h => by have := (hlast2 t).mp h; omega) (blk2 V c 0 t) (blk2 V c 1 t))]
  exact canonSqA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t)

theorem cpA2_eq (c : Dev nD) (t : Fin cfg2.N) (h0 : t.val % 8 = 0) :
    cpA2 V c t h0 = k2_pay4 (blk2 V c 0 t) := by
  unfold cpA2 atA2
  rw [View.read_writes_eq_canon _ _ _ (coverCpA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) ((hfirst2 t).mpr h0) (fun h => by have := (hlast2 t).mp h; omega) (blk2 V c 0 t) (blk2 V c 1 t))]
  exact canonCpA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t)

theorem accA2_eq (c : Dev nD) (t : Fin cfg2.N) (h0 : t.val % 8 = 0) :
    accA2 V c t h0
      = step2 (blk2 V c 1 t) (k2_pay4 (blk2 V c 0 t)) (k2_pay3 (blk2 V c 0 t)) (k2_pay2 (F := F)) := by
  unfold accA2 atA2
  rw [View.read_writes_eq_canon _ _ _ (coverAccA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) ((hfirst2 t).mpr h0) (fun h => by have := (hlast2 t).mp h; omega) (blk2 V c 0 t) (blk2 V c 1 t))]
  exact canonAccA2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t)

theorem accB2_eq (c : Dev nD) (t : Fin cfg2.N) (h0 : ¬t.val % 8 = 0) (h1 : ¬t.val % 8 = 7)
    (xa : Vec F S1x1x1 .f32) (xq : Vec F S512x1 .f32) (xc : Vec F S512x256 .bf16) :
    accB2 V c t h0 h1 xa xq xc = step2 (blk2 V c 1 t) xc xq xa := by
  unfold accB2 atB2
  rw [View.read_writes_eq_canon _ _ _ (coverAccB2 c (grid2.coords t) (ms2_0 t) (hs2_0 t) (ms2_1 t) (hs2_1 t) (ms2_2 t) (hs2_2 t) scAcc2 (Memref.isWhole_whole _) scSq2 (Memref.isWhole_whole _) scCp2 (Memref.isWhole_whole _) (fun h => h0 ((hfirst2 t).mp h)) (fun h => h1 ((hlast2 t).mp h)) (blk2 V c 0 t) (blk2 V c 1 t) xa xq xc)]
  exact canonAccB2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t) xa xq xc

theorem accC2_eq (c : Dev nD) (t : Fin cfg2.N) (h0 : ¬t.val % 8 = 0) (h1 : t.val % 8 = 7)
    (xa : Vec F S1x1x1 .f32) (xq : Vec F S512x1 .f32) (xc : Vec F S512x256 .bf16) :
    accC2 V c t h0 h1 xa xq xc = step2 (blk2 V c 1 t) xc xq xa := by
  unfold accC2 atC2
  rw [View.read_writes_eq_canon _ _ _ (coverAccC2 c (grid2.coords t) (ms2_0 t) (hs2_0 t) (ms2_1 t) (hs2_1 t) (ms2_2 t) (hs2_2 t) scAcc2 (Memref.isWhole_whole _) scSq2 (Memref.isWhole_whole _) scCp2 (Memref.isWhole_whole _) (fun h => h0 ((hfirst2 t).mp h)) ((hlast2 t).mpr h1) (blk2 V c 0 t) (blk2 V c 1 t) xa xq xc)]
  exact canonAccC2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t) xa xq xc

theorem outC2_eq (c : Dev nD) (t : Fin cfg2.N) (h0 : ¬t.val % 8 = 0) (h1 : t.val % 8 = 7)
    (xa : Vec F S1x1x1 .f32) (xq : Vec F S512x1 .f32) (xc : Vec F S512x256 .bf16) :
    outC2 V c t h0 h1 xa xq xc = accC2 V c t h0 h1 xa xq xc := by
  rw [accC2_eq]
  unfold outC2 atC2
  rw [View.read_writes_eq_canon _ _ _ (coverOutC2 c (grid2.coords t) (ms2_0 t) (hs2_0 t) (ms2_1 t) (hs2_1 t) (ms2_2 t) (hs2_2 t) scAcc2 (Memref.isWhole_whole _) scSq2 (Memref.isWhole_whole _) scCp2 (Memref.isWhole_whole _) (fun h => h0 ((hfirst2 t).mp h)) ((hlast2 t).mpr h1) (blk2 V c 0 t) (blk2 V c 1 t) xa xq xc)]
  exact canonOutC2 c (grid2.coords t) (ms2_0 t) (hs2_0 t) (ms2_1 t) (hs2_1 t) (ms2_2 t) (hs2_2 t) scAcc2 (Memref.isWhole_whole _) scSq2 (Memref.isWhole_whole _) scCp2 (Memref.isWhole_whole _) _ _ (blk2 V c 0 t) (blk2 V c 1 t) xa xq xc

end Cert.KernelIdeal.Regions

end
-- ==== Proof.KI.Closed0.lean ====
/-
  Call 0: what its buffers hold after each grid point, in closed form.

  The points of the grid are walked in rows of eight. Along row q the running sum after the row's point j is a left
  fold: the first point starts from the zeroed accumulator and adds its tile's sum, every later point adds its own tile's
  sum to what the point before left. The squared norms and the copy of the row block are stored by the row's first point
  and never change within the row. The row's last point also leaves the running sum in the output block.
-/
import proofs.«105376_j19189913878688_2_alg».proof.Proof.KI.Pieces0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The running sum along row q of the grid: the first point starts from the zeroed accumulator, each later point adds
    its tile; the squared norms and the copy are those of the row's first point. -/
def rowFold0 (c : Dev nD) (q : ℕ) : (j : ℕ) → 8 * q + j < cfg0.N → Vec F S1x1x1 .f32
  | 0, h => step0 (grid0.coords ⟨8 * q + 0, h⟩) (blk0 V c 1 ⟨8 * q + 0, h⟩) (k0_pay4 (blk0 V c 0 ⟨8 * q + 0, h⟩))
      (k0_pay3 (blk0 V c 0 ⟨8 * q + 0, h⟩)) (k0_pay2 (F := F))
  | j + 1, h => step0 (grid0.coords ⟨8 * q + (j + 1), h⟩) (blk0 V c 1 ⟨8 * q + (j + 1), h⟩)
      (k0_pay4 (blk0 V c 0 ⟨8 * q, by omega⟩)) (k0_pay3 (blk0 V c 0 ⟨8 * q, by omega⟩)) (rowFold0 c q j (by omega))

/-- The contents after a point depend on the point's number only. -/
theorem stateAt0_congr (c : Dev nD) {n n' : ℕ} (e : n = n') (hn : n < cfg0.N) (hn' : n' < cfg0.N) :
    stateAt0 V c n hn = stateAt0 V c n' hn' := by
  subst e; rfl

/-- After point j of row q: the running sum is the fold, the squared norms and the copy are the row block's. -/
theorem stateAt0_closed (c : Dev nD) (q j : ℕ) (hj : j < 8) (h : 8 * q + j < cfg0.N) :
    (stateAt0 V c (8 * q + j) h).2.1 = rowFold0 V c q j h
    ∧ (stateAt0 V c (8 * q + j) h).2.2.1 = k0_pay3 (blk0 V c 0 ⟨8 * q, by omega⟩)
    ∧ (stateAt0 V c (8 * q + j) h).2.2.2 = k0_pay4 (blk0 V c 0 ⟨8 * q, by omega⟩) := by
  induction j with
  | zero =>
    have h0 : (⟨8 * q + 0, h⟩ : Fin cfg0.N).val % 8 = 0 := by show (8 * q + 0) % 8 = 0; omega
    have ht : (⟨8 * q + 0, h⟩ : Fin cfg0.N) = ⟨8 * q, by omega⟩ := Fin.ext (Nat.add_zero _)
    have e := stateAt0_A V c ⟨8 * q + 0, h⟩ h0
    have e' : stateAt0 V c (8 * q + 0) h = _ := e
    rw [rowFold0, e']
    dsimp only
    exact ⟨accA0_eq V c ⟨8 * q + 0, h⟩ h0,
      (sqA0_eq V c ⟨8 * q + 0, h⟩ h0).trans (congrArg (fun t => k0_pay3 (blk0 V c 0 t)) ht),
      (cpA0_eq V c ⟨8 * q + 0, h⟩ h0).trans (congrArg (fun t => k0_pay4 (blk0 V c 0 t)) ht)⟩
  | succ j ih =>
    have hprev : 8 * q + j < cfg0.N := by omega
    obtain ⟨ia, iq, ic⟩ := ih (by omega) hprev
    have h0 : ¬(⟨8 * q + (j + 1), h⟩ : Fin cfg0.N).val % 8 = 0 := by show ¬(8 * q + (j + 1)) % 8 = 0; omega
    have hp : ∀ hh, stateAt0 V c ((⟨8 * q + (j + 1), h⟩ : Fin cfg0.N).val - 1) hh = stateAt0 V c (8 * q + j) hprev :=
      fun hh => stateAt0_congr V c (by show 8 * q + (j + 1) - 1 = 8 * q + j; omega) hh hprev
    rw [rowFold0]
    by_cases h1 : (⟨8 * q + (j + 1), h⟩ : Fin cfg0.N).val % 8 = 7
    · have e := stateAt0_C V c ⟨8 * q + (j + 1), h⟩ h0 h1
      simp only [hp] at e
      have e' : stateAt0 V c (8 * q + (j + 1)) h = _ := e
      rw [e']
      dsimp only
      refine ⟨?_, iq, ic⟩
      rw [accC0_eq, ia, iq, ic]
    · have e := stateAt0_B V c ⟨8 * q + (j + 1), h⟩ h0 h1
      simp only [hp] at e
      have e' : stateAt0 V c (8 * q + (j + 1)) h = _ := e
      rw [e']
      dsimp only
      refine ⟨?_, iq, ic⟩
      rw [accB0_eq, ia, iq, ic]

/-- After the last point of row q the output block holds the row's whole fold. -/
theorem out0_closed (c : Dev nD) (q : ℕ) (h : 8 * q + 7 < cfg0.N) :
    (stateAt0 V c (8 * q + 7) h).1 = rowFold0 V c q 7 h := by
  have h0 : ¬(⟨8 * q + 7, h⟩ : Fin cfg0.N).val % 8 = 0 := by show ¬(8 * q + 7) % 8 = 0; omega
  have h1 : (⟨8 * q + 7, h⟩ : Fin cfg0.N).val % 8 = 7 := by show (8 * q + 7) % 8 = 7; omega
  have e := stateAt0_C V c ⟨8 * q + 7, h⟩ h0 h1
  have e' : stateAt0 V c (8 * q + 7) h = _ := e
  have ha := (stateAt0_closed V c q 7 (by omega) h).1
  rw [e'] at ha ⊢
  dsimp only at ha ⊢
  rw [outC0_eq]
  exact ha

end Cert.KernelIdeal.Regions

end
-- ==== Proof.KI.Closed1.lean ====
/-
  Call 1: what its buffers hold after each grid point, in closed form.

  The points of the grid are walked in rows of eight. Along row q the running sum after the row's point j is a left
  fold: the first point starts from the zeroed accumulator and adds its tile's sum, every later point adds its own tile's
  sum to what the point before left. The squared norms and the copy of the row block are stored by the row's first point
  and never change within the row. The row's last point also leaves the running sum in the output block.
-/
import proofs.«105376_j19189913878688_2_alg».proof.Proof.KI.Pieces1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The running sum along row q of the grid: the first point starts from the zeroed accumulator, each later point adds
    its tile; the squared norms and the copy are those of the row's first point. -/
def rowFold1 (c : Dev nD) (q : ℕ) : (j : ℕ) → 8 * q + j < cfg1.N → Vec F S1x1x1 .f32
  | 0, h => step1 (grid1.coords ⟨8 * q + 0, h⟩) (blk1 V c 1 ⟨8 * q + 0, h⟩) (k1_pay4 (blk1 V c 0 ⟨8 * q + 0, h⟩))
      (k1_pay3 (blk1 V c 0 ⟨8 * q + 0, h⟩)) (k1_pay2 (F := F))
  | j + 1, h => step1 (grid1.coords ⟨8 * q + (j + 1), h⟩) (blk1 V c 1 ⟨8 * q + (j + 1), h⟩)
      (k1_pay4 (blk1 V c 0 ⟨8 * q, by omega⟩)) (k1_pay3 (blk1 V c 0 ⟨8 * q, by omega⟩)) (rowFold1 c q j (by omega))

/-- The contents after a point depend on the point's number only. -/
theorem stateAt1_congr (c : Dev nD) {n n' : ℕ} (e : n = n') (hn : n < cfg1.N) (hn' : n' < cfg1.N) :
    stateAt1 V c n hn = stateAt1 V c n' hn' := by
  subst e; rfl

/-- After point j of row q: the running sum is the fold, the squared norms and the copy are the row block's. -/
theorem stateAt1_closed (c : Dev nD) (q j : ℕ) (hj : j < 8) (h : 8 * q + j < cfg1.N) :
    (stateAt1 V c (8 * q + j) h).2.1 = rowFold1 V c q j h
    ∧ (stateAt1 V c (8 * q + j) h).2.2.1 = k1_pay3 (blk1 V c 0 ⟨8 * q, by omega⟩)
    ∧ (stateAt1 V c (8 * q + j) h).2.2.2 = k1_pay4 (blk1 V c 0 ⟨8 * q, by omega⟩) := by
  induction j with
  | zero =>
    have h0 : (⟨8 * q + 0, h⟩ : Fin cfg1.N).val % 8 = 0 := by show (8 * q + 0) % 8 = 0; omega
    have ht : (⟨8 * q + 0, h⟩ : Fin cfg1.N) = ⟨8 * q, by omega⟩ := Fin.ext (Nat.add_zero _)
    have e := stateAt1_A V c ⟨8 * q + 0, h⟩ h0
    have e' : stateAt1 V c (8 * q + 0) h = _ := e
    rw [rowFold1, e']
    dsimp only
    exact ⟨accA1_eq V c ⟨8 * q + 0, h⟩ h0,
      (sqA1_eq V c ⟨8 * q + 0, h⟩ h0).trans (congrArg (fun t => k1_pay3 (blk1 V c 0 t)) ht),
      (cpA1_eq V c ⟨8 * q + 0, h⟩ h0).trans (congrArg (fun t => k1_pay4 (blk1 V c 0 t)) ht)⟩
  | succ j ih =>
    have hprev : 8 * q + j < cfg1.N := by omega
    obtain ⟨ia, iq, ic⟩ := ih (by omega) hprev
    have h0 : ¬(⟨8 * q + (j + 1), h⟩ : Fin cfg1.N).val % 8 = 0 := by show ¬(8 * q + (j + 1)) % 8 = 0; omega
    have hp : ∀ hh, stateAt1 V c ((⟨8 * q + (j + 1), h⟩ : Fin cfg1.N).val - 1) hh = stateAt1 V c (8 * q + j) hprev :=
      fun hh => stateAt1_congr V c (by show 8 * q + (j + 1) - 1 = 8 * q + j; omega) hh hprev
    rw [rowFold1]
    by_cases h1 : (⟨8 * q + (j + 1), h⟩ : Fin cfg1.N).val % 8 = 7
    · have e := stateAt1_C V c ⟨8 * q + (j + 1), h⟩ h0 h1
      simp only [hp] at e
      have e' : stateAt1 V c (8 * q + (j + 1)) h = _ := e
      rw [e']
      dsimp only
      refine ⟨?_, iq, ic⟩
      rw [accC1_eq, ia, iq, ic]
    · have e := stateAt1_B V c ⟨8 * q + (j + 1), h⟩ h0 h1
      simp only [hp] at e
      have e' : stateAt1 V c (8 * q + (j + 1)) h = _ := e
      rw [e']
      dsimp only
      refine ⟨?_, iq, ic⟩
      rw [accB1_eq, ia, iq, ic]

/-- After the last point of row q the output block holds the row's whole fold. -/
theorem out1_closed (c : Dev nD) (q : ℕ) (h : 8 * q + 7 < cfg1.N) :
    (stateAt1 V c (8 * q + 7) h).1 = rowFold1 V c q 7 h := by
  have h0 : ¬(⟨8 * q + 7, h⟩ : Fin cfg1.N).val % 8 = 0 := by show ¬(8 * q + 7) % 8 = 0; omega
  have h1 : (⟨8 * q + 7, h⟩ : Fin cfg1.N).val % 8 = 7 := by show (8 * q + 7) % 8 = 7; omega
  have e := stateAt1_C V c ⟨8 * q + 7, h⟩ h0 h1
  have e' : stateAt1 V c (8 * q + 7) h = _ := e
  have ha := (stateAt1_closed V c q 7 (by omega) h).1
  rw [e'] at ha ⊢
  dsimp only at ha ⊢
  rw [outC1_eq]
  exact ha

end Cert.KernelIdeal.Regions

end
-- ==== Proof.KI.Closed2.lean ====
/-
  Call 2: what its buffers hold after each grid point, in closed form.

  The points of the grid are walked in rows of eight. Along row q the running sum after the row's point j is a left
  fold: the first point starts from the zeroed accumulator and adds its tile's sum, every later point adds its own tile's
  sum to what the point before left. The squared norms and the copy of the row block are stored by the row's first point
  and never change within the row. The row's last point also leaves the running sum in the output block.
-/
import proofs.«105376_j19189913878688_2_alg».proof.Proof.KI.Pieces2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The running sum along row q of the grid: the first point starts from the zeroed accumulator, each later point adds
    its tile; the squared norms and the copy are those of the row's first point. -/
def rowFold2 (c : Dev nD) (q : ℕ) : (j : ℕ) → 8 * q + j < cfg2.N → Vec F S1x1x1 .f32
  | 0, h => step2 (blk2 V c 1 ⟨8 * q + 0, h⟩) (k2_pay4 (blk2 V c 0 ⟨8 * q + 0, h⟩))
      (k2_pay3 (blk2 V c 0 ⟨8 * q + 0, h⟩)) (k2_pay2 (F := F))
  | j + 1, h => step2 (blk2 V c 1 ⟨8 * q + (j + 1), h⟩)
      (k2_pay4 (blk2 V c 0 ⟨8 * q, by omega⟩)) (k2_pay3 (blk2 V c 0 ⟨8 * q, by omega⟩)) (rowFold2 c q j (by omega))

/-- The contents after a point depend on the point's number only. -/
theorem stateAt2_congr (c : Dev nD) {n n' : ℕ} (e : n = n') (hn : n < cfg2.N) (hn' : n' < cfg2.N) :
    stateAt2 V c n hn = stateAt2 V c n' hn' := by
  subst e; rfl

/-- After point j of row q: the running sum is the fold, the squared norms and the copy are the row block's. -/
theorem stateAt2_closed (c : Dev nD) (q j : ℕ) (hj : j < 8) (h : 8 * q + j < cfg2.N) :
    (stateAt2 V c (8 * q + j) h).2.1 = rowFold2 V c q j h
    ∧ (stateAt2 V c (8 * q + j) h).2.2.1 = k2_pay3 (blk2 V c 0 ⟨8 * q, by omega⟩)
    ∧ (stateAt2 V c (8 * q + j) h).2.2.2 = k2_pay4 (blk2 V c 0 ⟨8 * q, by omega⟩) := by
  induction j with
  | zero =>
    have h0 : (⟨8 * q + 0, h⟩ : Fin cfg2.N).val % 8 = 0 := by show (8 * q + 0) % 8 = 0; omega
    have ht : (⟨8 * q + 0, h⟩ : Fin cfg2.N) = ⟨8 * q, by omega⟩ := Fin.ext (Nat.add_zero _)
    have e := stateAt2_A V c ⟨8 * q + 0, h⟩ h0
    have e' : stateAt2 V c (8 * q + 0) h = _ := e
    rw [rowFold2, e']
    dsimp only
    exact ⟨accA2_eq V c ⟨8 * q + 0, h⟩ h0,
      (sqA2_eq V c ⟨8 * q + 0, h⟩ h0).trans (congrArg (fun t => k2_pay3 (blk2 V c 0 t)) ht),
      (cpA2_eq V c ⟨8 * q + 0, h⟩ h0).trans (congrArg (fun t => k2_pay4 (blk2 V c 0 t)) ht)⟩
  | succ j ih =>
    have hprev : 8 * q + j < cfg2.N := by omega
    obtain ⟨ia, iq, ic⟩ := ih (by omega) hprev
    have h0 : ¬(⟨8 * q + (j + 1), h⟩ : Fin cfg2.N).val % 8 = 0 := by show ¬(8 * q + (j + 1)) % 8 = 0; omega
    have hp : ∀ hh, stateAt2 V c ((⟨8 * q + (j + 1), h⟩ : Fin cfg2.N).val - 1) hh = stateAt2 V c (8 * q + j) hprev :=
      fun hh => stateAt2_congr V c (by show 8 * q + (j + 1) - 1 = 8 * q + j; omega) hh hprev
    rw [rowFold2]
    by_cases h1 : (⟨8 * q + (j + 1), h⟩ : Fin cfg2.N).val % 8 = 7
    · have e := stateAt2_C V c ⟨8 * q + (j + 1), h⟩ h0 h1
      simp only [hp] at e
      have e' : stateAt2 V c (8 * q + (j + 1)) h = _ := e
      rw [e']
      dsimp only
      refine ⟨?_, iq, ic⟩
      rw [accC2_eq, ia, iq, ic]
    · have e := stateAt2_B V c ⟨8 * q + (j + 1), h⟩ h0 h1
      simp only [hp] at e
      have e' : stateAt2 V c (8 * q + (j + 1)) h = _ := e
      rw [e']
      dsimp only
      refine ⟨?_, iq, ic⟩
      rw [accB2_eq, ia, iq, ic]

/-- After the last point of row q the output block holds the row's whole fold. -/
theorem out2_closed (c : Dev nD) (q : ℕ) (h : 8 * q + 7 < cfg2.N) :
    (stateAt2 V c (8 * q + 7) h).1 = rowFold2 V c q 7 h := by
  have h0 : ¬(⟨8 * q + 7, h⟩ : Fin cfg2.N).val % 8 = 0 := by show ¬(8 * q + 7) % 8 = 0; omega
  have h1 : (⟨8 * q + 7, h⟩ : Fin cfg2.N).val % 8 = 7 := by show (8 * q + 7) % 8 = 7; omega
  have e := stateAt2_C V c ⟨8 * q + 7, h⟩ h0 h1
  have e' : stateAt2 V c (8 * q + 7) h = _ := e
  have ha := (stateAt2_closed V c q 7 (by omega) h).1
  rw [e'] at ha ⊢
  dsimp only at ha ⊢
  rw [outC2_eq]
  exact ha

end Cert.KernelIdeal.Regions

end
-- ==== Proof.KI.Blocks.lean ====
/-
  The windows' blocks read at an entry: at grid point t (row t / 8, column t mod 8 of the 16 x 8 grid) the first
  window's block is rows 512 (t / 8) … 512 (t / 8) + 511 of its array and the second's rows 1024 (t mod 8) … of its array.
-/
import proofs.«105376_j19189913878688_2_alg».proof.Proof.KI.Data0
import proofs.«105376_j19189913878688_2_alg».proof.Proof.KI.Data1
import proofs.«105376_j19189913878688_2_alg».proof.Proof.KI.Data2
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (V : (c : Dev nD) → (b : Ref sig .tc) → Buf (Elt F) ((c : Thread nD τ).loc b))

/-! ## Call 0 -/

theorem coords0 : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem idx0_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The first window's block at point t is rows 512 (t / 8) … of its array. -/
theorem blk0_0_apply (c : Dev nD) (t : Fin cfg0.N) (r : Fin 512) (k : Fin 256) :
    (blk0 V c 0 t : Vec F S512x256 .f32) (ix2 r k)
      = (V c main_arg0 : Vec F S8192x256 .f32) (ix2 ⟨512 * (t.val / 8) + r.val, by have := lt_of_lt_of_eq t.isLt N_0; omega⟩ k) := by
  have hi := idx0_0 t
  unfold blk0
  rw [View.read_apply]
  show (V c main_arg0 : Vec F S8192x256 .f32) _ = _
  refine congrArg _ (funext fun a => Fin.ext ?_)
  match a with
  | ⟨0, _⟩ => show win0_0.index t 0 * 512 + 1 * r.val = 512 * (t.val / 8) + r.val; rw [hi.1]; omega
  | ⟨1, _⟩ => show win0_0.index t 1 * 256 + 1 * k.val = k.val; rw [hi.2]; omega

/-- The second window's block at point t is rows 1024 (t mod 8) … of its array. -/
theorem blk0_1_apply (c : Dev nD) (t : Fin cfg0.N) (r : Fin 1024) (k : Fin 256) :
    (blk0 V c 1 t : Vec F S1024x256 .f32) (ix2 r k)
      = (V c main_arg0 : Vec F S8192x256 .f32) (ix2 ⟨1024 * (t.val % 8) + r.val, by omega⟩ k) := by
  have hi := idx0_1 t
  unfold blk0
  rw [View.read_apply]
  show (V c main_arg0 : Vec F S8192x256 .f32) _ = _
  refine congrArg _ (funext fun a => Fin.ext ?_)
  match a with
  | ⟨0, _⟩ => show win0_1.index t 0 * 1024 + 1 * r.val = 1024 * (t.val % 8) + r.val; rw [hi.1]; omega
  | ⟨1, _⟩ => show win0_1.index t 1 * 256 + 1 * k.val = k.val; rw [hi.2]; omega

/-! ## Call 1 -/

theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)

/-- The first window's block at point t is rows 512 (t / 8) … of its array. -/
theorem blk1_0_apply (c : Dev nD) (t : Fin cfg1.N) (r : Fin 512) (k : Fin 256) :
    (blk1 V c 0 t : Vec F S512x256 .f32) (ix2 r k)
      = (V c main_arg1 : Vec F S8192x256 .f32) (ix2 ⟨512 * (t.val / 8) + r.val, by have := lt_of_lt_of_eq t.isLt N_1; omega⟩ k) := by
  have hi := idx1_0 t
  unfold blk1
  rw [View.read_apply]
  show (V c main_arg1 : Vec F S8192x256 .f32) _ = _
  refine congrArg _ (funext fun a => Fin.ext ?_)
  match a with
  | ⟨0, _⟩ => show win1_0.index t 0 * 512 + 1 * r.val = 512 * (t.val / 8) + r.val; rw [hi.1]; omega
  | ⟨1, _⟩ => show win1_0.index t 1 * 256 + 1 * k.val = k.val; rw [hi.2]; omega

/-- The second window's block at point t is rows 1024 (t mod 8) … of its array. -/
theorem blk1_1_apply (c : Dev nD) (t : Fin cfg1.N) (r : Fin 1024) (k : Fin 256) :
    (blk1 V c 1 t : Vec F S1024x256 .f32) (ix2 r k)
      = (V c main_arg1 : Vec F S8192x256 .f32) (ix2 ⟨1024 * (t.val % 8) + r.val, by omega⟩ k) := by
  have hi := idx1_1 t
  unfold blk1
  rw [View.read_apply]
  show (V c main_arg1 : Vec F S8192x256 .f32) _ = _
  refine congrArg _ (funext fun a => Fin.ext ?_)
  match a with
  | ⟨0, _⟩ => show win1_1.index t 0 * 1024 + 1 * r.val = 1024 * (t.val % 8) + r.val; rw [hi.1]; omega
  | ⟨1, _⟩ => show win1_1.index t 1 * 256 + 1 * k.val = k.val; rw [hi.2]; omega

/-! ## Call 2 -/

theorem coords2 : ∀ t : Fin cfg2.N, ((grid2.coords t) 0).val = t.val / 8 ∧ ((grid2.coords t) 1).val = t.val % 8 :=
  (by decide +kernel : ∀ t : Fin grid2.N, ((grid2.coords t) 0).val = t.val / 8 ∧ ((grid2.coords t) 1).val = t.val % 8)
theorem idx2_0 : ∀ t : Fin cfg2.N, win2_0.index t (0 : Fin 2) = t.val / 8 ∧ win2_0.index t (1 : Fin 2) = 0 :=
  (by decide +kernel : ∀ t : Fin grid2.N, win2_0.index t (0 : Fin 2) = t.val / 8 ∧ win2_0.index t (1 : Fin 2) = 0)
theorem idx2_1 : ∀ t : Fin cfg2.N, win2_1.index t (0 : Fin 2) = t.val % 8 ∧ win2_1.index t (1 : Fin 2) = 0 :=
  (by decide +kernel : ∀ t : Fin grid2.N, win2_1.index t (0 : Fin 2) = t.val % 8 ∧ win2_1.index t (1 : Fin 2) = 0)

/-- The first window's block at point t is rows 512 (t / 8) … of its array. -/
theorem blk2_0_apply (c : Dev nD) (t : Fin cfg2.N) (r : Fin 512) (k : Fin 256) :
    (blk2 V c 0 t : Vec F S512x256 .f32) (ix2 r k)
      = (V c main_arg0 : Vec F S8192x256 .f32) (ix2 ⟨512 * (t.val / 8) + r.val, by have := lt_of_lt_of_eq t.isLt N_2; omega⟩ k) := by
  have hi := idx2_0 t
  unfold blk2
  rw [View.read_apply]
  show (V c main_arg0 : Vec F S8192x256 .f32) _ = _
  refine congrArg _ (funext fun a => Fin.ext ?_)
  match a with
  | ⟨0, _⟩ => show win2_0.index t 0 * 512 + 1 * r.val = 512 * (t.val / 8) + r.val; rw [hi.1]; omega
  | ⟨1, _⟩ => show win2_0.index t 1 * 256 + 1 * k.val = k.val; rw [hi.2]; omega

/-- The second window's block at point t is rows 1024 (t mod 8) … of its array. -/
theorem blk2_1_apply (c : Dev nD) (t : Fin cfg2.N) (r : Fin 1024) (k : Fin 256) :
    (blk2 V c 1 t : Vec F S1024x256 .f32) (ix2 r k)
      = (V c main_arg1 : Vec F S8192x256 .f32) (ix2 ⟨1024 * (t.val % 8) + r.val, by omega⟩ k) := by
  have hi := idx2_1 t
  unfold blk2
  rw [View.read_apply]
  show (V c main_arg1 : Vec F S8192x256 .f32) _ = _
  refine congrArg _ (funext fun a => Fin.ext ?_)
  match a with
  | ⟨0, _⟩ => show win2_1.index t 0 * 1024 + 1 * r.val = 1024 * (t.val % 8) + r.val; rw [hi.1]; omega
  | ⟨1, _⟩ => show win2_1.index t 1 * 256 + 1 * k.val = k.val; rw [hi.2]; omega

end Cert.KernelIdeal.Regions

end
-- ==== Proof.TileValue.lean ====
/-
  One grid point's contribution, over explicit blocks.

  A block `a` of 512 rows and a block `b` of 1024 rows (256 columns each) give the 512 x 1024 tile of kernel values
  `tileKern a b r c`: the formula of the specification's `kern` with row r of `a` against row c of `b`. When `a` is
  rows 512 i .. 512 i + 511 of X and `b` rows 1024 j .. 1024 j + 1023 of Y, it is `kern X Y` at the global rows
  (`tileKern_eq`).

  Then the vector operations the tile is computed with, each read at one index over the extended reals: a sum along
  one axis, the casts that add a unit axis, a transpose, a row or a column broadcast over the tile, and the matrix
  product into a zero accumulator as the sum of products over the contracted axis.
-/
import proofs.«105376_j19189913878688_2_alg».proof.Proof.Spec
import proofs.«105376_j19189913878688_2_alg».proof.KernelIdeal
import proofs.«105376_j19189913878688_2_alg».proof.Proof.Gen.KernelIdeal.Skeleton
import Idealize.ShloMosaic.Lib.ValueLayout
import Idealize.ShloMosaic.PureOps.Ideal.Laws

noncomputable section

namespace Cert.Mmd

open Idealize.ShloMosaic Idealize.ShloMosaic.ValueIdx Cert.KernelIdeal
open scoped BigOperators

/-! ## The tile of kernel values -/

/-- The squared norm of row r of the row block: zero plus the sum of the squares of its entries. -/
def tileSqA (a : S512x256.Idx → EReal) (r : Fin 512) : EReal :=
  lit 0x00000000#32 + ∑ k : Fin 256, a (ix2 r k) * a (ix2 r k)

/-- The squared norm of row c of the column block. -/
def tileSqB (b : S1024x256.Idx → EReal) (c : Fin 1024) : EReal :=
  lit 0x00000000#32 + ∑ k : Fin 256, b (ix2 c k) * b (ix2 c k)

/-- The inner product of row r of the row block with row c of the column block. -/
def tileGram (a : S512x256.Idx → EReal) (b : S1024x256.Idx → EReal) (r : Fin 512) (c : Fin 1024) : EReal :=
  ∑ k : Fin 256, a (ix2 r k) * b (ix2 c k)

/-- The squared distance by the expansion, clamped at zero. -/
def tileSqDist (a : S512x256.Idx → EReal) (b : S1024x256.Idx → EReal) (r : Fin 512) (c : Fin 1024) : EReal :=
  max ((tileSqA a r + tileSqB b c) - lit 0x40000000#32 * tileGram a b r c) (lit 0x00000000#32)

/-- The distance: the square root where the squared distance is positive, zero elsewhere. -/
def tileDist (a : S512x256.Idx → EReal) (b : S1024x256.Idx → EReal) (r : Fin 512) (c : Fin 1024) : EReal :=
  Scalar.select (Ideal.cmp .ogt (tileSqDist a b r c) (lit 0x00000000#32))
    (Ideal.sqrt (Scalar.select (Ideal.cmp .ogt (tileSqDist a b r c) (lit 0x00000000#32)) (tileSqDist a b r c)
      (lit 0x3F800000#32)))
    (lit 0x00000000#32)

/-- The kernel value exp (-1 * d) of row r of the row block against row c of the column block. -/
def tileKern (a : S512x256.Idx → EReal) (b : S1024x256.Idx → EReal) (r : Fin 512) (c : Fin 1024) : EReal :=
  Ideal.exp (lit 0xBF800000#32 * tileDist a b r c)

/-- On the blocks of X and Y at tile (i, j) the tile's kernel values are those of X and Y at the global rows. -/
theorem tileKern_eq (X Y : Arr) (i : Fin 16) (j : Fin 8) (a : S512x256.Idx → EReal) (b : S1024x256.Idx → EReal)
    (ha : ∀ (r : Fin 512) (k : Fin 256), a (ix2 r k) = X (ix2 ⟨512 * i.val + r.val, by omega⟩ k))
    (hb : ∀ (c : Fin 1024) (k : Fin 256), b (ix2 c k) = Y (ix2 ⟨1024 * j.val + c.val, by omega⟩ k))
    (r : Fin 512) (c : Fin 1024) :
    tileKern a b r c = kern X Y ⟨512 * i.val + r.val, by omega⟩ ⟨1024 * j.val + c.val, by omega⟩ := by
  simp only [tileKern, tileDist, tileSqDist, tileSqA, tileSqB, tileGram, kern, dist, sqDist, rowSq, gram, ha, hb]

/-! ## A sum along one axis, read at an index -/

/-- The sum along the columns of a 512 x 256 vector, at row r. -/
theorem reduce_S512x256_apply (src : FVec Ideal S512x256 .f32) (h : S512x256.Reduces [1] S512) (hφ : FKind.Formats .f32)
    (hacc : (0x00000000#32 : BitVec 32) = 0x00000000#32) (r : Fin 512) :
    multiReduction .add [1] S512 src 0x00000000#32 h hφ hacc (ix1 r)
      = lit 0x00000000#32 + ∑ k : Fin 256, src (ix2 r k) := by
  refine (Ideal.multiReduction_add_single src 0x00000000#32 h hφ hacc (ix1 r)).trans ?_
  rw [show lit 0x00000000#32 = (0 : EReal) from Ideal.ofBits_zero_f32, zero_add]
  exact Finset.sum_congr rfl fun k _ => congrArg src (funext fun a => match a with
    | ⟨0, _⟩ => rfl
    | ⟨1, _⟩ => rfl)

/-- The sum along the columns of a 1024 x 256 vector, at row c. -/
theorem reduce_S1024x256_apply (src : FVec Ideal S1024x256 .f32) (h : S1024x256.Reduces [1] S1024)
    (hφ : FKind.Formats .f32) (hacc : (0x00000000#32 : BitVec 32) = 0x00000000#32) (c : Fin 1024) :
    multiReduction .add [1] S1024 src 0x00000000#32 h hφ hacc (ix1 c)
      = lit 0x00000000#32 + ∑ k : Fin 256, src (ix2 c k) := by
  refine (Ideal.multiReduction_add_single src 0x00000000#32 h hφ hacc (ix1 c)).trans ?_
  rw [show lit 0x00000000#32 = (0 : EReal) from Ideal.ofBits_zero_f32, zero_add]
  exact Finset.sum_congr rfl fun k _ => congrArg src (funext fun a => match a with
    | ⟨0, _⟩ => rfl
    | ⟨1, _⟩ => rfl)

/-- The sum along the columns of the 512 x 1024 tile, at row r. -/
theorem reduce_S512x1024_apply (src : FVec Ideal S512x1024 .f32) (h : S512x1024.Reduces [1] S512)
    (hφ : FKind.Formats .f32) (hacc : (0x00000000#32 : BitVec 32) = 0x00000000#32) (r : Fin 512) :
    multiReduction .add [1] S512 src 0x00000000#32 h hφ hacc (ix1 r)
      = lit 0x00000000#32 + ∑ c : Fin 1024, src (ix2 r c) := by
  refine (Ideal.multiReduction_add_single src 0x00000000#32 h hφ hacc (ix1 r)).trans ?_
  rw [show lit 0x00000000#32 = (0 : EReal) from Ideal.ofBits_zero_f32, zero_add]
  exact Finset.sum_congr rfl fun k _ => congrArg src (funext fun a => match a with
    | ⟨0, _⟩ => rfl
    | ⟨1, _⟩ => rfl)

/-- The sum along the rows of a 512 x 1 column, at its one index. -/
theorem reduce_S512x1_apply (src : FVec Ideal S512x1 .f32) (h : S512x1.Reduces [0] S1) (hφ : FKind.Formats .f32)
    (hacc : (0x00000000#32 : BitVec 32) = 0x00000000#32) (u : Fin 1) :
    multiReduction .add [0] S1 src 0x00000000#32 h hφ hacc (ix1 u)
      = lit 0x00000000#32 + ∑ r : Fin 512, src (ix2 r u) := by
  refine (Ideal.multiReduction_add_single src 0x00000000#32 h hφ hacc (ix1 u)).trans ?_
  rw [show lit 0x00000000#32 = (0 : EReal) from Ideal.ofBits_zero_f32, zero_add]
  exact Finset.sum_congr rfl fun k _ => congrArg src (funext fun a => match a with
    | ⟨0, _⟩ => rfl
    | ⟨1, _⟩ => rfl)

/-! ## Casts that add a unit axis, a transpose, and the two broadcasts over the tile, read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Casts
variable {α : Type}

/-- The row sums `[512]` as a column `[512, 1]`. -/
theorem shapeCast_S512_S512x1_apply (x : S512.Idx → α) (h : S512.ShapeCasts S512x1) (r : Fin 512) (u : Fin 1) :
    shapeCast S512x1 x h (ix2 r u) = x (ix1 r) := shapeCast_a_a1_apply x h r u

/-- The row sums `[1024]` as a column `[1024, 1]`. -/
theorem shapeCast_S1024_S1024x1_apply (x : S1024.Idx → α) (h : S1024.ShapeCasts S1024x1) (c : Fin 1024) (u : Fin 1) :
    shapeCast S1024x1 x h (ix2 c u) = x (ix1 c) := shapeCast_a_a1_apply x h c u

/-- The one sum `[1]` as `[1, 1]`. -/
theorem shapeCast_S1_S1x1_apply (x : S1.Idx → α) (h : S1.ShapeCasts S1x1) (u v : Fin 1) :
    shapeCast S1x1 x h (ix2 u v) = x (ix1 v) := shapeCast_a_1a_apply x h u v

/-- `[1, 1]` as `[1, 1, 1]`. -/
theorem shapeCast_S1x1_S1x1x1_apply (x : S1x1.Idx → α) (h : S1x1.ShapeCasts S1x1x1) (u v w : Fin 1) :
    shapeCast S1x1x1 x h (ix3 u v w) = x (ix2 v w) := shapeCast_ab_1ab_apply x h u v w

/-- The column `[1024, 1]` transposed to a row `[1, 1024]`. -/
theorem transpose_S1024x1_apply (x : S1024x1.Idx → α) (h : S1024x1.Transposes [1, 0] S1x1024) (u : Fin 1) (c : Fin 1024) :
    transpose S1x1024 [1, 0] x h (ix2 u c) = x (ix2 c u) := transpose_ix2_apply x h u c

/-- The column block `[1024, 256]` transposed to `[256, 1024]`. -/
theorem transpose_S1024x256_apply (x : S1024x256.Idx → α) (h : S1024x256.Transposes [1, 0] S256x1024) (k : Fin 256)
    (c : Fin 1024) : transpose S256x1024 [1, 0] x h (ix2 k c) = x (ix2 c k) := transpose_ix2_apply x h k c

/-- The column `[512, 1]` broadcast over the tile. -/
theorem broadcastTo_S512x1_apply (x : S512x1.Idx → α) (h : S512x1.Broadcasts S512x1024) (r : Fin 512) (c : Fin 1024) :
    broadcastTo S512x1024 x h (ix2 r c) = x (ix2 r (0 : Fin 1)) := broadcastTo_a1_ab_apply x h r c

/-- The row `[1, 1024]` broadcast over the tile. -/
theorem broadcastTo_S1x1024_apply (x : S1x1024.Idx → α) (h : S1x1024.Broadcasts S512x1024) (r : Fin 512) (c : Fin 1024) :
    broadcastTo S512x1024 x h (ix2 r c) = x (ix2 (0 : Fin 1) c) := broadcastTo_1b_ab_apply x h r c

end Casts

/-! ## The matrix product into a zero accumulator, read at an index -/

section Matmul
variable [Facts₀]

theorem dot_lhs_0 (j : S512x1024.Idx) (q : dot_S512x256_S256x1024_S512x1024_1_0_0_1_n_n.contr.Idx) :
    (dot_S512x256_S256x1024_S512x1024_1_0_0_1_n_n.lhsIdx j q 0).val = (j 0).val := by
  unfold DotDims.lhsIdx
  rw [dif_neg (show ¬(0 : Fin S512x256.rank) ∈ dot_S512x256_S256x1024_S512x1024_1_0_0_1_n_n.lhsBatch from List.not_mem_nil),
    dif_pos (show (0 : Fin S512x256.rank) ∈ dot_S512x256_S256x1024_S512x1024_1_0_0_1_n_n.lhsNonContracting from List.mem_singleton.mpr rfl)]
  rfl

theorem dot_lhs_1 (j : S512x1024.Idx) (q : dot_S512x256_S256x1024_S512x1024_1_0_0_1_n_n.contr.Idx) :
    (dot_S512x256_S256x1024_S512x1024_1_0_0_1_n_n.lhsIdx j q 1).val = (q ⟨0, Nat.one_pos⟩).val :=
  dot_S512x256_S256x1024_S512x1024_1_0_0_1_n_n.lhsIdx_val_of_single rfl j q

theorem dot_rhs_0 (j : S512x1024.Idx) (q : dot_S512x256_S256x1024_S512x1024_1_0_0_1_n_n.contr.Idx) :
    (dot_S512x256_S256x1024_S512x1024_1_0_0_1_n_n.rhsIdx j q 0).val = (q ⟨0, Nat.one_pos⟩).val :=
  dot_S512x256_S256x1024_S512x1024_1_0_0_1_n_n.rhsIdx_val_of_single rfl j q

theorem dot_rhs_1 (j : S512x1024.Idx) (q : dot_S512x256_S256x1024_S512x1024_1_0_0_1_n_n.contr.Idx) :
    (dot_S512x256_S256x1024_S512x1024_1_0_0_1_n_n.rhsIdx j q 1).val = (j 1).val := by
  unfold DotDims.rhsIdx
  rw [dif_neg (show ¬(1 : Fin S256x1024.rank) ∈ dot_S512x256_S256x1024_S512x1024_1_0_0_1_n_n.rhsBatch from List.not_mem_nil),
    dif_pos (show (1 : Fin S256x1024.rank) ∈ dot_S512x256_S256x1024_S512x1024_1_0_0_1_n_n.rhsNonContracting from List.mem_singleton.mpr rfl)]
  rfl

/-- The product of a `[512, 256]` by a `[256, 1024]` vector into the zero accumulator is, at `(r, c)`, the sum over
    the 256 contracted coordinates of the products of the entries. -/
theorem matmul_tile_apply {φ₁ φ₂ : FTy} (l : FVec Ideal S512x256 φ₁) (rt : FVec Ideal S256x1024 φ₂) (r : Fin 512)
    (c : Fin 1024) :
    matmul dot_S512x256_S256x1024_S512x1024_1_0_0_1_n_n none l rt (constant S512x1024 .f32 0x00000000#32) (ix2 r c)
      = ∑ k : Fin 256, l (ix2 r k) * rt (ix2 k c) := by
  show FloatOps.matmul dot_S512x256_S256x1024_S512x1024_1_0_0_1_n_n none l rt
      (constant S512x1024 .f32 0x00000000#32) (ix2 r c) = _
  rw [Ideal.matmul_constant_zero_apply,
    ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 r c)
      ((contrEquiv1 dot_S512x256_S256x1024_S512x1024_1_0_0_1_n_n 256 rfl rfl).symm k) = ix2 r k :=
    funext fun a => Fin.ext (by
      match a with
      | ⟨0, _⟩ => exact dot_lhs_0 _ _
      | ⟨1, _⟩ => exact (dot_lhs_1 _ _).trans hk)
  have er : dot_S512x256_S256x1024_S512x1024_1_0_0_1_n_n.rhsIdx (ix2 r c)
      ((contrEquiv1 dot_S512x256_S256x1024_S512x1024_1_0_0_1_n_n 256 rfl rfl).symm k) = ix2 k c :=
    funext fun a => Fin.ext (by
      match a with
      | ⟨0, _⟩ => exact (dot_rhs_0 _ _).trans hk
      | ⟨1, _⟩ => exact dot_rhs_1 _ _)
  rw [el, er]

end Matmul

/-! ## The tile, the cached column of squared norms and the accumulator, as the vector operations compute them

Each definition below is one chain of vector operations over the blocks; each theorem reads it at an index. -/

section Payload
variable [Facts₀]
open Facts₀

/-- The elementwise part of the tile: from the broadcast squared norms `A`, `B` and the inner products `G`, the
    clamped expansion, the guarded square root and exp (-1 * d). -/
def tileAssemble (A B G : FVec Ideal S512x1024 .f32) : FVec Ideal S512x1024 .f32 :=
  have v16 : FVec Ideal S512x1024 .f32 := addf A B
  have cst_9 : Ideal .f32 := Scalar.ofBits .f32 0x40000000#32
  have v17 : FVec Ideal S512x1024 .f32 := broadcast S512x1024 cst_9
  have v18 : FVec Ideal S512x1024 .f32 := mulf v17 G
  have v19 : FVec Ideal S512x1024 .f32 := subf v16 v18
  have cst_10 : Ideal .f32 := Scalar.ofBits .f32 0x00000000#32
  have v20 : FVec Ideal S512x1024 .f32 := broadcast S512x1024 cst_10
  have v21 : FVec Ideal S512x1024 .f32 := maximumf v19 v20
  have cst_11 : Ideal .f32 := Scalar.ofBits .f32 0x00000000#32
  have v22 : FVec Ideal S512x1024 .f32 := broadcast S512x1024 cst_11
  have v23 : IVec S512x1024 1 := cmpf .ogt v21 v22
  have cst_12 : Ideal .f32 := Scalar.ofBits .f32 0x3F800000#32
  have v24 : FVec Ideal S512x1024 .f32 := broadcast S512x1024 cst_12
  have v25 : FVec Ideal S512x1024 .f32 := select v23 v21 v24
  have cst_13 : Ideal .f32 := Scalar.ofBits .f32 0x00000000#32
  have v26 : FVec Ideal S512x1024 .f32 := broadcast S512x1024 cst_13
  have v27 : IVec S512x1024 1 := cmpf .ogt v21 v26
  have v28 : FVec Ideal S512x1024 .f32 := sqrt v25
  have cst_14 : Ideal .f32 := Scalar.ofBits .f32 0x00000000#32
  have v29 : FVec Ideal S512x1024 .f32 := broadcast S512x1024 cst_14
  have v30 : FVec Ideal S512x1024 .f32 := select v27 v28 v29
  have cst_15 : Ideal .f32 := Scalar.ofBits .f32 0xBF800000#32
  have v31 : FVec Ideal S512x1024 .f32 := broadcast S512x1024 cst_15
  have v32 : FVec Ideal S512x1024 .f32 := mulf v31 v30
  have v33 : FVec Ideal S512x1024 .f32 := exp v32
  v33

/-- The elementwise part read at an index. -/
theorem tileAssemble_apply (A B G : FVec Ideal S512x1024 .f32) (i : S512x1024.Idx) :
    tileAssemble A B G i
      = Ideal.exp (lit 0xBF800000#32 *
          Scalar.select
            (Ideal.cmp .ogt (max ((A i + B i) - lit 0x40000000#32 * G i) (lit 0x00000000#32)) (lit 0x00000000#32))
            (Ideal.sqrt (Scalar.select
              (Ideal.cmp .ogt (max ((A i + B i) - lit 0x40000000#32 * G i) (lit 0x00000000#32)) (lit 0x00000000#32))
              (max ((A i + B i) - lit 0x40000000#32 * G i) (lit 0x00000000#32)) (lit 0x3F800000#32)))
            (lit 0x00000000#32)) := rfl

/-- The tile of kernel values as the vector operations compute it from the column block `v1`, the cached row
    block `v6` and the cached column `v9` of the row block's squared norms. -/
def tileVec (v1 : FVec Ideal S1024x256 .f32) (v6 : FVec Ideal S512x256 .bf16) (v9 : FVec Ideal S512x1 .f32) :
    FVec Ideal S512x1024 .f32 :=
  have v5 : FVec Ideal S1024x256 .bf16 := truncf .bf16 v1 bitsLt_bf16_f32
  have v7 : FVec Ideal S256x1024 .bf16 := transpose S256x1024 [1, 0] v5 transposes_S1024x256_p1_0_S256x1024
  have cst : FVec Ideal S512x1024 .f32 := constant S512x1024 .f32 0x00000000#32
  have v8 : FVec Ideal S512x1024 .f32 := matmul dot_S512x256_S256x1024_S512x1024_1_0_0_1_n_n none v6 v7 cst
  have v10 : FVec Ideal S1024x256 .f32 := mulf v1 v1
  have v11 : FVec Ideal S1024 .f32 := multiReduction .add [1] S1024 v10 0x00000000#32 reduces_S1024x256_S1024 (.inl rfl) rfl
  have v12 : FVec Ideal S1024x1 .f32 := shapeCast S1024x1 v11 shapeCasts_S1024_S1024x1
  have v13 : FVec Ideal S1x1024 .f32 := transpose S1x1024 [1, 0] v12 transposes_S1024x1_p1_0_S1x1024
  have v14 : FVec Ideal S512x1024 .f32 := broadcastTo S512x1024 v9 broadcasts_S512x1_S512x1024
  have v15 : FVec Ideal S512x1024 .f32 := broadcastTo S512x1024 v13 broadcasts_S1x1024_S512x1024
  tileAssemble v14 v15 v8

/-- The computed tile at `(r, c)` is the kernel value of row r of the row block `a` against row c of `v1`, when the
    cached row block reads as `a` and the cached column holds the squared norms of `a`'s rows. -/
theorem tileVec_apply (v1 : FVec Ideal S1024x256 .f32) (v6 : FVec Ideal S512x256 .bf16) (v9 : FVec Ideal S512x1 .f32)
    (a : S512x256.Idx → EReal) (h6 : ∀ (r : Fin 512) (k : Fin 256), v6 (ix2 r k) = a (ix2 r k))
    (h9 : ∀ r : Fin 512, v9 (ix2 r (0 : Fin 1)) = tileSqA a r) (r : Fin 512) (c : Fin 1024) :
    tileVec v1 v6 v9 (ix2 r c) = tileKern a v1 r c := by
  have hA : broadcastTo S512x1024 v9 broadcasts_S512x1_S512x1024 (ix2 r c) = tileSqA a r := by
    rw [broadcastTo_S512x1_apply, h9]
  have hB : broadcastTo S512x1024
        (transpose S1x1024 [1, 0]
          (shapeCast S1024x1
            (multiReduction .add [1] S1024 (mulf v1 v1) 0x00000000#32 reduces_S1024x256_S1024 (.inl rfl) rfl)
            shapeCasts_S1024_S1024x1)
          transposes_S1024x1_p1_0_S1x1024)
        broadcasts_S1x1024_S512x1024 (ix2 r c) = tileSqB v1 c := by
    rw [broadcastTo_S1x1024_apply, transpose_S1024x1_apply, shapeCast_S1024_S1024x1_apply]
    exact reduce_S1024x256_apply (mulf v1 v1) _ _ _ c
  have hG : matmul dot_S512x256_S256x1024_S512x1024_1_0_0_1_n_n none v6
        (transpose S256x1024 [1, 0] (truncf .bf16 v1 bitsLt_bf16_f32) transposes_S1024x256_p1_0_S256x1024)
        (constant S512x1024 .f32 0x00000000#32) (ix2 r c) = tileGram a v1 r c := by
    rw [matmul_tile_apply]
    refine Finset.sum_congr rfl fun k _ => ?_
    rw [h6, transpose_S1024x256_apply]
    rfl
  show tileAssemble _ _ _ (ix2 r c) = _
  rw [tileAssemble_apply, hA, hB, hG]
  rfl

/-- The column of the row block's squared norms as the vector operations compute it. -/
def colSqVec (v0 : FVec Ideal S512x256 .f32) : FVec Ideal S512x1 .f32 :=
  have v62 : FVec Ideal S512x256 .f32 := mulf v0 v0
  have v63 : FVec Ideal S512 .f32 := multiReduction .add [1] S512 v62 0x00000000#32 reduces_S512x256_S512 (.inl rfl) rfl
  have v64 : FVec Ideal S512x1 .f32 := shapeCast S512x1 v63 shapeCasts_S512_S512x1
  have v67 : FVec Ideal S512x1 .f32 := shapeCast S512x1 v64 shapeCasts_S512x1_S512x1
  v67

/-- It holds, in row r, the squared norm of row r. -/
theorem colSqVec_apply (v0 : FVec Ideal S512x256 .f32) (r : Fin 512) (u : Fin 1) :
    colSqVec v0 (ix2 r u) = tileSqA v0 r := by
  show shapeCast S512x1 (shapeCast S512x1 _ shapeCasts_S512_S512x1) shapeCasts_S512x1_S512x1 (ix2 r u) = _
  rw [shapeCast_self, shapeCast_S512_S512x1_apply]
  exact reduce_S512x256_apply (mulf v0 v0) _ _ _ r

/-- The cached copy of the row block (a change of format and a cast to the same shape) is the row block. -/
theorem cacheVec_eq (v0 : FVec Ideal S512x256 .f32) :
    (shapeCast S512x256 (truncf .bf16 v0 bitsLt_bf16_f32 : FVec Ideal S512x256 .bf16) shapeCasts_S512x256_S512x256
      : FVec Ideal S512x256 .bf16) = v0 := by
  rw [shapeCast_self]
  rfl

/-- The accumulator's update as the vector operations compute it: the masked tile (1 where the mask bit is set)
    summed along its rows, then along the column of row sums, added to the accumulator's one entry. -/
def accVec (m : IVec S512x1024 1) (v33 : FVec Ideal S512x1024 .f32) (v49 : FVec Ideal S1x1x1 .f32) :
    FVec Ideal S1x1x1 .f32 :=
  have cst_16 : Ideal .f32 := Scalar.ofBits .f32 0x3F800000#32
  have v43 : FVec Ideal S512x1024 .f32 := broadcast S512x1024 cst_16
  have v44 : FVec Ideal S512x1024 .f32 := select m v43 v33
  have v45 : FVec Ideal S512 .f32 := multiReduction .add [1] S512 v44 0x00000000#32 reduces_S512x1024_S512 (.inl rfl) rfl
  have v46 : FVec Ideal S512x1 .f32 := shapeCast S512x1 v45 shapeCasts_S512_S512x1
  have v47 : FVec Ideal S1 .f32 := multiReduction .add [0] S1 v46 0x00000000#32 reduces_S512x1_S1 (.inl rfl) rfl
  have v48 : FVec Ideal S1x1 .f32 := shapeCast S1x1 v47 shapeCasts_S1_S1x1
  have v50 : FVec Ideal S1x1x1 .f32 := shapeCast S1x1x1 v48 shapeCasts_S1x1_S1x1x1
  have v51 : FVec Ideal S1x1x1 .f32 := addf v49 v50
  have v54 : FVec Ideal S1x1x1 .f32 := shapeCast S1x1x1 v51 shapeCasts_S1x1x1_S1x1x1
  v54

/-- Its one entry: the old entry plus the sum over the tile's rows of the sums along each row. -/
theorem accVec_apply (m : IVec S512x1024 1) (v33 : FVec Ideal S512x1024 .f32) (v49 : FVec Ideal S1x1x1 .f32)
    (u v w : Fin 1) :
    accVec m v33 v49 (ix3 u v w)
      = v49 (ix3 u v w) + (lit 0x00000000#32 + ∑ r : Fin 512, (lit 0x00000000#32 + ∑ c : Fin 1024,
          Scalar.select (m (ix2 r c)) (lit 0x3F800000#32) (v33 (ix2 r c)))) := by
  show shapeCast S1x1x1 (addf v49 (shapeCast S1x1x1 (shapeCast S1x1 _ shapeCasts_S1_S1x1) shapeCasts_S1x1_S1x1x1))
      shapeCasts_S1x1x1_S1x1x1 (ix3 u v w) = _
  rw [shapeCast_self, addf_apply, shapeCast_S1x1_S1x1x1_apply, shapeCast_S1_S1x1_apply]
  refine congrArg (v49 (ix3 u v w) + ·) ?_
  refine (reduce_S512x1_apply _ _ _ _ w).trans ?_
  refine congrArg (lit 0x00000000#32 + ·) (Finset.sum_congr rfl fun r _ => ?_)
  rw [shapeCast_S512_S512x1_apply]
  exact reduce_S512x1024_apply _ _ _ _ r

end Payload

/-! ## The kernels' payloads read at an index

The payload definitions of the three launches' kernel functions (generated from the program) are the chains of vector
operations above; each is read here at an index. The first two launches share one body, with the diagonal mask; the
third sums the unmasked tile. -/

section GenPayloads

/-- On 32-bit words the global row index `512 i + r` equals the global column index `1024 j + c` exactly when the
    numbers are equal: both are below 8192, so nothing wraps. -/
theorem word_eq_iff (i : Fin 16) (j : Fin 8) (r : Fin 512) (c : Fin 1024) :
    (BitVec.ofNat 32 i.val * 512#32 + BitVec.ofNat 32 r.val = BitVec.ofNat 32 j.val * 1024#32 + BitVec.ofNat 32 c.val)
      ↔ 512 * i.val + r.val = 1024 * j.val + c.val := by
  rw [← BitVec.toNat_inj]
  simp only [BitVec.toNat_add, BitVec.toNat_mul, BitVec.toNat_ofNat]
  omega

/-- The diagonal mask's bit at `(r, c)` of tile `(i, j)`. -/
theorem mask_bit (i : Fin 16) (j : Fin 8) (r : Fin 512) (c : Fin 1024) :
    IntOp.cmpi .eq (IntOp.addi (IntOp.muli (BitVec.ofNat 32 i.val) 512#32) (BitVec.ofNat 32 r.val))
        (IntOp.addi (IntOp.muli (BitVec.ofNat 32 j.val) 1024#32) (BitVec.ofNat 32 c.val))
      = if 512 * i.val + r.val = 1024 * j.val + c.val then 1#1 else 0#1 := by
  have hiff := word_eq_iff i j r c
  unfold IntOp.cmpi IntOp.addi IntOp.muli
  by_cases h : 512 * i.val + r.val = 1024 * j.val + c.val
  · rw [if_pos h]
    have e : (BitVec.ofNat 32 i.val * 512#32 + BitVec.ofNat 32 r.val
        == BitVec.ofNat 32 j.val * 1024#32 + BitVec.ofNat 32 c.val) = true := beq_iff_eq.mpr (hiff.mpr h)
    rw [e]
    rfl
  · rw [if_neg h]
    have e : (BitVec.ofNat 32 i.val * 512#32 + BitVec.ofNat 32 r.val
        == BitVec.ofNat 32 j.val * 1024#32 + BitVec.ofNat 32 c.val) = false :=
      beq_eq_false_iff_ne.mpr fun e => h (hiff.mp e)
    rw [e]
    rfl

/-- The masked tile sum added to the accumulator, for any row-index and row-offset vectors that read as the row
    coordinate and as `512 i`. -/
theorem accMasked_apply (i : Fin 16) (j : Fin 8) (v33 : FVec Ideal S512x1024 .f32) (v35 v36 : IVec S512x1024 32)
    (h35 : ∀ (r : Fin 512) (c : Fin 1024), v35 (ix2 r c) = BitVec.ofNat 32 r.val)
    (h36 : ∀ (r : Fin 512) (c : Fin 1024), v36 (ix2 r c) = IntOp.muli (BitVec.ofNat 32 i.val) 512#32)
    (h39 : S512x1024.Iotas .tc 32 [1]) (v49 : FVec Ideal S1x1x1 .f32) (u v w : Fin 1) :
    accVec (cmpi .eq (addi v36 v35)
        (addi (broadcast S512x1024 (Scalar.muli (BitVec.ofNat 32 j.val) 1024#32)) (iota .tc S512x1024 32 [1] h39)))
      v33 v49 (ix3 u v w)
      = v49 (ix3 u v w) + (lit 0x00000000#32 + ∑ r : Fin 512, (lit 0x00000000#32 + ∑ c : Fin 1024,
          if 512 * i.val + r.val = 1024 * j.val + c.val then lit 0x3F800000#32 else v33 (ix2 r c))) := by
  refine (accVec_apply _ v33 v49 u v w).trans ?_
  refine congrArg (v49 (ix3 u v w) + ·) (congrArg (lit 0x00000000#32 + ·) (Finset.sum_congr rfl fun r _ =>
    congrArg (lit 0x00000000#32 + ·) (Finset.sum_congr rfl fun c _ => ?_)))
  have hm : cmpi .eq (addi v36 v35)
      (addi (broadcast S512x1024 (Scalar.muli (BitVec.ofNat 32 j.val) 1024#32)) (iota .tc S512x1024 32 [1] h39))
      (ix2 r c) = if 512 * i.val + r.val = 1024 * j.val + c.val then 1#1 else 0#1 := by
    show IntOp.cmpi .eq (IntOp.addi (v36 (ix2 r c)) (v35 (ix2 r c)))
      (IntOp.addi (Scalar.muli (BitVec.ofNat 32 j.val) 1024#32) (iota .tc S512x1024 32 [1] h39 (ix2 r c))) = _
    rw [h35, h36, iota_single_apply]
    exact mask_bit i j r c
  rw [hm]
  by_cases h : 512 * i.val + r.val = 1024 * j.val + c.val
  · rw [if_pos h, if_pos h]; exact select_one _ _
  · rw [if_neg h, if_neg h]; exact select_zero _ _

/-! ### The first launch -/

theorem k0_pay3_apply (v0 : Vec Ideal S512x256 .f32) (r : Fin 512) (u : Fin 1) :
    Gen.k0_pay3 (F := Ideal) v0 (ix2 r u) = tileSqA v0 r := colSqVec_apply v0 r u

theorem k0_pay4_apply (v0 : Vec Ideal S512x256 .f32) (r : Fin 512) (k : Fin 256) :
    Gen.k0_pay4 (F := Ideal) v0 (ix2 r k) = v0 (ix2 r k) := congrFun (cacheVec_eq v0) (ix2 r k)

theorem k0_pay5_apply (v1 : Vec Ideal S1024x256 .f32) (v6 : Vec Ideal S512x256 .bf16) (v9 : Vec Ideal S512x1 .f32)
    (a : S512x256.Idx → EReal) (h6 : ∀ (r : Fin 512) (k : Fin 256), v6 (ix2 r k) = a (ix2 r k))
    (h9 : ∀ r : Fin 512, v9 (ix2 r (0 : Fin 1)) = tileSqA a r) (r : Fin 512) (c : Fin 1024) :
    Gen.k0_pay5 (F := Ideal) v1 v6 v9 (ix2 r c) = tileKern a v1 r c := tileVec_apply v1 v6 v9 a h6 h9 r c

/-- The accumulator's update of the first launch at tile `(i, j)`: the old entry plus the tile's sum, with 1 forced
    where the global row equals the global column. -/
theorem k0_pay1_apply_of (i : Fin 16) (j : Fin 8) (v33 : FVec Ideal S512x1024 .f32) (v35 v36 : IVec S512x1024 32)
    (h35 : ∀ (r : Fin 512) (c : Fin 1024), v35 (ix2 r c) = BitVec.ofNat 32 r.val)
    (h36 : ∀ (r : Fin 512) (c : Fin 1024), v36 (ix2 r c) = IntOp.muli (BitVec.ofNat 32 i.val) 512#32)
    (v49 : Vec Ideal S1x1x1 .f32) (u v w : Fin 1) :
    Gen.k0_pay1 (F := Ideal) (BitVec.ofNat 32 j.val) v33 v35 v36 v49 (ix3 u v w)
      = v49 (ix3 u v w) + (lit 0x00000000#32 + ∑ r : Fin 512, (lit 0x00000000#32 + ∑ c : Fin 1024,
          if 512 * i.val + r.val = 1024 * j.val + c.val then lit 0x3F800000#32 else v33 (ix2 r c))) :=
  accMasked_apply i j v33 v35 v36 h35 h36 _ v49 u v w

/-- The same with the row-index vector the kernel builds and the row offset of grid point `coords`. -/
theorem k0_pay1_apply (i : Fin 16) (j : Fin 8) (coords : grid0.Coords) (hc : (coords 0).val = i.val)
    (v33 : FVec Ideal S512x1024 .f32) (h35 : S512x1024.Iotas .tc 32 [0]) (v49 : Vec Ideal S1x1x1 .f32)
    (u v w : Fin 1) :
    Gen.k0_pay1 (F := Ideal) (BitVec.ofNat 32 j.val) v33 (iota .tc S512x1024 32 [0] h35) (Gen.k0_pay6 coords) v49
        (ix3 u v w)
      = v49 (ix3 u v w) + (lit 0x00000000#32 + ∑ r : Fin 512, (lit 0x00000000#32 + ∑ c : Fin 1024,
          if 512 * i.val + r.val = 1024 * j.val + c.val then lit 0x3F800000#32 else v33 (ix2 r c))) :=
  k0_pay1_apply_of i j v33 _ _ (fun r c => iota_single_apply .tc S512x1024 32 0 h35 (ix2 r c))
    (fun r c => by
      show IntOp.muli (BitVec.ofNat 32 (coords 0).val) 512#32 = _
      rw [hc]) v49 u v w

/-! ### The second launch (the same body) -/

theorem k1_pay3_apply (v0 : Vec Ideal S512x256 .f32) (r : Fin 512) (u : Fin 1) :
    Gen.k1_pay3 (F := Ideal) v0 (ix2 r u) = tileSqA v0 r := colSqVec_apply v0 r u

theorem k1_pay4_apply (v0 : Vec Ideal S512x256 .f32) (r : Fin 512) (k : Fin 256) :
    Gen.k1_pay4 (F := Ideal) v0 (ix2 r k) = v0 (ix2 r k) := congrFun (cacheVec_eq v0) (ix2 r k)

theorem k1_pay5_apply (v1 : Vec Ideal S1024x256 .f32) (v6 : Vec Ideal S512x256 .bf16) (v9 : Vec Ideal S512x1 .f32)
    (a : S512x256.Idx → EReal) (h6 : ∀ (r : Fin 512) (k : Fin 256), v6 (ix2 r k) = a (ix2 r k))
    (h9 : ∀ r : Fin 512, v9 (ix2 r (0 : Fin 1)) = tileSqA a r) (r : Fin 512) (c : Fin 1024) :
    Gen.k1_pay5 (F := Ideal) v1 v6 v9 (ix2 r c) = tileKern a v1 r c := tileVec_apply v1 v6 v9 a h6 h9 r c

theorem k1_pay1_apply_of (i : Fin 16) (j : Fin 8) (v33 : FVec Ideal S512x1024 .f32) (v35 v36 : IVec S512x1024 32)
    (h35 : ∀ (r : Fin 512) (c : Fin 1024), v35 (ix2 r c) = BitVec.ofNat 32 r.val)
    (h36 : ∀ (r : Fin 512) (c : Fin 1024), v36 (ix2 r c) = IntOp.muli (BitVec.ofNat 32 i.val) 512#32)
    (v49 : Vec Ideal S1x1x1 .f32) (u v w : Fin 1) :
    Gen.k1_pay1 (F := Ideal) (BitVec.ofNat 32 j.val) v33 v35 v36 v49 (ix3 u v w)
      = v49 (ix3 u v w) + (lit 0x00000000#32 + ∑ r : Fin 512, (lit 0x00000000#32 + ∑ c : Fin 1024,
          if 512 * i.val + r.val = 1024 * j.val + c.val then lit 0x3F800000#32 else v33 (ix2 r c))) :=
  accMasked_apply i j v33 v35 v36 h35 h36 _ v49 u v w

theorem k1_pay1_apply (i : Fin 16) (j : Fin 8) (coords : grid1.Coords) (hc : (coords 0).val = i.val)
    (v33 : FVec Ideal S512x1024 .f32) (h35 : S512x1024.Iotas .tc 32 [0]) (v49 : Vec Ideal S1x1x1 .f32)
    (u v w : Fin 1) :
    Gen.k1_pay1 (F := Ideal) (BitVec.ofNat 32 j.val) v33 (iota .tc S512x1024 32 [0] h35) (Gen.k1_pay6 coords) v49
        (ix3 u v w)
      = v49 (ix3 u v w) + (lit 0x00000000#32 + ∑ r : Fin 512, (lit 0x00000000#32 + ∑ c : Fin 1024,
          if 512 * i.val + r.val = 1024 * j.val + c.val then lit 0x3F800000#32 else v33 (ix2 r c))) :=
  k1_pay1_apply_of i j v33 _ _ (fun r c => iota_single_apply .tc S512x1024 32 0 h35 (ix2 r c))
    (fun r c => by
      show IntOp.muli (BitVec.ofNat 32 (coords 0).val) 512#32 = _
      rw [hc]) v49 u v w

/-! ### The third launch: no mask; the row sums of the tile, then their sum -/

theorem k2_pay3_apply (v0 : Vec Ideal S512x256 .f32) (r : Fin 512) (u : Fin 1) :
    Gen.k2_pay3 (F := Ideal) v0 (ix2 r u) = tileSqA v0 r := colSqVec_apply v0 r u

theorem k2_pay4_apply (v0 : Vec Ideal S512x256 .f32) (r : Fin 512) (k : Fin 256) :
    Gen.k2_pay4 (F := Ideal) v0 (ix2 r k) = v0 (ix2 r k) := congrFun (cacheVec_eq v0) (ix2 r k)

/-- The column of the tile's row sums. -/
theorem k2_pay5_apply (v1 : Vec Ideal S1024x256 .f32) (v6 : Vec Ideal S512x256 .bf16) (v9 : Vec Ideal S512x1 .f32)
    (a : S512x256.Idx → EReal) (h6 : ∀ (r : Fin 512) (k : Fin 256), v6 (ix2 r k) = a (ix2 r k))
    (h9 : ∀ r : Fin 512, v9 (ix2 r (0 : Fin 1)) = tileSqA a r) (r : Fin 512) (u : Fin 1) :
    Gen.k2_pay5 (F := Ideal) v1 v6 v9 (ix2 r u) = lit 0x00000000#32 + ∑ c : Fin 1024, tileKern a v1 r c := by
  show shapeCast S512x1 (multiReduction .add [1] S512 (tileVec v1 v6 v9) 0x00000000#32
      Facts₀.reduces_S512x1024_S512 (.inl rfl) rfl) Facts₀.shapeCasts_S512_S512x1 (ix2 r u) = _
  rw [shapeCast_S512_S512x1_apply]
  refine (reduce_S512x1024_apply _ _ _ _ r).trans ?_
  exact congrArg (lit 0x00000000#32 + ·) (Finset.sum_congr rfl fun c _ => tileVec_apply v1 v6 v9 a h6 h9 r c)

/-- The accumulator's update of the third launch: the old entry plus the sum of the column of row sums. -/
theorem k2_pay1_apply (v35 : FVec Ideal S512x1 .f32) (v38 : Vec Ideal S1x1x1 .f32) (u v w : Fin 1) :
    Gen.k2_pay1 (F := Ideal) v35 v38 (ix3 u v w)
      = v38 (ix3 u v w) + (lit 0x00000000#32 + ∑ r : Fin 512, v35 (ix2 r w)) := by
  show shapeCast S1x1x1 (addf (F := Ideal) (φ := .f32) v38 (shapeCast S1x1x1 (shapeCast S1x1 _ Facts₀.shapeCasts_S1_S1x1)
      Facts₀.shapeCasts_S1x1_S1x1x1)) Facts₀.shapeCasts_S1x1x1_S1x1x1 (ix3 u v w) = _
  rw [shapeCast_self, addf_apply, shapeCast_S1x1_S1x1x1_apply, shapeCast_S1_S1x1_apply]
  exact congrArg (v38 (ix3 u v w) + ·) (reduce_S512x1_apply _ _ _ _ w)

/-- Together: the old entry plus the sum of the tile's kernel values. -/
theorem k2_pay1_pay5_apply (v1 : Vec Ideal S1024x256 .f32) (v6 : Vec Ideal S512x256 .bf16) (v9 : Vec Ideal S512x1 .f32)
    (a : S512x256.Idx → EReal) (h6 : ∀ (r : Fin 512) (k : Fin 256), v6 (ix2 r k) = a (ix2 r k))
    (h9 : ∀ r : Fin 512, v9 (ix2 r (0 : Fin 1)) = tileSqA a r) (v38 : Vec Ideal S1x1x1 .f32) (u v w : Fin 1) :
    Gen.k2_pay1 (F := Ideal) (Gen.k2_pay5 (F := Ideal) v1 v6 v9) v38 (ix3 u v w)
      = v38 (ix3 u v w) + (lit 0x00000000#32 + ∑ r : Fin 512, (lit 0x00000000#32 + ∑ c : Fin 1024,
          tileKern a v1 r c)) := by
  rw [k2_pay1_apply]
  exact congrArg (v38 (ix3 u v w) + ·) (congrArg (lit 0x00000000#32 + ·)
    (Finset.sum_congr rfl fun r _ => k2_pay5_apply v1 v6 v9 a h6 h9 r w))

end GenPayloads

end Cert.Mmd

end
-- ==== Proof.MmdAlgebra.lean ====
/-
  The algebra of the tiled kernel sum, over the extended reals.

  * `regroup`: a sum over all pairs of rows, taken tile by tile (16 row tiles of 512 rows, 8 column tiles of 1024
    rows), is the sum over all pairs. Only commutativity and associativity are used, so it holds with infinities.
  * `kern_self`: for an array of finite entries the kernel value of a row against itself is 1: the expansion
    |x|^2 + |x|^2 - 2 x.x is exactly 0 over the reals, the clamp keeps 0, the comparison 0 > 0 fails, so the distance
    is 0 and exp (-1 * 0) = 1.
  * `masked_eq`: hence forcing 1 on the diagonal of the self-kernel changes nothing.
-/
import proofs.«105376_j19189913878688_2_alg».proof.Proof.Spec

noncomputable section

namespace Cert.Mmd

open Idealize.ShloMosaic Idealize.ShloMosaic.ValueIdx
open scoped BigOperators

/-! ## A sum over `Fin (a * b)` by blocks of `b` -/

/-- A sum over `n = a * b` indices is the sum over `a` blocks of the sums over the `b` indices of each block. -/
theorem sum_blocks {M : Type*} [AddCommMonoid M] (a b n : ℕ) (h : a * b = n) (g : Fin n → M) :
    ∑ R : Fin n, g R
      = ∑ i : Fin a, ∑ r : Fin b, g ⟨b * i.val + r.val, by
          have hi := i.isLt; have hr := r.isLt
          calc b * i.val + r.val < b * i.val + b := by omega
            _ = b * (i.val + 1) := by ring
            _ ≤ b * a := Nat.mul_le_mul_left b hi
            _ = n := by rw [Nat.mul_comm]; exact h⟩ := by
  subst h
  rw [← Equiv.sum_comp finProdFinEquiv g, Fintype.sum_prod_type]
  refine Finset.sum_congr rfl fun i _ => Finset.sum_congr rfl fun r _ => ?_
  congr 1
  apply Fin.ext
  simp [finProdFinEquiv, Nat.add_comm]

/-- The sum over all pairs of rows, tile by tile. -/
theorem regroup {M : Type*} [AddCommMonoid M] (f : Fin 8192 → Fin 8192 → M) :
    (∑ i : Fin 16, ∑ j : Fin 8, ∑ r : Fin 512, ∑ c : Fin 1024,
        f ⟨512 * i.val + r.val, by omega⟩ ⟨1024 * j.val + c.val, by omega⟩)
      = ∑ R : Fin 8192, ∑ C : Fin 8192, f R C := by
  rw [sum_blocks 16 512 8192 (by norm_num) (fun R => ∑ C : Fin 8192, f R C)]
  refine Finset.sum_congr rfl fun i _ => ?_
  rw [Finset.sum_comm]
  refine Finset.sum_congr rfl fun r _ => ?_
  rw [sum_blocks 8 1024 8192 (by norm_num) (fun C => f _ C)]

/-! ## The float literals of the kernel formula -/

theorem lit_zero : lit 0x00000000#32 = 0 := Ideal.ofBits_zero_f32
theorem lit_one : lit 0x3F800000#32 = 1 := by
  simp [lit, Ideal.ofBits, Ideal.ieee, -EReal.coe_mul]; norm_num
theorem lit_two : lit 0x40000000#32 = ((2 : ℝ) : EReal) := by
  simp [lit, Ideal.ofBits, Ideal.ieee, -EReal.coe_mul]; norm_num
theorem lit_neg_one : lit 0xBF800000#32 = ((-1 : ℝ) : EReal) := by
  simp [lit, Ideal.ofBits, Ideal.ieee, -EReal.coe_mul]; norm_num

/-! ## A row against itself -/

/-- A finite sum of reals, read in the extended reals, is the sum of the readings. -/
theorem coe_sum_real {ι : Type*} (s : Finset ι) (x : ι → ℝ) :
    ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

/-- The clamped squared distance of a row of finite entries from itself is zero. -/
theorem sqDist_self (X : Arr) (hfin : ∀ i, X i ≠ ⊤ ∧ X i ≠ ⊥) (r : Fin 8192) : sqDist X X r r = 0 := by
  have hx : ∀ k : Fin 256, X (ix2 r k) = (((X (ix2 r k)).toReal : ℝ) : EReal) := fun k =>
    (EReal.coe_toReal (hfin _).1 (hfin _).2).symm
  have hsum : ∑ k : Fin 256, X (ix2 r k) * X (ix2 r k)
      = ((∑ k : Fin 256, (X (ix2 r k)).toReal * (X (ix2 r k)).toReal : ℝ) : EReal) := by
    rw [coe_sum_real]
    refine Finset.sum_congr rfl fun k _ => ?_
    rw [EReal.coe_mul, ← hx k]
  unfold sqDist rowSq gram
  rw [hsum, lit_zero, lit_two, zero_add, ← EReal.coe_add, ← EReal.coe_mul, ← EReal.coe_sub]
  have h0 : ∀ S : ℝ, S + S - 2 * S = 0 := fun S => by ring
  rw [h0, EReal.coe_zero, max_self]

/-- The distance of a row of finite entries from itself is zero: the comparison 0 > 0 fails. -/
theorem dist_self (X : Arr) (hfin : ∀ i, X i ≠ ⊤ ∧ X i ≠ ⊥) (r : Fin 8192) : dist X X r r = 0 := by
  unfold dist
  rw [sqDist_self X hfin r, lit_zero]
  have hc : Ideal.cmp .ogt (0 : EReal) 0 = 0#1 := by simp [Ideal.cmp]
  rw [hc, select_zero]

/-- The kernel value of a row of finite entries against itself is 1. -/
theorem kern_self (X : Arr) (hfin : ∀ i, X i ≠ ⊤ ∧ X i ≠ ⊥) (r : Fin 8192) :
    kern X X r r = lit 0x3F800000#32 := by
  unfold kern
  rw [dist_self X hfin r, mul_zero, lit_one, ← EReal.coe_zero, Ideal.exp_coe, Real.exp_zero, EReal.coe_one]

/-- Forcing 1 on the diagonal of the self-kernel changes nothing. -/
theorem masked_eq (X : Arr) (hfin : ∀ i, X i ≠ ⊤ ∧ X i ≠ ⊥) (R C : Fin 8192) :
    (if R.val = C.val then lit 0x3F800000#32 else kern X X R C) = kern X X R C := by
  split_ifs with h
  · have hRC : R = C := Fin.ext h
    subst hRC
    exact (kern_self X hfin R).symm
  · rfl

end Cert.Mmd

end
-- ==== Proof.TileSums.lean ====
/-
  Sums of tile sums. A running sum that starts from z and adds T 0, T 1, …, T j in turn is z plus the sum of those
  terms; and the partial sums of all the tiles of the 16 x 8 grid, each started from zero, add up to the sum over all
  pairs of rows. Addition of extended reals is commutative and associative, so neither needs finiteness.
-/
import proofs.«105376_j19189913878688_2_alg».proof.Proof.MmdAlgebra

noncomputable section

namespace Cert.Mmd

open Idealize.ShloMosaic Idealize.ShloMosaic.ValueIdx

/-- The left-nested sum z + T 0 + T 1 + … + T j. -/
def chainSum (z : EReal) (T : ℕ → EReal) : ℕ → EReal
  | 0 => z + T 0
  | j + 1 => chainSum z T j + T (j + 1)

theorem chainSum_eq (z : EReal) (T : ℕ → EReal) (j : ℕ) : chainSum z T j = z + ∑ s ∈ Finset.range (j + 1), T s := by
  induction j with
  | zero => simp [chainSum]
  | succ j ih => rw [chainSum, ih, Finset.sum_range_succ _ (j + 1), add_assoc]

/-- A row of the grid has eight points. -/
theorem chainSum_row (T : ℕ → EReal) : chainSum (lit 0x00000000#32) T 7 = ∑ j : Fin 8, T j.val := by
  rw [chainSum_eq, lit_zero, zero_add, Finset.sum_range]

/-- One tile's sum of a function of the global row and column, each partial sum started from the zero literal. -/
def tileSum (f : Fin 8192 → Fin 8192 → EReal) (q j : ℕ) : EReal :=
  lit 0x00000000#32 + ∑ r : Fin 512, (lit 0x00000000#32 + ∑ c : Fin 1024,
    if h : q < 16 ∧ j < 8 then f ⟨512 * q + r.val, by omega⟩ ⟨1024 * j + c.val, by omega⟩ else 0)

/-- The sixteen rows' sums of eight tile sums, from the zero literal, are the sum over all pairs. -/
theorem sum_tiles (f : Fin 8192 → Fin 8192 → EReal) :
    lit 0x00000000#32 + ∑ q : Fin 16, ∑ j : Fin 8, tileSum f q.val j.val = lit 0x00000000#32 + ∑ R : Fin 8192, ∑ C : Fin 8192, f R C := by
  rw [← regroup f]
  refine congrArg (_ + ·) (Finset.sum_congr rfl fun q _ => Finset.sum_congr rfl fun j _ => ?_)
  unfold tileSum
  rw [lit_zero, zero_add]
  refine Finset.sum_congr rfl fun r _ => ?_
  rw [zero_add]
  refine Finset.sum_congr rfl fun c _ => ?_
  rw [dif_pos ⟨q.isLt, j.isLt⟩]

/-- With the kernel values as the function: the total of the specification. -/
theorem sum_tiles_kern (X Y : Arr) (f : Fin 8192 → Fin 8192 → EReal) (hf : ∀ R C, f R C = kern X Y R C) :
    lit 0x00000000#32 + ∑ q : Fin 16, ∑ j : Fin 8, tileSum f q.val j.val = total X Y := by
  rw [sum_tiles]
  unfold total
  refine congrArg (_ + ·) (Finset.sum_congr rfl fun R _ => Finset.sum_congr rfl fun C _ => hf R C)

end Cert.Mmd

end
-- ==== Proof.KI.RowValue.lean ====
/-
  The value of a row of the grid, over the extended reals.

  One point of the grid adds its tile's sum to the running sum it is handed: at point (q, j) of the first two calls
  the sum over the tile of the kernel values of the call's array against itself, with 1 forced where the global row
  equals the global column; at point (q, j) of the third call the sum of the kernel values of the first array against
  the second. A row's eight points, from the zero literal, give the row's eight tile sums; the sixteen rows give the
  total of the specification.
-/
import proofs.«105376_j19189913878688_2_alg».proof.Proof.KI.Pieces0
import proofs.«105376_j19189913878688_2_alg».proof.Proof.KI.Pieces1
import proofs.«105376_j19189913878688_2_alg».proof.Proof.KI.Pieces2
import proofs.«105376_j19189913878688_2_alg».proof.Proof.KI.Closed0
import proofs.«105376_j19189913878688_2_alg».proof.Proof.KI.Closed1
import proofs.«105376_j19189913878688_2_alg».proof.Proof.KI.Closed2
import proofs.«105376_j19189913878688_2_alg».proof.Proof.KI.Blocks
import proofs.«105376_j19189913878688_2_alg».proof.Proof.KI.Outputs
import proofs.«105376_j19189913878688_2_alg».proof.Proof.TileValue
import proofs.«105376_j19189913878688_2_alg».proof.Proof.TileSums
import proofs.«105376_j19189913878688_2_alg».proof.Proof.MmdAlgebra

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Mmd
open scoped BigOperators

variable (V : (c : Dev nD) → (b : Ref sig .tc) → Buf (Elt Ideal) ((c : Thread nD τ).loc b))

/-- The self-kernel with 1 forced on the diagonal. -/
def mskKern (X : Arr) (R C : Fin 8192) : EReal := if R.val = C.val then lit 0x3F800000#32 else kern X X R C

/-! ## The zeroed running sum -/

theorem k0_pay2_apply : (k0_pay2 (F := Ideal)) (ix3 0 0 0) = lit 0x00000000#32 := by
  show shapeCast S1x1x1 (broadcast S1x1x1 (Scalar.ofBits (F := Ideal) .f32 0x00000000#32)) _ (ix3 0 0 0) = _
  rw [shapeCast_self]
  rfl

theorem k1_pay2_apply : (k1_pay2 (F := Ideal)) (ix3 0 0 0) = lit 0x00000000#32 := by
  show shapeCast S1x1x1 (broadcast S1x1x1 (Scalar.ofBits (F := Ideal) .f32 0x00000000#32)) _ (ix3 0 0 0) = _
  rw [shapeCast_self]
  rfl

theorem k2_pay2_apply : (k2_pay2 (F := Ideal)) (ix3 0 0 0) = lit 0x00000000#32 := by
  show shapeCast S1x1x1 (broadcast S1x1x1 (Scalar.ofBits (F := Ideal) .f32 0x00000000#32)) _ (ix3 0 0 0) = _
  rw [shapeCast_self]
  rfl

/-! ## One point's step -/

/-- Point (q, j) of the first call adds the masked tile sum of the first array against itself. -/
theorem step0_eval (c : Dev nD) (q j : ℕ) (hq : q < 16) (hj : j < 8) (t0 t : Fin cfg0.N) (h0 : t0.val / 8 = q)
    (ht : t.val = 8 * q + j) (xa : Vec Ideal S1x1x1 .f32) :
    step0 (grid0.coords t) (blk0 V c 1 t) (k0_pay4 (blk0 V c 0 t0)) (k0_pay3 (blk0 V c 0 t0)) xa (ix3 0 0 0)
      = xa (ix3 0 0 0) + tileSum (mskKern (V c main_arg0)) q j := by
  have hc := coords0 t
  have hc0 : ((grid0.coords t) 0).val = (⟨q, hq⟩ : Fin 16).val := by rw [hc.1, ht]; show _ = q; omega
  have hc1 : ((grid0.coords t) 1).val = j := by rw [hc.2, ht]; omega
  have hj' : t.val % 8 = j := by omega
  unfold step0
  rw [show BitVec.ofNat 32 ((grid0.coords t) 1).val = BitVec.ofNat 32 (⟨j, hj⟩ : Fin 8).val from by rw [hc1]]
  refine (k0_pay1_apply ⟨q, hq⟩ ⟨j, hj⟩ (grid0.coords t) hc0 _ _ xa 0 0 0).trans ?_
  unfold tileSum
  refine congrArg (xa (ix3 0 0 0) + ·) (congrArg (lit 0x00000000#32 + ·) (Finset.sum_congr rfl fun r _ =>
    congrArg (lit 0x00000000#32 + ·) (Finset.sum_congr rfl fun cc _ => ?_)))
  rw [dif_pos ⟨hq, hj⟩]
  unfold mskKern
  show (if 512 * q + r.val = 1024 * j + cc.val then _ else _) = (if 512 * q + r.val = 1024 * j + cc.val then _ else _)
  refine congrArg (fun x => if 512 * q + r.val = 1024 * j + cc.val then lit 0x3F800000#32 else x) ?_
  rw [k0_pay5_apply _ _ _ (blk0 V c 0 t0) (fun r k => k0_pay4_apply _ r k) (fun r => k0_pay3_apply _ r 0) r cc]
  subst h0
  subst hj'
  exact tileKern_eq (V c main_arg0) (V c main_arg0) ⟨t0.val / 8, hq⟩ ⟨t.val % 8, hj⟩ (blk0 V c 0 t0) (blk0 V c 1 t)
    (fun r k => blk0_0_apply V c t0 r k) (fun c' k => blk0_1_apply V c t c' k) r cc

/-- Point (q, j) of the second call adds the masked tile sum of the second array against itself. -/
theorem step1_eval (c : Dev nD) (q j : ℕ) (hq : q < 16) (hj : j < 8) (t0 t : Fin cfg1.N) (h0 : t0.val / 8 = q)
    (ht : t.val = 8 * q + j) (xa : Vec Ideal S1x1x1 .f32) :
    step1 (grid1.coords t) (blk1 V c 1 t) (k1_pay4 (blk1 V c 0 t0)) (k1_pay3 (blk1 V c 0 t0)) xa (ix3 0 0 0)
      = xa (ix3 0 0 0) + tileSum (mskKern (V c main_arg1)) q j := by
  have hc := coords1 t
  have hc0 : ((grid1.coords t) 0).val = (⟨q, hq⟩ : Fin 16).val := by rw [hc.1, ht]; show _ = q; omega
  have hc1 : ((grid1.coords t) 1).val = j := by rw [hc.2, ht]; omega
  have hj' : t.val % 8 = j := by omega
  unfold step1
  rw [show BitVec.ofNat 32 ((grid1.coords t) 1).val = BitVec.ofNat 32 (⟨j, hj⟩ : Fin 8).val from by rw [hc1]]
  refine (k1_pay1_apply ⟨q, hq⟩ ⟨j, hj⟩ (grid1.coords t) hc0 _ _ xa 0 0 0).trans ?_
  unfold tileSum
  refine congrArg (xa (ix3 0 0 0) + ·) (congrArg (lit 0x00000000#32 + ·) (Finset.sum_congr rfl fun r _ =>
    congrArg (lit 0x00000000#32 + ·) (Finset.sum_congr rfl fun cc _ => ?_)))
  rw [dif_pos ⟨hq, hj⟩]
  unfold mskKern
  show (if 512 * q + r.val = 1024 * j + cc.val then _ else _) = (if 512 * q + r.val = 1024 * j + cc.val then _ else _)
  refine congrArg (fun x => if 512 * q + r.val = 1024 * j + cc.val then lit 0x3F800000#32 else x) ?_
  rw [k1_pay5_apply _ _ _ (blk1 V c 0 t0) (fun r k => k1_pay4_apply _ r k) (fun r => k1_pay3_apply _ r 0) r cc]
  subst h0
  subst hj'
  exact tileKern_eq (V c main_arg1) (V c main_arg1) ⟨t0.val / 8, hq⟩ ⟨t.val % 8, hj⟩ (blk1 V c 0 t0) (blk1 V c 1 t)
    (fun r k => blk1_0_apply V c t0 r k) (fun c' k => blk1_1_apply V c t c' k) r cc

/-- Point (q, j) of the third call adds the tile sum of the first array against the second. -/
theorem step2_eval (c : Dev nD) (q j : ℕ) (hq : q < 16) (hj : j < 8) (t0 t : Fin cfg2.N) (h0 : t0.val / 8 = q)
    (ht : t.val = 8 * q + j) (xa : Vec Ideal S1x1x1 .f32) :
    step2 (blk2 V c 1 t) (k2_pay4 (blk2 V c 0 t0)) (k2_pay3 (blk2 V c 0 t0)) xa (ix3 0 0 0)
      = xa (ix3 0 0 0) + tileSum (kern (V c main_arg0) (V c main_arg1)) q j := by
  have hj' : t.val % 8 = j := by omega
  unfold step2
  refine (k2_pay1_pay5_apply _ _ _ (blk2 V c 0 t0) (fun r k => k2_pay4_apply _ r k) (fun r => k2_pay3_apply _ r 0)
    xa 0 0 0).trans ?_
  unfold tileSum
  refine congrArg (xa (ix3 0 0 0) + ·) (congrArg (lit 0x00000000#32 + ·) (Finset.sum_congr rfl fun r _ =>
    congrArg (lit 0x00000000#32 + ·) (Finset.sum_congr rfl fun cc _ => ?_)))
  rw [dif_pos ⟨hq, hj⟩]
  subst h0
  subst hj'
  exact tileKern_eq (V c main_arg0) (V c main_arg1) ⟨t0.val / 8, hq⟩ ⟨t.val % 8, hj⟩ (blk2 V c 0 t0) (blk2 V c 1 t)
    (fun r k => blk2_0_apply V c t0 r k) (fun c' k => blk2_1_apply V c t c' k) r cc

/-! ## A row of the grid, and the call's output array -/

/-- Along row q of the first call the running sum after point j is the zero literal plus the row's first j + 1 masked
    tile sums, added in turn. -/
theorem rowFold0_eval (c : Dev nD) (q : ℕ) (hq : q < 16) (j : ℕ) (hj : j < 8) (h : 8 * q + j < cfg0.N) :
    rowFold0 V c q j h (ix3 0 0 0) = chainSum (lit 0x00000000#32) (tileSum (mskKern (V c main_arg0)) q) j := by
  induction j with
  | zero =>
    rw [rowFold0, chainSum]
    refine (step0_eval V c q 0 hq (by omega) ⟨8 * q + 0, h⟩ ⟨8 * q + 0, h⟩ (by show (8 * q + 0) / 8 = q; omega) rfl
      _).trans ?_
    rw [k0_pay2_apply]
  | succ j ih =>
    rw [rowFold0, chainSum]
    refine (step0_eval V c q (j + 1) hq hj ⟨8 * q, by omega⟩ ⟨8 * q + (j + 1), h⟩ (by show (8 * q) / 8 = q; omega) rfl
      _).trans ?_
    rw [ih (by omega) (by omega)]

/-- Entry q of the first call's output array: the eight masked tile sums of row q. -/
theorem outArr0_entry (c : Dev nD) (q : Fin 16) :
    outArr0 V c (ix3 q 0 0) = ∑ j : Fin 8, tileSum (mskKern (V c main_arg0)) q.val j.val := by
  have hN : 8 * q.val + 7 < cfg0.N := by rw [show cfg0.N = 128 from N_0]; have := q.isLt; omega
  show (stateAt0 V c (8 * q.val + 7) _).1 (ix3 0 0 0) = _
  rw [out0_closed V c q.val hN, rowFold0_eval V c q.val q.isLt 7 (by omega) hN, chainSum_row]

/-- The sum of the first call's output array, from the zero literal, is the total of the first array against
    itself: on the diagonal the forced 1 is the kernel value, the entries being finite. -/
theorem outSum0 (c : Dev nD)
    (hfin : ∀ i, @Ne EReal ((V c main_arg0 : Arr) i) ⊤ ∧ @Ne EReal ((V c main_arg0 : Arr) i) ⊥) :
    lit 0x00000000#32 + ∑ q : Fin 16, outArr0 V c (ix3 q 0 0) = total (V c main_arg0) (V c main_arg0) := by
  rw [Finset.sum_congr rfl fun q _ => outArr0_entry V c q]
  exact sum_tiles_kern (V c main_arg0) (V c main_arg0) (mskKern (V c main_arg0))
    (fun R C => masked_eq (V c main_arg0) hfin R C)

/-! ## The same for the second call -/

/-- Along row q of the second call the running sum after point j is the zero literal plus the row's first j + 1 masked
    tile sums, added in turn. -/
theorem rowFold1_eval (c : Dev nD) (q : ℕ) (hq : q < 16) (j : ℕ) (hj : j < 8) (h : 8 * q + j < cfg1.N) :
    rowFold1 V c q j h (ix3 0 0 0) = chainSum (lit 0x00000000#32) (tileSum (mskKern (V c main_arg1)) q) j := by
  induction j with
  | zero =>
    rw [rowFold1, chainSum]
    refine (step1_eval V c q 0 hq (by omega) ⟨8 * q + 0, h⟩ ⟨8 * q + 0, h⟩ (by show (8 * q + 0) / 8 = q; omega) rfl
      _).trans ?_
    rw [k1_pay2_apply]
  | succ j ih =>
    rw [rowFold1, chainSum]
    refine (step1_eval V c q (j + 1) hq hj ⟨8 * q, by omega⟩ ⟨8 * q + (j + 1), h⟩ (by show (8 * q) / 8 = q; omega) rfl
      _).trans ?_
    rw [ih (by omega) (by omega)]

/-- Entry q of the second call's output array: the eight masked tile sums of row q. -/
theorem outArr1_entry (c : Dev nD) (q : Fin 16) :
    outArr1 V c (ix3 q 0 0) = ∑ j : Fin 8, tileSum (mskKern (V c main_arg1)) q.val j.val := by
  have hN : 8 * q.val + 7 < cfg1.N := by rw [show cfg1.N = 128 from N_1]; have := q.isLt; omega
  show (stateAt1 V c (8 * q.val + 7) _).1 (ix3 0 0 0) = _
  rw [out1_closed V c q.val hN, rowFold1_eval V c q.val q.isLt 7 (by omega) hN, chainSum_row]

/-- The sum of the second call's output array, from the zero literal, is the total of the second array against
    itself: on the diagonal the forced 1 is the kernel value, the entries being finite. -/
theorem outSum1 (c : Dev nD)
    (hfin : ∀ i, @Ne EReal ((V c main_arg1 : Arr) i) ⊤ ∧ @Ne EReal ((V c main_arg1 : Arr) i) ⊥) :
    lit 0x00000000#32 + ∑ q : Fin 16, outArr1 V c (ix3 q 0 0) = total (V c main_arg1) (V c main_arg1) := by
  rw [Finset.sum_congr rfl fun q _ => outArr1_entry V c q]
  exact sum_tiles_kern (V c main_arg1) (V c main_arg1) (mskKern (V c main_arg1))
    (fun R C => masked_eq (V c main_arg1) hfin R C)

/-! ## The third call: no mask, the first array against the second -/

/-- Along row q of the third call the running sum after point j is the zero literal plus the row's first j + 1 tile
    sums, added in turn. -/
theorem rowFold2_eval (c : Dev nD) (q : ℕ) (hq : q < 16) (j : ℕ) (hj : j < 8) (h : 8 * q + j < cfg2.N) :
    rowFold2 V c q j h (ix3 0 0 0)
      = chainSum (lit 0x00000000#32) (tileSum (kern (V c main_arg0) (V c main_arg1)) q) j := by
  induction j with
  | zero =>
    rw [rowFold2, chainSum]
    refine (step2_eval V c q 0 hq (by omega) ⟨8 * q + 0, h⟩ ⟨8 * q + 0, h⟩ (by show (8 * q + 0) / 8 = q; omega) rfl
      _).trans ?_
    rw [k2_pay2_apply]
  | succ j ih =>
    rw [rowFold2, chainSum]
    refine (step2_eval V c q (j + 1) hq hj ⟨8 * q, by omega⟩ ⟨8 * q + (j + 1), h⟩ (by show (8 * q) / 8 = q; omega) rfl
      _).trans ?_
    rw [ih (by omega) (by omega)]

/-- Entry q of the third call's output array: the eight tile sums of row q. -/
theorem outArr2_entry (c : Dev nD) (q : Fin 16) :
    outArr2 V c (ix3 q 0 0) = ∑ j : Fin 8, tileSum (kern (V c main_arg0) (V c main_arg1)) q.val j.val := by
  have hN : 8 * q.val + 7 < cfg2.N := by rw [show cfg2.N = 128 from N_2]; have := q.isLt; omega
  show (stateAt2 V c (8 * q.val + 7) _).1 (ix3 0 0 0) = _
  rw [out2_closed V c q.val hN, rowFold2_eval V c q.val q.isLt 7 (by omega) hN, chainSum_row]

/-- The sum of the third call's output array, from the zero literal, is the total of the first array against the
    second. -/
theorem outSum2 (c : Dev nD) :
    lit 0x00000000#32 + ∑ q : Fin 16, outArr2 V c (ix3 q 0 0) = total (V c main_arg0) (V c main_arg1) := by
  rw [Finset.sum_congr rfl fun q _ => outArr2_entry V c q]
  exact sum_tiles_kern (V c main_arg0) (V c main_arg1) (kern (V c main_arg0) (V c main_arg1)) (fun R C => rfl)

end Cert.KernelIdeal.Regions

end
-- ==== Proof.Finite.lean ====
/-
  The inputs are finite. The precondition says, of each of the two argument arrays, that every entry's absolute value
  is below plus infinity. In the extended reals the absolute value of plus infinity and of minus infinity is plus
  infinity, so every entry is a real number: neither the top nor the bottom element.
-/
import proofs.«105376_j19189913878688_2_alg».proof.Defs
import proofs.«105376_j19189913878688_2_alg».proof.Proof.Gen.Pre_finite_inputs
import Idealize.ShloMosaic.Lib.ReduceAll
import Idealize.ShloMosaic.Lib.ValueIdx

noncomputable section

namespace Cert.Mmd.Finite

open Idealize.ShloMosaic Idealize.ShloMosaic.ValueIdx

/-- The scalar shape has one index. -/
instance : Subsingleton Cert.Pre_finite_inputs.S_.Idx := ⟨fun a b => funext fun d => d.elim0⟩

/-- The pattern `0x7F800000` is plus infinity. -/
theorem ofBits_inf : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    x ≠ ⊤ ∧ x ≠ ⊥ := by
  rw [ofBits_inf] at h
  induction x using EReal.rec with
  | bot => exact absurd h (by simp [Ideal.cmp])
  | top => exact absurd h (by simp [Ideal.cmp])
  | coe r => exact ⟨EReal.coe_ne_top r, EReal.coe_ne_bot r⟩

/-- If the printed predicate holds of two arrays, both hold real numbers only. -/
theorem finite_of_fn [Cert.Pre_finite_inputs.Facts] (x0 x1 : FVec Ideal Cert.Pre_finite_inputs.S8192x256 .f32)
    (h : Cert.Pre_finite_inputs.fn (F := Ideal) x0 x1 = (fun _ => 1#1)) :
    (∀ i, x0 i ≠ ⊤ ∧ x0 i ≠ ⊥) ∧ (∀ i, x1 i ≠ ⊤ ∧ x1 i ≠ ⊥) := by
  have h0 := congrFun h ix0
  dsimp only [Cert.Pre_finite_inputs.fn] at h0
  obtain ⟨ha, hb⟩ := IntOp.andi_eq_one.1 h0
  exact ⟨fun i => real_of_abs_lt (x0 i) (Host.reduce_andi_all _ _ _ _ ix0 ha i),
    fun i => real_of_abs_lt (x1 i) (Host.reduce_andi_all _ _ _ _ ix0 hb i)⟩

/-- The idealized kernel's two argument arrays hold real numbers only, on every device. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, @Ne EReal (m ((c.tc : Thread Cert.KernelIdeal.nD Cert.KernelIdeal.τ).loc Cert.KernelIdeal.main_arg0) i) ⊤
        ∧ @Ne EReal (m ((c.tc : Thread Cert.KernelIdeal.nD Cert.KernelIdeal.τ).loc Cert.KernelIdeal.main_arg0) i) ⊥)
      ∧ (∀ i, @Ne EReal (m ((c.tc : Thread Cert.KernelIdeal.nD Cert.KernelIdeal.τ).loc Cert.KernelIdeal.main_arg1) i) ⊤
        ∧ @Ne EReal (m ((c.tc : Thread Cert.KernelIdeal.nD Cert.KernelIdeal.τ).loc Cert.KernelIdeal.main_arg1) i) ⊥) :=
  finite_of_fn _ _ (h c)

/-- The same of the idealized reference's two argument arrays. -/
theorem finite_of_pre_ref [Cert.ReferenceIdeal.Facts] [Cert.Pre_finite_inputs.Facts]
    (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) :
    (∀ i, @Ne EReal (m ((c.tc : Thread Cert.ReferenceIdeal.nD Cert.ReferenceIdeal.τ).loc Cert.ReferenceIdeal.main_arg0) i) ⊤
        ∧ @Ne EReal (m ((c.tc : Thread Cert.ReferenceIdeal.nD Cert.ReferenceIdeal.τ).loc Cert.ReferenceIdeal.main_arg0) i) ⊥)
      ∧ (∀ i, @Ne EReal (m ((c.tc : Thread Cert.ReferenceIdeal.nD Cert.ReferenceIdeal.τ).loc Cert.ReferenceIdeal.main_arg1) i) ⊤
        ∧ @Ne EReal (m ((c.tc : Thread Cert.ReferenceIdeal.nD Cert.ReferenceIdeal.τ).loc Cert.ReferenceIdeal.main_arg1) i) ⊥) :=
  finite_of_fn _ _ (h c)

end Cert.Mmd.Finite

end
-- ==== Proof.KI.KernelValue.lean ====
/-
  The idealized kernel program's result. After the last host stretch the result buffer holds the combination of the
  three calls' means; each call's output array holds its sixteen row sums of tile sums, which regroup into the sum over
  all pairs of rows; on the diagonal of the two same-array calls the forced 1 is the kernel value there because the
  inputs are finite. So the result is the maximum mean discrepancy of the specification.
-/
import proofs.«105376_j19189913878688_2_alg».proof.Defs
import proofs.«105376_j19189913878688_2_alg».proof.Proof.KI.Tail
import proofs.«105376_j19189913878688_2_alg».proof.Proof.KI.Args
import proofs.«105376_j19189913878688_2_alg».proof.Proof.KI.Outputs
import proofs.«105376_j19189913878688_2_alg».proof.Proof.KI.RowValue
import proofs.«105376_j19189913878688_2_alg».proof.Proof.Finite

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Mmd

/-- Under the precondition the result buffer ends at the specification's value of the two argument arrays. -/
theorem kernel_value (m : (ℓ : Loc nD τ sig) → Buf (Elt Ideal) ℓ) (ρ : Dev nD → PrngReg) (hpre : Cert.Pre_KernelIdeal m) (c : Dev nD) (i : S_.Idx) :
    (W6 (F := Ideal) m ρ c (Proc.devRef .tc main_v11)) i
      = Cert.Mmd.mmd (m ((c.tc : Thread nD τ).loc main_arg0)) (m ((c.tc : Thread nD τ).loc main_arg1)) := by
  obtain ⟨hf0, hf1⟩ := Cert.Mmd.Finite.finite_of_pre m hpre c
  rw [tail_eq, W1_out, W3_out, W5_out, final0, final1, final2]
  unfold tailVal
  rw [outSum0 (V0 m ρ) c hf0, outSum1 (V2 m ρ) c (by rw [V2_main_arg1]; exact hf1), outSum2 (V4 m ρ) c,
    V2_main_arg1, V4_main_arg0, V4_main_arg1]
  rfl

end Cert.KernelIdeal.Regions

end
-- ==== Proof.RefSide.lean ====
/-
  The reference computation equals the specification.

  The reference is a straight-line program over whole arrays. Each lemma below reads one of its array values at one
  index: a row's squared norm, the inner product of two rows, the clamped squared distance, the guarded square root,
  the kernel value exp(-d). The three pairwise blocks (X against X, Y against Y, X against Y) are the same chain of
  operations on different operands. The sum of a block over all index pairs is the double sum over rows and columns,
  and the scalar tail (three means, their combination) is the specification's.
-/
import proofs.«105376_j19189913878688_2_alg».proof.Proof.Spec
import proofs.«105376_j19189913878688_2_alg».proof.Proof.Gen.ReferenceIdeal.Read

noncomputable section

namespace Cert.Mmd.RefSide

open Idealize.ShloMosaic Idealize.ShloMosaic.ValueIdx Cert.ReferenceIdeal Cert.ReferenceIdeal.Read

/-- The type of the reference's two arguments; it unfolds to `Cert.Mmd.Arr`. -/
abbrev A : Type := (⟨Cert.ReferenceIdeal.S8192x256, .f32⟩ : BufTy).Contents (Elt Ideal)

/-- Two rank-2 indices are equal when their two coordinates are. -/
local macro "idx_eq2" : tactic =>
  `(tactic| exact funext fun a => Fin.ext (by match a with | ⟨0, _⟩ => rfl | ⟨1, _⟩ => rfl))
/-- Two rank-1 indices are equal when their coordinate is. -/
local macro "idx_eq1" : tactic =>
  `(tactic| exact funext fun a => Fin.ext (by match a with | ⟨0, _⟩ => rfl))

/-! ### X against X -/

section SS
variable (x0 : A) (r c : Fin 8192)

/-- The row sum of squares (the row operand's copy). -/
theorem ss_v1 : val_main_v1 (F := Ideal) x0 (ix1 r) = rowSq x0 r := by
  have h : ∀ k : Fin 256, idx_main_v1 (ix1 r) k = ix2 r k := fun k => by idx_eq2
  simp only [val_main_v1_apply, val_main_cst_apply, val_main_v0_apply, Ideal.ofBits_def, Ideal.mulf_def, rowSq, h]

/-- The row sum of squares (the column operand's copy). -/
theorem ss_v4 : val_main_v4 (F := Ideal) x0 (ix1 c) = rowSq x0 c := by
  have h : ∀ k : Fin 256, idx_main_v4 (ix1 c) k = ix2 c k := fun k => by idx_eq2
  simp only [val_main_v4_apply, val_main_cst_0_apply, val_main_v3_apply, Ideal.ofBits_def, Ideal.mulf_def, rowSq, h]

/-- Broadcast along the columns: entry (r, c) is the squared norm of row r. -/
theorem ss_v6 : val_main_v6 (F := Ideal) x0 (ix2 r c) = rowSq x0 r := by
  have h : idx_main_v2 (idx_main_v6 (ix2 r c)) = ix1 r := by idx_eq1
  rw [val_main_v6_apply, val_main_v2_apply, h, ss_v1]

/-- Broadcast along the rows: entry (r, c) is the squared norm of row c. -/
theorem ss_v7 : val_main_v7 (F := Ideal) x0 (ix2 r c) = rowSq x0 c := by
  have h : idx_main_v5 (idx_main_v7 (ix2 r c)) = ix1 c := by idx_eq1
  rw [val_main_v7_apply, val_main_v5_apply, h, ss_v4]

/-- The product with the transpose: entry (r, c) is the inner product of rows r and c. -/
theorem ss_v10 : val_main_v10 (F := Ideal) x0 (ix2 r c) = gram x0 x0 r c := by
  have hl : ∀ k : Fin 256, lidx_main_v10 (ix2 r c) k = ix2 r k := fun k => by idx_eq2
  have hr : ∀ k : Fin 256, idx_main_v9 (ridx_main_v10 (ix2 r c) k) = ix2 c k := fun k => by idx_eq2
  simp only [val_main_v10_apply, val_main_v9_apply, gram, hl, hr]

/-- The expansion |x|^2 + |y|^2 - 2 x.y. -/
theorem ss_v13 : val_main_v13 (F := Ideal) x0 (ix2 r c)
    = (rowSq x0 r + rowSq x0 c) - lit 0x40000000#32 * gram x0 x0 r c := by
  rw [val_main_v13_apply, val_main_v8_apply, val_main_v12_apply, val_main_v11_apply, val_main_cst_1_apply,
    ss_v6, ss_v7, ss_v10]
  simp only [Ideal.subf_def, Ideal.addf_def, Ideal.mulf_def, Ideal.ofBits_def]

/-- Clamped at zero. -/
theorem ss_v15 : val_main_v15 (F := Ideal) x0 (ix2 r c) = sqDist x0 x0 r c := by
  rw [val_main_v15_apply, val_main_v14_apply, val_main_cst_2_apply, ss_v13]
  simp only [Ideal.maximumf_def, Ideal.ofBits_def, sqDist]

/-- The first test for a positive squared distance. -/
theorem ss_v17 : val_main_v17 (F := Ideal) x0 (ix2 r c)
    = Ideal.cmp .ogt (sqDist x0 x0 r c) (lit 0x00000000#32) := by
  rw [val_main_v17_apply, val_main_v16_apply, val_main_cst_3_apply, ss_v15]
  rfl

/-- The operand of the square root: the squared distance where positive, one elsewhere. -/
theorem ss_v18 : val_main_v18 (F := Ideal) x0 (ix2 r c)
    = Scalar.select (Ideal.cmp .ogt (sqDist x0 x0 r c) (lit 0x00000000#32)) (sqDist x0 x0 r c) (lit 0x3F800000#32) := by
  rw [val_main_v18_apply, val_main_call0_v1_apply, val_main_call0_v0_apply, val_main_cst_4_apply, ss_v17, ss_v15]
  rfl

/-- The second test for a positive squared distance. -/
theorem ss_v20 : val_main_v20 (F := Ideal) x0 (ix2 r c)
    = Ideal.cmp .ogt (sqDist x0 x0 r c) (lit 0x00000000#32) := by
  rw [val_main_v20_apply, val_main_v19_apply, val_main_cst_5_apply, ss_v15]
  rfl

/-- The distance. -/
theorem ss_v22 : val_main_v22 (F := Ideal) x0 (ix2 r c) = dist x0 x0 r c := by
  rw [val_main_v22_apply, val_main_v21_apply, val_main_call1_v1_apply, val_main_call1_v0_apply, val_main_cst_6_apply,
    ss_v20, ss_v18]
  rfl

/-- The kernel value. -/
theorem ss_v71 : val_main_v71 (F := Ideal) x0 (ix2 r c) = kern x0 x0 r c := by
  rw [val_main_v71_apply, val_main_v70_apply, val_main_v69_apply, val_main_cst_23_apply, ss_v22]
  rfl

/-- The sum over all pairs. -/
theorem ss_total (i : S_.Idx) : val_main_v78 (F := Ideal) x0 i = total x0 x0 := by
  rw [val_main_v78_apply, val_main_cst_26_apply, Ideal.ofBits_def, total]
  refine congrArg (_ + ·) ((sum_idx2 _).trans ?_)
  exact Finset.sum_congr rfl fun a _ => Finset.sum_congr rfl fun b _ => ss_v71 x0 a b

end SS

/-! ### Y against Y -/

section TT
variable (x1 : A) (r c : Fin 8192)

/-- The row sum of squares (the row operand's copy). -/
theorem tt_v24 : val_main_v24 (F := Ideal) x1 (ix1 r) = rowSq x1 r := by
  have h : ∀ k : Fin 256, idx_main_v24 (ix1 r) k = ix2 r k := fun k => by idx_eq2
  simp only [val_main_v24_apply, val_main_cst_7_apply, val_main_v23_apply, Ideal.ofBits_def, Ideal.mulf_def, rowSq, h]

/-- The row sum of squares (the column operand's copy). -/
theorem tt_v27 : val_main_v27 (F := Ideal) x1 (ix1 c) = rowSq x1 c := by
  have h : ∀ k : Fin 256, idx_main_v27 (ix1 c) k = ix2 c k := fun k => by idx_eq2
  simp only [val_main_v27_apply, val_main_cst_8_apply, val_main_v26_apply, Ideal.ofBits_def, Ideal.mulf_def, rowSq, h]

/-- Broadcast along the columns: entry (r, c) is the squared norm of row r. -/
theorem tt_v29 : val_main_v29 (F := Ideal) x1 (ix2 r c) = rowSq x1 r := by
  have h : idx_main_v25 (idx_main_v29 (ix2 r c)) = ix1 r := by idx_eq1
  rw [val_main_v29_apply, val_main_v25_apply, h, tt_v24]

/-- Broadcast along the rows: entry (r, c) is the squared norm of row c. -/
theorem tt_v30 : val_main_v30 (F := Ideal) x1 (ix2 r c) = rowSq x1 c := by
  have h : idx_main_v28 (idx_main_v30 (ix2 r c)) = ix1 c := by idx_eq1
  rw [val_main_v30_apply, val_main_v28_apply, h, tt_v27]

/-- The product with the transpose: entry (r, c) is the inner product of rows r and c. -/
theorem tt_v33 : val_main_v33 (F := Ideal) x1 (ix2 r c) = gram x1 x1 r c := by
  have hl : ∀ k : Fin 256, lidx_main_v33 (ix2 r c) k = ix2 r k := fun k => by idx_eq2
  have hr : ∀ k : Fin 256, idx_main_v32 (ridx_main_v33 (ix2 r c) k) = ix2 c k := fun k => by idx_eq2
  simp only [val_main_v33_apply, val_main_v32_apply, gram, hl, hr]

/-- The expansion |x|^2 + |y|^2 - 2 x.y. -/
theorem tt_v36 : val_main_v36 (F := Ideal) x1 (ix2 r c)
    = (rowSq x1 r + rowSq x1 c) - lit 0x40000000#32 * gram x1 x1 r c := by
  rw [val_main_v36_apply, val_main_v31_apply, val_main_v35_apply, val_main_v34_apply, val_main_cst_9_apply,
    tt_v29, tt_v30, tt_v33]
  simp only [Ideal.subf_def, Ideal.addf_def, Ideal.mulf_def, Ideal.ofBits_def]

/-- Clamped at zero. -/
theorem tt_v38 : val_main_v38 (F := Ideal) x1 (ix2 r c) = sqDist x1 x1 r c := by
  rw [val_main_v38_apply, val_main_v37_apply, val_main_cst_10_apply, tt_v36]
  simp only [Ideal.maximumf_def, Ideal.ofBits_def, sqDist]

/-- The first test for a positive squared distance. -/
theorem tt_v40 : val_main_v40 (F := Ideal) x1 (ix2 r c)
    = Ideal.cmp .ogt (sqDist x1 x1 r c) (lit 0x00000000#32) := by
  rw [val_main_v40_apply, val_main_v39_apply, val_main_cst_11_apply, tt_v38]
  rfl

/-- The operand of the square root: the squared distance where positive, one elsewhere. -/
theorem tt_v41 : val_main_v41 (F := Ideal) x1 (ix2 r c)
    = Scalar.select (Ideal.cmp .ogt (sqDist x1 x1 r c) (lit 0x00000000#32)) (sqDist x1 x1 r c) (lit 0x3F800000#32) := by
  rw [val_main_v41_apply, val_main_call2_v1_apply, val_main_call2_v0_apply, val_main_cst_12_apply, tt_v40, tt_v38]
  rfl

/-- The second test for a positive squared distance. -/
theorem tt_v43 : val_main_v43 (F := Ideal) x1 (ix2 r c)
    = Ideal.cmp .ogt (sqDist x1 x1 r c) (lit 0x00000000#32) := by
  rw [val_main_v43_apply, val_main_v42_apply, val_main_cst_13_apply, tt_v38]
  rfl

/-- The distance. -/
theorem tt_v45 : val_main_v45 (F := Ideal) x1 (ix2 r c) = dist x1 x1 r c := by
  rw [val_main_v45_apply, val_main_v44_apply, val_main_call3_v1_apply, val_main_call3_v0_apply, val_main_cst_14_apply,
    tt_v43, tt_v41]
  rfl

/-- The kernel value. -/
theorem tt_v74 : val_main_v74 (F := Ideal) x1 (ix2 r c) = kern x1 x1 r c := by
  rw [val_main_v74_apply, val_main_v73_apply, val_main_v72_apply, val_main_cst_24_apply, tt_v45]
  rfl

/-- The sum over all pairs. -/
theorem tt_total (i : S_.Idx) : val_main_v80 (F := Ideal) x1 i = total x1 x1 := by
  rw [val_main_v80_apply, val_main_cst_28_apply, Ideal.ofBits_def, total]
  refine congrArg (_ + ·) ((sum_idx2 _).trans ?_)
  exact Finset.sum_congr rfl fun a _ => Finset.sum_congr rfl fun b _ => tt_v74 x1 a b

end TT

/-! ### X against Y -/

section ST
variable (x0 x1 : A) (r c : Fin 8192)

/-- The row sum of squares of X. -/
theorem st_v47 : val_main_v47 (F := Ideal) x0 (ix1 r) = rowSq x0 r := by
  have h : ∀ k : Fin 256, idx_main_v47 (ix1 r) k = ix2 r k := fun k => by idx_eq2
  simp only [val_main_v47_apply, val_main_cst_15_apply, val_main_v46_apply, Ideal.ofBits_def, Ideal.mulf_def, rowSq, h]

/-- The row sum of squares of Y. -/
theorem st_v50 : val_main_v50 (F := Ideal) x1 (ix1 c) = rowSq x1 c := by
  have h : ∀ k : Fin 256, idx_main_v50 (ix1 c) k = ix2 c k := fun k => by idx_eq2
  simp only [val_main_v50_apply, val_main_cst_16_apply, val_main_v49_apply, Ideal.ofBits_def, Ideal.mulf_def, rowSq, h]

/-- Broadcast along the columns: entry (r, c) is the squared norm of row r of X. -/
theorem st_v52 : val_main_v52 (F := Ideal) x0 (ix2 r c) = rowSq x0 r := by
  have h : idx_main_v48 (idx_main_v52 (ix2 r c)) = ix1 r := by idx_eq1
  rw [val_main_v52_apply, val_main_v48_apply, h, st_v47]

/-- Broadcast along the rows: entry (r, c) is the squared norm of row c of Y. -/
theorem st_v53 : val_main_v53 (F := Ideal) x1 (ix2 r c) = rowSq x1 c := by
  have h : idx_main_v51 (idx_main_v53 (ix2 r c)) = ix1 c := by idx_eq1
  rw [val_main_v53_apply, val_main_v51_apply, h, st_v50]

/-- The product with the transpose: entry (r, c) is the inner product of row r of X and row c of Y. -/
theorem st_v56 : val_main_v56 (F := Ideal) x0 x1 (ix2 r c) = gram x0 x1 r c := by
  have hl : ∀ k : Fin 256, lidx_main_v56 (ix2 r c) k = ix2 r k := fun k => by idx_eq2
  have hr : ∀ k : Fin 256, idx_main_v55 (ridx_main_v56 (ix2 r c) k) = ix2 c k := fun k => by idx_eq2
  simp only [val_main_v56_apply, val_main_v55_apply, gram, hl, hr]

/-- The expansion |x|^2 + |y|^2 - 2 x.y. -/
theorem st_v59 : val_main_v59 (F := Ideal) x0 x1 (ix2 r c)
    = (rowSq x0 r + rowSq x1 c) - lit 0x40000000#32 * gram x0 x1 r c := by
  rw [val_main_v59_apply, val_main_v54_apply, val_main_v58_apply, val_main_v57_apply, val_main_cst_17_apply,
    st_v52, st_v53, st_v56]
  simp only [Ideal.subf_def, Ideal.addf_def, Ideal.mulf_def, Ideal.ofBits_def]

/-- Clamped at zero. -/
theorem st_v61 : val_main_v61 (F := Ideal) x0 x1 (ix2 r c) = sqDist x0 x1 r c := by
  rw [val_main_v61_apply, val_main_v60_apply, val_main_cst_18_apply, st_v59]
  simp only [Ideal.maximumf_def, Ideal.ofBits_def, sqDist]

/-- The first test for a positive squared distance. -/
theorem st_v63 : val_main_v63 (F := Ideal) x0 x1 (ix2 r c)
    = Ideal.cmp .ogt (sqDist x0 x1 r c) (lit 0x00000000#32) := by
  rw [val_main_v63_apply, val_main_v62_apply, val_main_cst_19_apply, st_v61]
  rfl

/-- The operand of the square root: the squared distance where positive, one elsewhere. -/
theorem st_v64 : val_main_v64 (F := Ideal) x0 x1 (ix2 r c)
    = Scalar.select (Ideal.cmp .ogt (sqDist x0 x1 r c) (lit 0x00000000#32)) (sqDist x0 x1 r c) (lit 0x3F800000#32) := by
  rw [val_main_v64_apply, val_main_call4_v1_apply, val_main_call4_v0_apply, val_main_cst_20_apply, st_v63, st_v61]
  rfl

/-- The second test for a positive squared distance. -/
theorem st_v66 : val_main_v66 (F := Ideal) x0 x1 (ix2 r c)
    = Ideal.cmp .ogt (sqDist x0 x1 r c) (lit 0x00000000#32) := by
  rw [val_main_v66_apply, val_main_v65_apply, val_main_cst_21_apply, st_v61]
  rfl

/-- The distance. -/
theorem st_v68 : val_main_v68 (F := Ideal) x0 x1 (ix2 r c) = dist x0 x1 r c := by
  rw [val_main_v68_apply, val_main_v67_apply, val_main_call5_v1_apply, val_main_call5_v0_apply, val_main_cst_22_apply,
    st_v66, st_v64]
  rfl

/-- The kernel value. -/
theorem st_v77 : val_main_v77 (F := Ideal) x0 x1 (ix2 r c) = kern x0 x1 r c := by
  rw [val_main_v77_apply, val_main_v76_apply, val_main_v75_apply, val_main_cst_25_apply, st_v68]
  rfl

/-- The sum over all pairs. -/
theorem st_total (i : S_.Idx) : val_main_v83 (F := Ideal) x0 x1 i = total x0 x1 := by
  rw [val_main_v83_apply, val_main_cst_30_apply, Ideal.ofBits_def, total]
  refine congrArg (_ + ·) ((sum_idx2 _).trans ?_)
  exact Finset.sum_congr rfl fun a _ => Finset.sum_congr rfl fun b _ => st_v77 x0 x1 a b

end ST

/-! ### The scalar tail -/

/-- The three kernel values, at every pair of rows, are the specification's. -/
theorem kern_ss (x0 : A) (r c : Fin 8192) : val_main_v71 (F := Ideal) x0 (ix2 r c) = kern x0 x0 r c := ss_v71 x0 r c
theorem kern_tt (x1 : A) (r c : Fin 8192) : val_main_v74 (F := Ideal) x1 (ix2 r c) = kern x1 x1 r c := tt_v74 x1 r c
theorem kern_st (x0 x1 : A) (r c : Fin 8192) : val_main_v77 (F := Ideal) x0 x1 (ix2 r c) = kern x0 x1 r c :=
  st_v77 x0 x1 r c

/-- The reference's result is the maximum mean discrepancy of the specification. -/
theorem ref_eq (x0 x1 : (⟨Cert.ReferenceIdeal.S8192x256, .f32⟩ : BufTy).Contents (Elt Ideal)) (i : Cert.ReferenceIdeal.S_.Idx) :
    Cert.ReferenceIdeal.Read.val_main_v86 (F := Ideal) x0 x1 i = Cert.Mmd.mmd x0 x1 := by
  rw [val_main_v86_apply, val_main_v82_apply, val_main_v85_apply, val_main_v79_apply, val_main_v81_apply,
    val_main_v84_apply, val_main_cst_27_apply, val_main_cst_29_apply, val_main_cst_31_apply, val_main_cst_32_apply,
    ss_total, tt_total, st_total]
  simp only [Ideal.subf_def, Ideal.addf_def, Ideal.mulf_def, Ideal.hostDivf_def, Ideal.ofBits_def, mmd, mean]

end Cert.Mmd.RefSide

end
-- ==== Proof.lean ====
/-
  The certificate's proof. The kernel computes a maximum mean discrepancy with an RBF kernel: three calls of one
  tile kernel (source against source, target against target, source against target) on a 16 x 8 grid, each accumulating
  over a row of the grid the sum of exp(-distance) over its 512 x 1024 tile and writing one partial sum per row, followed
  by host operations that add the sixteen partial sums of each call, divide by 2^26 and combine the three means. The
  reference computes the same three means from the full 8192 x 8192 matrices.

  Frames: each program runs to its end, faults nowhere and leaves its two arguments unchanged — for the two kernel
  programs through the run of @main as three regions and three host stretches, each region's body run once per control
  case; for the reference through its straight-line run. Nothing was rewritten by the idealization, so it is preserved
  trivially. At the extended reals both results are the same function `Cert.Mmd.mmd` of the arguments: on the kernel
  side the tiles' sums regroup into the sum over all pairs (commutativity and associativity only), and on the diagonal
  of the two same-array calls the forced value 1 is what the reference computes there, because for real (finite) entries
  |x|^2 + |x|^2 - 2 x.x is exactly 0 — the one place the precondition is used.
-/
import proofs.«105376_j19189913878688_2_alg».proof.Defs
import proofs.«105376_j19189913878688_2_alg».proof.Proof.Gen.Kernel
import proofs.«105376_j19189913878688_2_alg».proof.Proof.Gen.Kernel.Skeleton
import proofs.«105376_j19189913878688_2_alg».proof.Proof.Gen.Kernel.Launch
import proofs.«105376_j19189913878688_2_alg».proof.Proof.Gen.Kernel.Regions
import proofs.«105376_j19189913878688_2_alg».proof.Proof.Gen.Kernel.Points
import proofs.«105376_j19189913878688_2_alg».proof.Proof.Gen.KernelIdeal
import proofs.«105376_j19189913878688_2_alg».proof.Proof.Gen.KernelIdeal.Skeleton
import proofs.«105376_j19189913878688_2_alg».proof.Proof.Gen.KernelIdeal.Launch
import proofs.«105376_j19189913878688_2_alg».proof.Proof.Gen.KernelIdeal.Regions
import proofs.«105376_j19189913878688_2_alg».proof.Proof.Gen.KernelIdeal.Points
import proofs.«105376_j19189913878688_2_alg».proof.Proof.Gen.ReferenceIdeal
import proofs.«105376_j19189913878688_2_alg».proof.Proof.Gen.ReferenceIdeal.Run
import proofs.«105376_j19189913878688_2_alg».proof.Proof.Gen.ReferenceIdeal.Read
import proofs.«105376_j19189913878688_2_alg».proof.Proof.Gen.Pre_finite_inputs
import proofs.«105376_j19189913878688_2_alg».proof.Proof.KW.Run
import proofs.«105376_j19189913878688_2_alg».proof.Proof.KI.Run
import proofs.«105376_j19189913878688_2_alg».proof.Proof.KI.KernelValue
import proofs.«105376_j19189913878688_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Regions.frame (F := Bits) m ρ
theorem frame_kernel_ideal : Cert.frame_KernelIdeal := fun m ρ _ => Cert.KernelIdeal.Regions.frame (F := Ideal) m ρ
theorem frame_reference_ideal : Cert.frame_ReferenceIdeal := fun m ρ _ =>
  (θ_run Cert.ReferenceIdeal.defs _ _).mono (fun _ h c => (h c).2) (Cert.ReferenceIdeal.Value.run (F := Ideal) m ρ)

open Cert.KernelIdeal.Regions in
/-- The two idealized programs, run from memories agreeing on the arguments, end with the same result: the
    specification's value of the arguments, on the kernel side by `kernel_value` and on the reference side by `ref_eq`. -/
theorem algebraic : Cert.algebraic_KernelIdeal_ReferenceIdeal := by
  intro m ρ m' ρ' hpre hagree
  refine ⟨fun c => fun _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Regions.run_all (F := Ideal) m ρ)
    · exact (h c _ (mem_uc Cert.KernelIdeal.main_v11 (by decide))).trans (funext fun i => kernel_value m ρ hpre c i)
    · exact (h c _ (mem_uc Cert.KernelIdeal.main_arg0 (by decide))).trans (W6_main_arg0 m ρ c)
    · exact (h c _ (mem_uc Cert.KernelIdeal.main_arg1 (by decide))).trans (W6_main_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v86_eq]
    funext i
    rw [Cert.Mmd.RefSide.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
